-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : FVec F S512x256 .f32) (main_arg2 : FVec F S256 .f32) (main_arg3 : FVec F S256x32 .f32) (main_arg4 : FVec F S32 .f32) (main_arg5 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S100000x512 : Shape := ⟨2, ![100000, 512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S2x1600000 : Shape := ⟨2, ![2, 1600000]⟩
abbrev S1x256 : Shape := ⟨2, ![1, 256]⟩
abbrev S1x32 : Shape := ⟨2, ![1, 32]⟩
abbrev S100000x32 : Shape := ⟨2, ![100000, 32]⟩
abbrev S2000x512 : Shape := ⟨2, ![2000, 512]⟩
abbrev S2000x32 : Shape := ⟨2, ![2000, 32]⟩
abbrev S2000x256 : Shape := ⟨2, ![2000, 256]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S5000x32 : Shape := ⟨2, ![5000, 32]⟩
abbrev S5000 : Shape := ⟨1, ![5000]⟩
abbrev S5000x1 : Shape := ⟨2, ![5000, 1]⟩

abbrev nBuf : Space → Nat
  | .hbm => 101
  | .vmem => 32
  | .smem => 0
  | _ => 0

abbrev bufTy : (tb : Table) → Fin (tcTables nBuf tb) → BufTy
  | .hbm, ⟨0, _⟩ => ⟨S100000x512, .f32⟩
  | .hbm, ⟨1, _⟩ => ⟨S512x256, .f32⟩
  | .hbm, ⟨2, _⟩ => ⟨S256, .f32⟩
  | .hbm, ⟨3, _⟩ => ⟨S256x32, .f32⟩
  | .hbm, ⟨4, _⟩ => ⟨S32, .f32⟩
  | .hbm, ⟨5, _⟩ => ⟨S2x1600000, .i32⟩
  | .hbm, ⟨6, _⟩ => ⟨S1x256, .f32⟩
  | .hbm, ⟨7, _⟩ => ⟨S1x32, .f32⟩
  | .hbm, ⟨8, _⟩ => ⟨S100000x32, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S100000x32, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x32, .f32⟩
  | .hbm, ⟨76, _⟩ => ⟨S1700000x1, .f32⟩
  | .hbm, ⟨77, _⟩ => ⟨S1700000x32, .f32⟩
  | .hbm, ⟨78, _⟩ => ⟨S1700000x32, .f32⟩
  | .hbm, ⟨79, _⟩ => ⟨S_, .f32⟩
  | .hbm, ⟨80, _⟩ => ⟨S100000x32, .f32⟩
  | .hbm, ⟨81, _⟩ => ⟨S1700000x1, .i32⟩
  | .hbm, ⟨82, _⟩ => ⟨S100000x32, .f32⟩
  | .hbm, ⟨83, _⟩ => ⟨S100000x32, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x32, .f32⟩
  | .hbm, ⟨93, _⟩ => ⟨S1700000x1, .f32⟩
  | .hbm, ⟨94, _⟩ => ⟨S1700000x32, .f32⟩
  | .hbm, ⟨95, _⟩ => ⟨S1700000x32, .f32⟩
  | .hbm, ⟨96, _⟩ => ⟨S_, .f32⟩
  | .hbm, ⟨97, _⟩ => ⟨S100000x32, .f32⟩
  | .hbm, ⟨98, _⟩ => ⟨S1700000x1, .i32⟩
  | .hbm, ⟨99, _⟩ => ⟨S100000x32, .f32⟩
  | .hbm, ⟨100, _⟩ => ⟨S100000x32, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S256x32, .f32⟩
  | .local _ .vmem, ⟨5, _⟩ => ⟨S1x32, .f32⟩
  | .local _ .vmem, ⟨6, _⟩ => ⟨S2000x32, .f32⟩
  | .local _ .vmem, ⟨7, _⟩ => ⟨S2000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S256_S1x256 : S256.ShapeCasts S1x256
  shapeCasts_S32_S1x32 : S32.ShapeCasts S1x32
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  reduces_S5000x32_S5000 : S5000x32.Reduces [1] S5000
  shapeCasts_S5000_S5000x1 : S5000.ShapeCasts S5000x1
  broadcasts_S5000x1_S5000x32 : S5000x1.Broadcasts S5000x32
  dot_S2000x512_S512x256_S2000x256_1_0_0_1_n_n_wf : DotDims.WF S2000x512 S512x256 S2000x256 [1] [0] [0] [1] [] []
  dot_S2000x256_S256x32_S2000x32_1_0_0_1_n_n_wf : DotDims.WF S2000x256 S256x32 S2000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S5000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S2x1600000 : Shape := ⟨2, ![2, 1600000]⟩
abbrev S100000x256 : Shape := ⟨2, ![100000, 256]⟩
abbrev S1x256 : Shape := ⟨2, ![1, 256]⟩
abbrev S_ : Shape := ⟨0, ![]⟩
abbrev S100000x32 : Shape := ⟨2, ![100000, 32]⟩
abbrev S1x32 : Shape := ⟨2, ![1, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x32 : Shape := ⟨2, ![1700000, 32]⟩
abbrev S100000x1 : Shape := ⟨2, ![100000, 1]⟩

abbrev nBuf : Space → Nat
  | .hbm => 211
  | .vmem => 0
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x32, .f32⟩
  | 4 => ⟨S32, .f32⟩
  | 5 => ⟨S2x1600000, .i32⟩
  | 6 => ⟨S100000x256, .f32⟩
  | 7 => ⟨S1x256, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x32, .f32⟩
  | 14 => ⟨S1x32, .f32⟩
  | 15 => ⟨S100000x32, .f32⟩
  | 16 => ⟨S100000x32, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S1700000x1, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x32, .f32⟩
  | 68 => ⟨S1700000x32, .f32⟩
  | 69 => ⟨S1700000x32, .f32⟩
  | 70 => ⟨S_, .f32⟩
  | 71 => ⟨S100000x32, .f32⟩
  | 72 => ⟨S1700000x1, .i32⟩
  | 73 => ⟨S100000x32, .f32⟩
  | 74 => ⟨S100000x32, .f32⟩
  | 75 => ⟨S_, .f32⟩
  | 76 => ⟨S100000x32, .f32⟩
  | 77 => ⟨S100000x32, .f32⟩
  | 78 => ⟨S100000x32, .f32⟩
  | 79 => ⟨S100000x32, .f32⟩
  | 80 => ⟨S100000x32, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .i1⟩
  | 87 => ⟨S_, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S_, .f32⟩
  | 98 => ⟨S100000, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S100000x1, .f32⟩
  | 106 => ⟨S100000x32, .f32⟩
  | 107 => ⟨S100000x32, .f32⟩
  | 108 => ⟨S100000x32, .f32⟩
  | 109 => ⟨S1700000x1, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x32, .f32⟩
  | 120 => ⟨S1700000x32, .f32⟩
  | 121 => ⟨S_, .f32⟩
  | 122 => ⟨S100000x32, .f32⟩
  | 123 => ⟨S1700000x1, .i32⟩
  | 124 => ⟨S100000x32, .f32⟩
  | 125 => ⟨S100000x32, .f32⟩
  | 126 => ⟨S_, .f32⟩
  | 127 => ⟨S100000x32, .f32⟩
  | _ => ⟨S100000x512, .f32⟩

abbrev hbmTy0_1 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S_, .f32⟩
  | 5 => ⟨S100000, .f32⟩
  | 6 => ⟨S100000, .f32⟩
  | 7 => ⟨S_, .f32⟩
  | 8 => ⟨S100000, .f32⟩
  | 9 => ⟨S100000, .i1⟩
  | 10 => ⟨S_, .f32⟩
  | 11 => ⟨S_, .f32⟩
  | 12 => ⟨S100000, .f32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S100000x1, .f32⟩
  | 29 => ⟨S100000x32, .f32⟩
  | 30 => ⟨S100000x32, .f32⟩
  | 31 => ⟨S100000x32, .f32⟩
  | 32 => ⟨S1700000x1, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x32, .f32⟩
  | 42 => ⟨S1700000x32, .f32⟩
  | 43 => ⟨S1700000x32, .f32⟩
  | 44 => ⟨S_, .f32⟩
  | 45 => ⟨S100000x32, .f32⟩
  | 46 => ⟨S1700000x1, .i32⟩
  | 47 => ⟨S100000x32, .f32⟩
  | 48 => ⟨S100000x32, .f32⟩
  | 49 => ⟨S_, .f32⟩
  | 50 => ⟨S100000x32, .f32⟩
  | 51 => ⟨S100000x32, .f32⟩
  | 52 => ⟨S100000x32, .f32⟩
  | 53 => ⟨S100000x32, .f32⟩
  | 54 => ⟨S100000x32, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .i1⟩
  | 61 => ⟨S_, .f32⟩
  | 62 => ⟨S_, .f32⟩
  | 63 => ⟨S100000, .f32⟩
  | 64 => ⟨S100000, .f32⟩
  | 65 => ⟨S_, .f32⟩
  | 66 => ⟨S100000, .f32⟩
  | 67 => ⟨S100000, .i1⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000, .f32⟩
  | 75 => ⟨S_, .f32⟩
  | 76 => ⟨S_, .f32⟩
  | 77 => ⟨S100000, .f32⟩
  | 78 => ⟨S100000, .f32⟩
  | 79 => ⟨S100000x1, .f32⟩
  | 80 => ⟨S100000x32, .f32⟩
  | 81 => ⟨S100000x32, .f32⟩
  | 82 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_call3_v0 : Ref sig .tc := ⟨.hbm, 102, rfl⟩
abbrev main_call3_v1 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_21 : Ref sig .tc := ⟨.hbm, 132, rfl⟩
abbrev main_v95 : Ref sig .tc := ⟨.hbm, 133, rfl⟩
abbrev main_v96 : Ref sig .tc := ⟨.hbm, 134, rfl⟩
abbrev main_cst_22 : Ref sig .tc := ⟨.hbm, 135, rfl⟩
abbrev main_v97 : Ref sig .tc := ⟨.hbm, 136, rfl⟩
abbrev main_v98 : Ref sig .tc := ⟨.hbm, 137, rfl⟩
abbrev main_cst_23 : Ref sig .tc := ⟨.hbm, 138, rfl⟩
abbrev main_call4_v0 : Ref sig .tc := ⟨.hbm, 139, rfl⟩
abbrev main_call4_v1 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_cst_25 : Ref sig .tc := ⟨.hbm, 145, rfl⟩
abbrev main_v102 : Ref sig .tc := ⟨.hbm, 146, rfl⟩
abbrev main_v103 : Ref sig .tc := ⟨.hbm, 147, rfl⟩
abbrev main_cst_26 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_27 : Ref sig .tc := ⟨.hbm, 152, rfl⟩
abbrev main_call5_v0 : Ref sig .tc := ⟨.hbm, 153, rfl⟩
abbrev main_call5_v1 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_c_29 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_30 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_31 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_32 : Ref sig .tc := ⟨.hbm, 183, rfl⟩
abbrev main_v131 : Ref sig .tc := ⟨.hbm, 184, rfl⟩
abbrev main_v132 : Ref sig .tc := ⟨.hbm, 185, rfl⟩
abbrev main_cst_33 : Ref sig .tc := ⟨.hbm, 186, rfl⟩
abbrev main_v133 : Ref sig .tc := ⟨.hbm, 187, rfl⟩
abbrev main_v134 : Ref sig .tc := ⟨.hbm, 188, rfl⟩
abbrev main_cst_34 : Ref sig .tc := ⟨.hbm, 189, rfl⟩
abbrev main_call6_v0 : Ref sig .tc := ⟨.hbm, 190, rfl⟩
abbrev main_call6_v1 : Ref sig .tc := ⟨.hbm, 191, rfl⟩
abbrev main_v135 : Ref sig .tc := ⟨.hbm, 192, rfl⟩
abbrev main_cst_35 : Ref sig .tc := ⟨.hbm, 193, rfl⟩
abbrev main_v136 : Ref sig .tc := ⟨.hbm, 194, rfl⟩
abbrev main_v137 : Ref sig .tc := ⟨.hbm, 195, rfl⟩
abbrev main_cst_36 : Ref sig .tc := ⟨.hbm, 196, rfl⟩
abbrev main_v138 : Ref sig .tc := ⟨.hbm, 197, rfl⟩
abbrev main_v139 : Ref sig .tc := ⟨.hbm, 198, rfl⟩
abbrev main_cst_37 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_38 : Ref sig .tc := ⟨.hbm, 203, rfl⟩
abbrev main_call7_v0 : Ref sig .tc := ⟨.hbm, 204, rfl⟩
abbrev main_call7_v1 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x512_S512x256_S100000x256_1_0_0_1_n_n_wf : DotDims.WF S100000x512 S512x256 S100000x256 [1] [0] [0] [1] [] []
  dot_S100000x256_S256x32_S100000x32_1_0_0_1_n_n_wf : DotDims.WF S100000x256 S256x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Body0.lean ====
import proofs.«111898_j25933012533347_2_alg».proof.Proof.Gen.KernelIdeal.Launch
import proofs.«111898_j25933012533347_2_alg».proof.Proof.Gen.KernelIdeal.Skeleton
import proofs.«111898_j25933012533347_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection (two matrix products with biases and a rectifier) as a pipeline over 50 blocks of 2000 rows:
    every point reads its block of rows and the four resident operands, and stores one output block -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each staging buffer as one whole rectangle. -/
abbrev rA : Rect S2000x512 := Rect.unit (s := S2000x512) ![0, 0] S2000x512.size inb_S2000x512_S2000x512_0_0
abbrev rB : Rect S512x256 := Rect.unit (s := S512x256) ![0, 0] S512x256.size inb_S512x256_S512x256_0_0
abbrev rC : Rect S1x256 := Rect.unit (s := S1x256) ![0, 0] S1x256.size inb_S1x256_S1x256_0_0
abbrev rD : Rect S256x32 := Rect.unit (s := S256x32) ![0, 0] S256x32.size inb_S256x32_S256x32_0_0
abbrev rE : Rect S1x32 := Rect.unit (s := S1x32) ![0, 0] S1x32.size inb_S1x32_S1x32_0_0
abbrev rO : Rect S2000x32 := Rect.unit (s := S2000x32) ![0, 0] S2000x32.size inb_S2000x32_S2000x32_0_0

/-- The output buffer after the body: the one store of the projection of the five input blocks. -/
def out0_5 (x0 : Vec F S2000x512 .f32) (x1 : Vec F S512x256 .f32) (x2 : Vec F S1x256 .f32) (x3 : Vec F S256x32 .f32) (x4 : Vec F S1x32 .f32) : Vec F S2000x32 .f32 :=
  View.canon [⟨rO, k0_pay1 (View.ld x0 rA) (View.ld x1 rB) (View.ld x2 rC) (View.ld x3 rD) (View.ld x4 rE)⟩]

/-- The store covers the buffer. -/
theorem cover0_5 (p0 : Vec F S2000x32 .f32) (y : S2000x32.Idx) :
    ∃ pc ∈ ([⟨rO, p0⟩] : List (View.Piece (Elt F) S2000x32 .f32)), y ∈ pc.1.set :=
  View.cover_of_tiled [⟨rO, p0⟩] S2000x32.size (by rfl) y

set_option maxHeartbeats 1000000 in
/-- The body on whole staging buffers: inputs at known contents, the output at anything; it ends with the inputs as they
    were and the output at `out0_5` of them. -/
theorem sound_kernel0 (c : Dev nD) (E : Set ℕ) (i : grid0.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x32 .f32) (harg4 : arg4.IsWhole)
    (arg5 : Memref sig .tc .vmem S1x32 .f32) (harg5 : arg5.IsWhole) (arg6 : Memref sig .tc .vmem S2000x32 .f32) (harg6 : arg6.IsWhole)
    (x0 : Vec F S2000x512 .f32) (x1 : Vec F S512x256 .f32) (x2 : Vec F S1x256 .f32) (x3 : Vec F S256x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t` each
    input's buffer still at its block and the output's at the projection of the five input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
import proofs.«111898_j25933012533347_2_alg».proof.Proof.Gen.KernelIdeal.Launch
import proofs.«111898_j25933012533347_2_alg».proof.Proof.Gen.KernelIdeal.Skeleton
import proofs.«111898_j25933012533347_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One hop's row update as a pipeline (region 1): every point reads its three input blocks, stores one output block -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 5000×32 staging buffer as one rectangle. -/
abbrev r1 : Rect S5000x32 := Rect.unit (s := S5000x32) ![0, 0] S5000x32.size inb_S5000x32_S5000x32_0_0

/-- The output buffer after the body: the one store of the row update of the three input blocks. -/
def out1_3 (x0 x1 x2 : Vec F S5000x32 .f32) : Vec F S5000x32 .f32 :=
  View.canon [⟨r1, k1_pay1 (View.ld x0 r1) (View.ld x1 r1) (View.ld x2 r1)⟩]

/-- The store covers the buffer. -/
theorem cover1_3 (p0 : Vec F S5000x32 .f32) (y : S5000x32.Idx) :
    ∃ pc ∈ ([⟨r1, p0⟩] : List (View.Piece (Elt F) S5000x32 .f32)), y ∈ pc.1.set :=
  View.cover_of_tiled [⟨r1, p0⟩] S5000x32.size (by rfl) y

set_option maxHeartbeats 1000000 in
/-- The body on whole staging buffers: inputs at known contents, the output at anything; it ends with the
    inputs as they were and the output at `out1_3` of them. -/
theorem sound_kernel1 (c : Dev nD) (E : Set ℕ) (i : grid1.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x32 .f32) (harg4 : arg4.IsWhole)
    (x0 x1 x2 : Vec F S5000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer still at its block and the output's at the row update of the three input blocks; the invariant is the
    scoped rest and the generator register, untouched; nothing owed; the input arrays held at the shares `qs`. -/
def dat1 (qs : Fin 4 → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := qs
  owed _ := 0

variable (qs : Fin 4 → PosShare TreeShare)

theorem A_eq1 (c : Dev nD) (w : Fin cfg1.W) : (dat1 V qs c).A w = V c (Pipeline.arrRef spec1 w) := by
  dsimp only [dat1]

theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) :
    (dat1 V qs c).after 3 t = out1_3 (iblk1 V c 0 t) (iblk1 V c 1 t) (iblk1 V c 2 t) := by dsimp only [dat1]

theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d

/-! ## The body obligation, at a generic point -/

def bodyPre1 (c : Dev nD) (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d)))

def bodyPost1 (c : Dev nD) (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ owns (c : Thread nD τ) (st1_3 t) fullShare ((dat1 V qs c).after 3 t))

/-- The body at any point: the inputs' buffers hold their blocks, so the body's triple applies; the invariant and the
    core's dues pass through unread. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2]
  rw [show (dat1 V qs c).Φ t.succ = (dat1 V qs c).Φ t.castSucc from rfl,
    show (dat1 V qs c).owesAt () t.succ = (dat1 V qs c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V qs c) (defs₀ (F := F)) Variants.none () Set.univ := fun t => by
  rw [bigSep_W1, bigSep_W1]
  exact sound_body1 V qs c t

end Cert.KernelIdeal.Hand

end
-- ==== Proof.Shared1.lean ====
import proofs.«111898_j25933012533347_2_alg».proof.Proof.Gen.KernelIdeal.Launch
import proofs.«111898_j25933012533347_2_alg».proof.Proof.Gen.KernelIdeal.Skeleton
import proofs.«111898_j25933012533347_2_alg».proof.Proof.Gen.KernelIdeal.Points
import proofs.«111898_j25933012533347_2_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: two of its input windows read ONE array, each holding half of it

The projection's result is both the running value and the anchor of the first hop, so the first and third windows of the
first hop's pipeline name the same array. The pipeline holds each input array at a share of its own: the shared array is
split in its two halves at entry and rejoined at exit. -/

/-- The shares at which region 1 holds its arrays: each of the two windows on the shared array holds half. -/
def qs1 : Fin 4 → PosShare TreeShare
  | ⟨0, _⟩ => fullShare.left
  | ⟨1, _⟩ => fullShare
  | ⟨2, _⟩ => fullShare.right
  | ⟨3, _⟩ => fullShare

/-- Region 1's three arrays: the projection's result (read by two windows), the scattered sum, the hop's result. -/
theorem image1 : Finset.image (Pipeline.arrRef spec1) Finset.univ = {main_v2, main_v46, main_v47} := by decide

/-- A conjunction over those three buffers, written out. -/
theorem bigSep_three {M : Type} [URA M] (Φ : Ref sig .tc → sProp M) :
    bigSep ({main_v2, main_v46, main_v47} : Finset (Ref sig .tc)) Φ = iprop(Φ main_v2 ∗ Φ main_v46 ∗ Φ main_v47) := by
  rw [bigSep_insert (by decide), bigSep_insert (by decide), bigSep_singleton]
  rfl

variable (V V' : (c : Dev nD) → (b : Ref sig .tc) → Buf (Elt F) ((c : Thread nD τ).loc b))

set_option maxHeartbeats 1000000 in
/-- ENTRY: the three buffers behind region 1's arrays, whole at the full share, are the pipeline's arrays at entry — the
    shared one split in its two halves. -/
theorem arrays1_of_bufs (c : Dev nD) :
    (Pipeline.arrBufs (Ix := Unit) (Name := ℕ) (U := UR sig nD τ) (Lvl := ℕ) spec1 c (V c) : sProp 𝕄)
      ⊢ (dat1 V qs1 c).arrays ((dat1 V qs1 c).arrAt · 0) := by
  unfold Pipeline.arrBufs Pipeline.Dat.arrays
  rw [bigSep_W1]
  dsimp only
  rw [image1, bigSep_three,
    (arr_whole1 0).set_eq_univ, (arr_whole1 1).set_eq_univ, (arr_whole1 3).set_eq_univ,
    show (dat1 V qs1 c).share 0 = fullShare.left from rfl, show (dat1 V qs1 c).share 1 = fullShare from rfl,
    show (dat1 V qs1 c).share 2 = fullShare.right from rfl, show (dat1 V qs1 c).share 3 = fullShare from rfl,
    show (dat1 V qs1 c).arrAt 0 0 = V c main_v2 from A_eq1 V qs1 c 0,
    show (dat1 V qs1 c).arrAt 1 0 = V c main_v46 from A_eq1 V qs1 c 1,
    show (dat1 V qs1 c).arrAt 2 0 = V c main_v2 from A_eq1 V qs1 c 2,
    show (dat1 V qs1 c).arrAt 3 0 = V c main_v47 from A_eq1 V qs1 c 3]
  iintro ⟨H2, H46, H47⟩
  ihave H := (pointsTo_share (PosShare.mem_left_op_right fullShare)).1 $$ H2
  icases H with ⟨Ha, Hb⟩
  isplitl [Ha]; · iexact Ha
  isplitl [H46]; · iexact H46
  isplitl [Hb]; · iexact Hb
  iexact H47

set_option maxHeartbeats 1000000 in
/-- EXIT: the pipeline's arrays at their final contents, read off a valuation `V'`, are the three buffers whole at the full
    share at `V'` — the halves of the shared array rejoined. -/
theorem bufs_of_arrays1 (c : Dev nD) (hF : ∀ w, (dat1 V qs1 c).arrAt w cfg1.N = V' c (Pipeline.arrRef spec1 w)) :
    (dat1 V qs1 c).arrays ((dat1 V qs1 c).arrAt · cfg1.N)
      ⊢ (Pipeline.arrBufs (Ix := Unit) (Name := ℕ) (U := UR sig nD τ) (Lvl := ℕ) spec1 c (V' c) : sProp 𝕄) := by
  unfold Pipeline.arrBufs Pipeline.Dat.arrays
  rw [bigSep_W1]
  dsimp only
  rw [image1, bigSep_three,
    (arr_whole1 0).set_eq_univ, (arr_whole1 1).set_eq_univ, (arr_whole1 3).set_eq_univ,
    show (dat1 V qs1 c).share 0 = fullShare.left from rfl, show (dat1 V qs1 c).share 1 = fullShare from rfl,
    show (dat1 V qs1 c).share 2 = fullShare.right from rfl, show (dat1 V qs1 c).share 3 = fullShare from rfl,
    hF 0, hF 1, hF 2, hF 3]
  iintro ⟨Ha, H46, Hb, H47⟩
  isplitl [Ha Hb]
  · iapply (pointsTo_share (PosShare.mem_left_op_right fullShare)).2
    isplitl [Ha]; · iexact Ha
    iexact Hb
  isplitl [H46]; · iexact H46
  iexact H47

/-- The buffers that are none of region 1's arrays are held alike at two valuations that agree off the arrays. -/
theorem rest1_congr (c : Dev nD) (hrest : ∀ b, b ∉ Finset.univ.image (Pipeline.arrRef spec1) → V' c b = V c b) :
    (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c (V' c) := by
  unfold Pipeline.unscopedRest
  exact bigSep_congr fun b hb => by rw [hrest b (Finset.mem_sdiff.mp hb).2]

end Cert.KernelIdeal.Hand

end
-- ==== Proof.Body2.lean ====
import proofs.«111898_j25933012533347_2_alg».proof.Proof.Gen.KernelIdeal.Launch
import proofs.«111898_j25933012533347_2_alg».proof.Proof.Gen.KernelIdeal.Skeleton
import proofs.«111898_j25933012533347_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One hop's row update as a pipeline (region 2): every point reads its three input blocks, stores one output block -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 5000×32 staging buffer as one rectangle. -/
abbrev r2 : Rect S5000x32 := Rect.unit (s := S5000x32) ![0, 0] S5000x32.size inb_S5000x32_S5000x32_0_0

/-- The output buffer after the body: the one store of the row update of the three input blocks. -/
def out2_3 (x0 x1 x2 : Vec F S5000x32 .f32) : Vec F S5000x32 .f32 :=
  View.canon [⟨r2, k2_pay1 (View.ld x0 r2) (View.ld x1 r2) (View.ld x2 r2)⟩]

/-- The store covers the buffer. -/
theorem cover2_3 (p0 : Vec F S5000x32 .f32) (y : S5000x32.Idx) :
    ∃ pc ∈ ([⟨r2, p0⟩] : List (View.Piece (Elt F) S5000x32 .f32)), y ∈ pc.1.set :=
  View.cover_of_tiled [⟨r2, p0⟩] S5000x32.size (by rfl) y

set_option maxHeartbeats 1000000 in
/-- The body on whole staging buffers: inputs at known contents, the output at anything; it ends with the
    inputs as they were and the output at `out2_3` of them. -/
theorem sound_kernel2 (c : Dev nD) (E : Set ℕ) (i : grid2.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x32 .f32) (harg4 : arg4.IsWhole)
    (x0 x1 x2 : Vec F S5000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer still at its block and the output's at the row update of the three input blocks; the invariant is the
    scoped rest and the generator register, untouched; nothing owed; the input arrays held at the shares `qs`. -/
def dat2 (qs : Fin 4 → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := qs
  owed _ := 0

variable (qs : Fin 4 → PosShare TreeShare)

theorem A_eq2 (c : Dev nD) (w : Fin cfg2.W) : (dat2 V qs c).A w = V c (Pipeline.arrRef spec2 w) := by
  dsimp only [dat2]

theorem after2_0 (c : Dev nD) (t : Fin cfg2.N) : (dat2 V qs c).after 0 t = iblk2 V c 0 t := by dsimp only [dat2]
theorem after2_1 (c : Dev nD) (t : Fin cfg2.N) : (dat2 V qs c).after 1 t = iblk2 V c 1 t := by dsimp only [dat2]
theorem after2_2 (c : Dev nD) (t : Fin cfg2.N) : (dat2 V qs c).after 2 t = iblk2 V c 2 t := by dsimp only [dat2]
theorem after2_3 (c : Dev nD) (t : Fin cfg2.N) :
    (dat2 V qs c).after 3 t = out2_3 (iblk2 V c 0 t) (iblk2 V c 1 t) (iblk2 V c 2 t) := by dsimp only [dat2]

theorem before2_0 (c : Dev nD) (t : Fin cfg2.N) (d) : (dat2 V qs c).before 0 t d = iblk2 V c 0 t :=
  before2_0_of V (dat2 V qs c) (A_eq2 V qs c 0) (after2_0 V qs c) t d
theorem before2_1 (c : Dev nD) (t : Fin cfg2.N) (d) : (dat2 V qs c).before 1 t d = iblk2 V c 1 t :=
  before2_1_of V (dat2 V qs c) (A_eq2 V qs c 1) (after2_1 V qs c) t d
theorem before2_2 (c : Dev nD) (t : Fin cfg2.N) (d) : (dat2 V qs c).before 2 t d = iblk2 V c 2 t :=
  before2_2_of V (dat2 V qs c) (A_eq2 V qs c 2) (after2_2 V qs c) t d

/-! ## The body obligation, at a generic point -/

def bodyPre2 (c : Dev nD) (t : Fin cfg2.N) : sProp 𝕄 :=
  iprop((dat2 V qs c).Φ t.castSucc ∗ (dat2 V qs c).owesAt () t.castSucc
    ∗ (∃ d, owns (c : Thread nD τ) (st2_0 t) fullShare ((dat2 V qs c).before 0 t d))
    ∗ (∃ d, owns (c : Thread nD τ) (st2_1 t) fullShare ((dat2 V qs c).before 1 t d))
    ∗ (∃ d, owns (c : Thread nD τ) (st2_2 t) fullShare ((dat2 V qs c).before 2 t d))
    ∗ (∃ d, owns (c : Thread nD τ) (st2_3 t) fullShare ((dat2 V qs c).before 3 t d)))

def bodyPost2 (c : Dev nD) (t : Fin cfg2.N) : sProp 𝕄 :=
  iprop((dat2 V qs c).Φ t.succ ∗ (dat2 V qs c).owesAt () t.succ
    ∗ owns (c : Thread nD τ) (st2_0 t) fullShare ((dat2 V qs c).after 0 t)
    ∗ owns (c : Thread nD τ) (st2_1 t) fullShare ((dat2 V qs c).after 1 t)
    ∗ owns (c : Thread nD τ) (st2_2 t) fullShare ((dat2 V qs c).after 2 t)
    ∗ owns (c : Thread nD τ) (st2_3 t) fullShare ((dat2 V qs c).after 3 t))

/-- The body at any point: the inputs' buffers hold their blocks, so the body's triple applies; the invariant and the
    core's dues pass through unread. -/
theorem sound_body2 (c : Dev nD) (t : Fin cfg2.N) :
    bodyPre2 V qs c t ⊢ wp frame (wpE (defs₀ (F := F)) Variants.none c none) Set.univ (bodyAt2 t) (fun _ => bodyPost2 V qs c t) := by
  unfold bodyPre2 bodyPost2 bodyAt2
  simp only [before2_0, before2_1, before2_2]
  rw [show (dat2 V qs c).Φ t.succ = (dat2 V qs c).Φ t.castSucc from rfl,
    show (dat2 V qs c).owesAt () t.succ = (dat2 V qs c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V qs c) (defs₀ (F := F)) Variants.none () Set.univ := fun t => by
  rw [bigSep_W2, bigSep_W2]
  exact sound_body2 V qs c t

end Cert.KernelIdeal.Hand

end
-- ==== Proof.Body3.lean ====
import proofs.«111898_j25933012533347_2_alg».proof.Proof.Gen.KernelIdeal.Launch
import proofs.«111898_j25933012533347_2_alg».proof.Proof.Gen.KernelIdeal.Skeleton
import proofs.«111898_j25933012533347_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One hop's row update as a pipeline (region 3): every point reads its three input blocks, stores one output block -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 5000×32 staging buffer as one rectangle. -/
abbrev r3 : Rect S5000x32 := Rect.unit (s := S5000x32) ![0, 0] S5000x32.size inb_S5000x32_S5000x32_0_0

/-- The output buffer after the body: the one store of the row update of the three input blocks. -/
def out3_3 (x0 x1 x2 : Vec F S5000x32 .f32) : Vec F S5000x32 .f32 :=
  View.canon [⟨r3, k3_pay1 (View.ld x0 r3) (View.ld x1 r3) (View.ld x2 r3)⟩]

/-- The store covers the buffer. -/
theorem cover3_3 (p0 : Vec F S5000x32 .f32) (y : S5000x32.Idx) :
    ∃ pc ∈ ([⟨r3, p0⟩] : List (View.Piece (Elt F) S5000x32 .f32)), y ∈ pc.1.set :=
  View.cover_of_tiled [⟨r3, p0⟩] S5000x32.size (by rfl) y

set_option maxHeartbeats 1000000 in
/-- The body on whole staging buffers: inputs at known contents, the output at anything; it ends with the
    inputs as they were and the output at `out3_3` of them. -/
theorem sound_kernel3 (c : Dev nD) (E : Set ℕ) (i : grid3.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x32 .f32) (harg4 : arg4.IsWhole)
    (x0 x1 x2 : Vec F S5000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer still at its block and the output's at the row update of the three input blocks; the invariant is the
    scoped rest and the generator register, untouched; nothing owed; the input arrays held at the shares `qs`. -/
def dat3 (qs : Fin 4 → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q := qs
  owed _ := 0

variable (qs : Fin 4 → PosShare TreeShare)

theorem A_eq3 (c : Dev nD) (w : Fin cfg3.W) : (dat3 V qs c).A w = V c (Pipeline.arrRef spec3 w) := by
  dsimp only [dat3]

theorem after3_0 (c : Dev nD) (t : Fin cfg3.N) : (dat3 V qs c).after 0 t = iblk3 V c 0 t := by dsimp only [dat3]
theorem after3_1 (c : Dev nD) (t : Fin cfg3.N) : (dat3 V qs c).after 1 t = iblk3 V c 1 t := by dsimp only [dat3]
theorem after3_2 (c : Dev nD) (t : Fin cfg3.N) : (dat3 V qs c).after 2 t = iblk3 V c 2 t := by dsimp only [dat3]
theorem after3_3 (c : Dev nD) (t : Fin cfg3.N) :
    (dat3 V qs c).after 3 t = out3_3 (iblk3 V c 0 t) (iblk3 V c 1 t) (iblk3 V c 2 t) := by dsimp only [dat3]

theorem before3_0 (c : Dev nD) (t : Fin cfg3.N) (d) : (dat3 V qs c).before 0 t d = iblk3 V c 0 t :=
  before3_0_of V (dat3 V qs c) (A_eq3 V qs c 0) (after3_0 V qs c) t d
theorem before3_1 (c : Dev nD) (t : Fin cfg3.N) (d) : (dat3 V qs c).before 1 t d = iblk3 V c 1 t :=
  before3_1_of V (dat3 V qs c) (A_eq3 V qs c 1) (after3_1 V qs c) t d
theorem before3_2 (c : Dev nD) (t : Fin cfg3.N) (d) : (dat3 V qs c).before 2 t d = iblk3 V c 2 t :=
  before3_2_of V (dat3 V qs c) (A_eq3 V qs c 2) (after3_2 V qs c) t d

/-! ## The body obligation, at a generic point -/

def bodyPre3 (c : Dev nD) (t : Fin cfg3.N) : sProp 𝕄 :=
  iprop((dat3 V qs c).Φ t.castSucc ∗ (dat3 V qs c).owesAt () t.castSucc
    ∗ (∃ d, owns (c : Thread nD τ) (st3_0 t) fullShare ((dat3 V qs c).before 0 t d))
    ∗ (∃ d, owns (c : Thread nD τ) (st3_1 t) fullShare ((dat3 V qs c).before 1 t d))
    ∗ (∃ d, owns (c : Thread nD τ) (st3_2 t) fullShare ((dat3 V qs c).before 2 t d))
    ∗ (∃ d, owns (c : Thread nD τ) (st3_3 t) fullShare ((dat3 V qs c).before 3 t d)))

def bodyPost3 (c : Dev nD) (t : Fin cfg3.N) : sProp 𝕄 :=
  iprop((dat3 V qs c).Φ t.succ ∗ (dat3 V qs c).owesAt () t.succ
    ∗ owns (c : Thread nD τ) (st3_0 t) fullShare ((dat3 V qs c).after 0 t)
    ∗ owns (c : Thread nD τ) (st3_1 t) fullShare ((dat3 V qs c).after 1 t)
    ∗ owns (c : Thread nD τ) (st3_2 t) fullShare ((dat3 V qs c).after 2 t)
    ∗ owns (c : Thread nD τ) (st3_3 t) fullShare ((dat3 V qs c).after 3 t))

/-- The body at any point: the inputs' buffers hold their blocks, so the body's triple applies; the invariant and the
    core's dues pass through unread. -/
theorem sound_body3 (c : Dev nD) (t : Fin cfg3.N) :
    bodyPre3 V qs c t ⊢ wp frame (wpE (defs₀ (F := F)) Variants.none c none) Set.univ (bodyAt3 t) (fun _ => bodyPost3 V qs c t) := by
  unfold bodyPre3 bodyPost3 bodyAt3
  simp only [before3_0, before3_1, before3_2]
  rw [show (dat3 V qs c).Φ t.succ = (dat3 V qs c).Φ t.castSucc from rfl,
    show (dat3 V qs c).owesAt () t.succ = (dat3 V qs c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V qs c) (defs₀ (F := F)) Variants.none () Set.univ := fun t => by
  rw [bigSep_W3, bigSep_W3]
  exact sound_body3 V qs c t

end Cert.KernelIdeal.Hand

end
-- ==== Proof.Fold.lean ====
import proofs.«111898_j25933012533347_2_alg».proof.Proof.Gen.KernelIdeal.Launch
import proofs.«111898_j25933012533347_2_alg».proof.Proof.Gen.KernelIdeal.Skeleton
import proofs.«111898_j25933012533347_2_alg».proof.Proof.Gen.KernelIdeal.Points
import proofs.«111898_j25933012533347_2_alg».proof.Proof.Gen.KernelIdeal.Regions
import proofs.«111898_j25933012533347_2_alg».proof.Proof.Body0
import proofs.«111898_j25933012533347_2_alg».proof.Proof.Shared1
import proofs.«111898_j25933012533347_2_alg».proof.Proof.Body2
import proofs.«111898_j25933012533347_2_alg».proof.Proof.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: four kernel regions among stretches of host operations

The buffer contents at every boundary are a fold from the launch memory: a host stretch applies its operations, a region
replaces its output array by what its write-backs leave. -/

variable (m : (ℓ : Loc nD τ sig) → Buf (Elt F) ℓ)

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- What region 0 leaves in its output array: the write-backs of all its points. -/
def o2 (c : Dev nD) := (dat0 (V1 m) c).arrAt 5 cfg0.N
/-- Core `c`'s buffers at region 0's exit: its output array at what the write-backs leave, every other buffer as entered. -/
def W2 (c : Dev nD) : Valuation τ sig (Elt F) := Function.update (W1 m c) (Proc.devRef .tc main_v2) (o2 m c)
theorem W2_out (c : Dev nD) : W2 m c (Proc.devRef .tc main_v2) = o2 m c := by unfold W2; exact Function.update_self _ _ _
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b
theorem hF0 (c : Dev nD) : ∀ w : Fin cfg0.W, (dat0 (V1 m) c).arrAt w cfg0.N = V2 m c (Pipeline.arrRef spec0 w)
  | ⟨0, _⟩ => ((dat0 (V1 m) c).arrAt_in 0 rfl _).trans (((A_eq0 (V1 m) c 0)).trans (W2_of_ne m c _ (by decide)).symm)
  | ⟨1, _⟩ => ((dat0 (V1 m) c).arrAt_in 1 rfl _).trans (((A_eq0 (V1 m) c 1)).trans (W2_of_ne m c _ (by decide)).symm)
  | ⟨2, _⟩ => ((dat0 (V1 m) c).arrAt_in 2 rfl _).trans (((A_eq0 (V1 m) c 2)).trans (W2_of_ne m c _ (by decide)).symm)
  | ⟨3, _⟩ => ((dat0 (V1 m) c).arrAt_in 3 rfl _).trans (((A_eq0 (V1 m) c 3)).trans (W2_of_ne m c _ (by decide)).symm)
  | ⟨4, _⟩ => ((dat0 (V1 m) c).arrAt_in 4 rfl _).trans (((A_eq0 (V1 m) c 4)).trans (W2_of_ne m c _ (by decide)).symm)
  | ⟨5, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨5, Finset.mem_univ _, e.symm⟩)

/-- After the host stretch `hostOps1`. -/
abbrev W3 : Dev nD → Valuation τ sig (Elt F) := fun c => StableHlo.after hostOps1 (W2 m c)
/-- After the host stretch `hostOps1_1`. -/
abbrev W4 : Dev nD → Valuation τ sig (Elt F) := fun c => StableHlo.after hostOps1_1 (W3 m c)
/-- After the host stretch `hostOps1_2`. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

/-- What region 1 leaves in its output array: the write-backs of all its points. -/
def o6 (c : Dev nD) := (dat1 (V5 m) qs1 c).arrAt 3 cfg1.N
/-- Core `c`'s buffers at region 1's exit: its output array at what the write-backs leave, every other buffer as entered. -/
def W6 (c : Dev nD) : Valuation τ sig (Elt F) := Function.update (W5 m c) (Proc.devRef .tc main_v47) (o6 m c)
theorem W6_out (c : Dev nD) : W6 m c (Proc.devRef .tc main_v47) = o6 m c := by unfold W6; exact Function.update_self _ _ _
theorem W6_of_ne (c : Dev nD) (b : Ref sig .tc) (hb : b ≠ main_v47) : W6 m c (Proc.devRef .tc b) = W5 m c (Proc.devRef .tc b) := by
  unfold W6; exact Function.update_of_ne (StableHlo.devRef_ne_of_ne hb) _ _
abbrev V6 : (c : Dev nD) → (b : Ref sig .tc) → Buf (Elt F) ((c : Thread nD τ).loc b) := fun c b => W6 m c b
theorem hF1 (c : Dev nD) : ∀ w : Fin cfg1.W, (dat1 (V5 m) qs1 c).arrAt w cfg1.N = V6 m c (Pipeline.arrRef spec1 w)
  | ⟨0, _⟩ => ((dat1 (V5 m) qs1 c).arrAt_in 0 rfl _).trans (((A_eq1 (V5 m) qs1 c 0)).trans (W6_of_ne m c _ (by decide)).symm)
  | ⟨1, _⟩ => ((dat1 (V5 m) qs1 c).arrAt_in 1 rfl _).trans (((A_eq1 (V5 m) qs1 c 1)).trans (W6_of_ne m c _ (by decide)).symm)
  | ⟨2, _⟩ => ((dat1 (V5 m) qs1 c).arrAt_in 2 rfl _).trans (((A_eq1 (V5 m) qs1 c 2)).trans (W6_of_ne m c _ (by decide)).symm)
  | ⟨3, _⟩ => (W6_out m c).symm
theorem hrest1 (c : Dev nD) : ∀ b, b ∉ Finset.univ.image (Pipeline.arrRef spec1) → V6 m c b = V5 m c b :=
  fun b hb => W6_of_ne m c b fun e => hb (Finset.mem_image.mpr ⟨3, Finset.mem_univ _, e.symm⟩)

/-- After the host stretch `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- What region 2 leaves in its output array: the write-backs of all its points. -/
def o8 (c : Dev nD) := (dat2 (V7 m) (fun _ => fullShare) c).arrAt 3 cfg2.N
/-- Core `c`'s buffers at region 2's exit: its output array at what the write-backs leave, every other buffer as entered. -/
def W8 (c : Dev nD) : Valuation τ sig (Elt F) := Function.update (W7 m c) (Proc.devRef .tc main_v61) (o8 m c)
theorem W8_out (c : Dev nD) : W8 m c (Proc.devRef .tc main_v61) = o8 m c := by unfold W8; exact Function.update_self _ _ _
theorem W8_of_ne (c : Dev nD) (b : Ref sig .tc) (hb : b ≠ main_v61) : W8 m c (Proc.devRef .tc b) = W7 m c (Proc.devRef .tc b) := by
  unfold W8; exact Function.update_of_ne (StableHlo.devRef_ne_of_ne hb) _ _
abbrev V8 : (c : Dev nD) → (b : Ref sig .tc) → Buf (Elt F) ((c : Thread nD τ).loc b) := fun c b => W8 m c b
theorem hF2 (c : Dev nD) : ∀ w : Fin cfg2.W, (dat2 (V7 m) (fun _ => fullShare) c).arrAt w cfg2.N = V8 m c (Pipeline.arrRef spec2 w)
  | ⟨0, _⟩ => ((dat2 (V7 m) (fun _ => fullShare) c).arrAt_in 0 rfl _).trans (((A_eq2 (V7 m) (fun _ => fullShare) c 0)).trans (W8_of_ne m c _ (by decide)).symm)
  | ⟨1, _⟩ => ((dat2 (V7 m) (fun _ => fullShare) c).arrAt_in 1 rfl _).trans (((A_eq2 (V7 m) (fun _ => fullShare) c 1)).trans (W8_of_ne m c _ (by decide)).symm)
  | ⟨2, _⟩ => ((dat2 (V7 m) (fun _ => fullShare) c).arrAt_in 2 rfl _).trans (((A_eq2 (V7 m) (fun _ => fullShare) c 2)).trans (W8_of_ne m c _ (by decide)).symm)
  | ⟨3, _⟩ => (W8_out m c).symm
theorem hrest2 (c : Dev nD) : ∀ b, b ∉ Finset.univ.image (Pipeline.arrRef spec2) → V8 m c b = V7 m c b :=
  fun b hb => W8_of_ne m c b fun e => hb (Finset.mem_image.mpr ⟨3, Finset.mem_univ _, e.symm⟩)

/-- After the host stretch `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- What region 3 leaves in its output array: the write-backs of all its points. -/
def o10 (c : Dev nD) := (dat3 (V9 m) (fun _ => fullShare) c).arrAt 3 cfg3.N
/-- Core `c`'s buffers at region 3's exit: its output array at what the write-backs leave, every other buffer as entered. -/
def W10 (c : Dev nD) : Valuation τ sig (Elt F) := Function.update (W9 m c) (Proc.devRef .tc main_v75) (o10 m c)
theorem W10_out (c : Dev nD) : W10 m c (Proc.devRef .tc main_v75) = o10 m c := by unfold W10; exact Function.update_self _ _ _
theorem W10_of_ne (c : Dev nD) (b : Ref sig .tc) (hb : b ≠ main_v75) : W10 m c (Proc.devRef .tc b) = W9 m c (Proc.devRef .tc b) := by
  unfold W10; exact Function.update_of_ne (StableHlo.devRef_ne_of_ne hb) _ _
abbrev V10 : (c : Dev nD) → (b : Ref sig .tc) → Buf (Elt F) ((c : Thread nD τ).loc b) := fun c b => W10 m c b
theorem hF3 (c : Dev nD) : ∀ w : Fin cfg3.W, (dat3 (V9 m) (fun _ => fullShare) c).arrAt w cfg3.N = V10 m c (Pipeline.arrRef spec3 w)
  | ⟨0, _⟩ => ((dat3 (V9 m) (fun _ => fullShare) c).arrAt_in 0 rfl _).trans (((A_eq3 (V9 m) (fun _ => fullShare) c 0)).trans (W10_of_ne m c _ (by decide)).symm)
  | ⟨1, _⟩ => ((dat3 (V9 m) (fun _ => fullShare) c).arrAt_in 1 rfl _).trans (((A_eq3 (V9 m) (fun _ => fullShare) c 1)).trans (W10_of_ne m c _ (by decide)).symm)
  | ⟨2, _⟩ => ((dat3 (V9 m) (fun _ => fullShare) c).arrAt_in 2 rfl _).trans (((A_eq3 (V9 m) (fun _ => fullShare) c 2)).trans (W10_of_ne m c _ (by decide)).symm)
  | ⟨3, _⟩ => (W10_out m c).symm
theorem hrest3 (c : Dev nD) : ∀ b, b ∉ Finset.univ.image (Pipeline.arrRef spec3) → V10 m c b = V9 m c b :=
  fun b hb => W10_of_ne m c b fun e => hb (Finset.mem_image.mpr ⟨3, Finset.mem_univ _, e.symm⟩)

/-! ## The arguments end as launched -/

/-- A buffer that no host stretch writes and that is no region's output array ends as launched. -/
theorem W10_kept (c : Dev nD) (r : Ref sig .tc) (h0 : r ∉ hostOps0_W) (h1 : r ∉ hostOps1_W) (h11 : r ∉ hostOps1_1_W) (h12 : r ∉ hostOps1_2_W)
    (h2 : r ∉ hostOps2_W) (h3 : r ∉ hostOps3_W) (n2 : r ≠ main_v2) (n47 : r ≠ main_v47) (n61 : r ≠ main_v61) (n75 : r ≠ main_v75) :
    W10 m c (Proc.devRef .tc r) = m ((c : Thread nD τ).loc r) :=
  (W10_of_ne m c r n75).trans <| (StableHlo.after_of_writes_sub hostOps3 _ hostOps3_writes h3).trans <|
  (W8_of_ne m c r n61).trans <| (StableHlo.after_of_writes_sub hostOps2 _ hostOps2_writes h2).trans <|
  (W6_of_ne m c r n47).trans <| (StableHlo.after_of_writes_sub hostOps1_2 _ hostOps1_2_writes h12).trans <|
  (StableHlo.after_of_writes_sub hostOps1_1 _ hostOps1_1_writes h11).trans <| (StableHlo.after_of_writes_sub hostOps1 _ hostOps1_writes h1).trans <|
  (W2_of_ne m c r n2).trans <| (StableHlo.after_of_writes_sub hostOps0 _ hostOps0_writes h0).trans rfl

end Cert.KernelIdeal.Hand

end
-- ==== Proof.Run.lean ====
import proofs.«111898_j25933012533347_2_alg».proof.Proof.Gen.KernelIdeal.Launch
import proofs.«111898_j25933012533347_2_alg».proof.Proof.Gen.KernelIdeal.Skeleton
import proofs.«111898_j25933012533347_2_alg».proof.Proof.Gen.KernelIdeal.Points
import proofs.«111898_j25933012533347_2_alg».proof.Proof.Gen.KernelIdeal.Regions
import proofs.«111898_j25933012533347_2_alg».proof.Proof.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: four kernel regions among stretches of host operations, as segments -/

variable (m : (ℓ : Loc nD τ sig) → Buf (Elt F) ℓ)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) qs1 c
  | ⟨2, _⟩ => fun c => dat2 (V7 m) (fun _ => fullShare) c
  | ⟨3, _⟩ => fun c => dat3 (V9 m) (fun _ => fullShare) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m c) ∗ ∃ r, prngReg c r)

/-! ## Region 1's arrays: two of its input windows read one array, held in halves -/

/-- ENTRY: the unscoped buffers at `W5` are region 1's arrays — the shared one split in two halves — and the rest. -/
theorem entry1 (c : Dev nD) :
    (unscopedBufs c (V5 m c) : sProp 𝕄) ⊢ iprop((pdats m 1 c).arrays ((pdats m 1 c).arrAt · 0)
      ∗ Pipeline.unscopedRest (Ix := Unit) (Name := ℕ) (U := UR sig nD τ) (Lvl := ℕ) spec1 c (V5 m c)) := by
  rw [Pipeline.unscopedBufs_split₀ (Pipeline.pin (pcfgs (F := F)) adm) 1 winFacts₀1.arr_unscoped c (V5 m c)]
  refine sep_mono ?_ .rfl
  exact arrays1_of_bufs (V5 m) c

/-- EXIT: region 1's arrays at their final contents — the halves rejoined — and the rest are the unscoped buffers at `W6`. -/
theorem exit1 (c : Dev nD) :
    iprop((pdats m 1 c).arrays ((pdats m 1 c).arrAt · cfg1.N)
      ∗ Pipeline.unscopedRest (Ix := Unit) (Name := ℕ) (U := UR sig nD τ) (Lvl := ℕ) spec1 c (V5 m c)) ⊢ (unscopedBufs c (V6 m c) : sProp 𝕄) := by
  rw [Pipeline.unscopedBufs_split₀ (Pipeline.pin (pcfgs (F := F)) adm) 1 winFacts₀1.arr_unscoped c (V6 m c)]
  refine sep_mono ?_ (Entails.of_eq ?_)
  · exact bufs_of_arrays1 (V5 m) (V6 m) c (hF1 m c)
  · exact rest1_congr (V5 m) (V6 m) c (hrest1 m c)

/-! ## The regions as segments -/

set_option backward.isDefEq.respectTransparency.types false in
/-- Region 0 over the thread state: entered from every unscoped buffer at `W1`, left at `W2`. Its arrays are split
    out of the unscoped buffers and put back at the exit contents; the generator register goes into the invariant and out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`; its arrays by `entry1` / `exit1`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V5 m) qs1 c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split
    out of the unscoped buffers and put back at the exit contents; the generator register goes into the invariant and out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) (fun _ => fullShare) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split
    out of the unscoped buffers and put back at the exit contents; the generator register goes into the invariant and out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) (fun _ => fullShare) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

variable (ρ : Dev nD → PrngReg)

/-- @main's ten segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .region (reg3 m) ]

set_option backward.isDefEq.respectTransparency.types false in
/-- THE RUN: from any memory with zero counters every weakly fair execution of @main terminates, nothing faulting, and
    every final state holds every unscoped buffer at the last boundary's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: every weakly fair execution terminates, nothing faulting, with the six argument arrays as launched: each is
    an unscoped buffer that no host stretch writes and no region's output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W10_kept m c main_arg0 (by decide) (by decide) (by decide) (by decide) (by decide) (by decide) (by decide) (by decide) (by decide) (by decide)),
     (h c _ (mem_uc main_arg1 (by decide))).trans (W10_kept m c main_arg1 (by decide) (by decide) (by decide) (by decide) (by decide) (by decide) (by decide) (by decide) (by decide) (by decide)),
     (h c _ (mem_uc main_arg2 (by decide))).trans (W10_kept m c main_arg2 (by decide) (by decide) (by decide) (by decide) (by decide) (by decide) (by decide) (by decide) (by decide) (by decide)),
     (h c _ (mem_uc main_arg3 (by decide))).trans (W10_kept m c main_arg3 (by decide) (by decide) (by decide) (by decide) (by decide) (by decide) (by decide) (by decide) (by decide) (by decide)),
     (h c _ (mem_uc main_arg4 (by decide))).trans (W10_kept m c main_arg4 (by decide) (by decide) (by decide) (by decide) (by decide) (by decide) (by decide) (by decide) (by decide) (by decide)),
     (h c _ (mem_uc main_arg5 (by decide))).trans (W10_kept m c main_arg5 (by decide) (by decide) (by decide) (by decide) (by decide) (by decide) (by decide) (by decide) (by decide) (by decide))⟩)
    (run_all m ρ)

end Cert.KernelIdeal.Hand

end
-- ==== Proof.WBody0.lean ====
import proofs.«111898_j25933012533347_2_alg».proof.Proof.Gen.Kernel.Launch
import proofs.«111898_j25933012533347_2_alg».proof.Proof.Gen.Kernel.Skeleton
import proofs.«111898_j25933012533347_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection (two matrix products with biases and a rectifier) as a pipeline over 50 blocks of 2000 rows:
    every point reads its block of rows and the four resident operands, and stores one output block -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each staging buffer as one whole rectangle. -/
abbrev rA : Rect S2000x512 := Rect.unit (s := S2000x512) ![0, 0] S2000x512.size inb_S2000x512_S2000x512_0_0
abbrev rB : Rect S512x256 := Rect.unit (s := S512x256) ![0, 0] S512x256.size inb_S512x256_S512x256_0_0
abbrev rC : Rect S1x256 := Rect.unit (s := S1x256) ![0, 0] S1x256.size inb_S1x256_S1x256_0_0
abbrev rD : Rect S256x32 := Rect.unit (s := S256x32) ![0, 0] S256x32.size inb_S256x32_S256x32_0_0
abbrev rE : Rect S1x32 := Rect.unit (s := S1x32) ![0, 0] S1x32.size inb_S1x32_S1x32_0_0
abbrev rO : Rect S2000x32 := Rect.unit (s := S2000x32) ![0, 0] S2000x32.size inb_S2000x32_S2000x32_0_0

/-- The output buffer after the body: the one store of the projection of the five input blocks. -/
def out0_5 (x0 : Vec F S2000x512 .f32) (x1 : Vec F S512x256 .f32) (x2 : Vec F S1x256 .f32) (x3 : Vec F S256x32 .f32) (x4 : Vec F S1x32 .f32) : Vec F S2000x32 .f32 :=
  View.canon [⟨rO, k0_pay1 (View.ld x0 rA) (View.ld x1 rB) (View.ld x2 rC) (View.ld x3 rD) (View.ld x4 rE)⟩]

/-- The store covers the buffer. -/
theorem cover0_5 (p0 : Vec F S2000x32 .f32) (y : S2000x32.Idx) :
    ∃ pc ∈ ([⟨rO, p0⟩] : List (View.Piece (Elt F) S2000x32 .f32)), y ∈ pc.1.set :=
  View.cover_of_tiled [⟨rO, p0⟩] S2000x32.size (by rfl) y

set_option maxHeartbeats 1000000 in
/-- The body on whole staging buffers: inputs at known contents, the output at anything; it ends with the inputs as they
    were and the output at `out0_5` of them. -/
theorem sound_kernel0 (c : Dev nD) (E : Set ℕ) (i : grid0.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x32 .f32) (harg4 : arg4.IsWhole)
    (arg5 : Memref sig .tc .vmem S1x32 .f32) (harg5 : arg5.IsWhole) (arg6 : Memref sig .tc .vmem S2000x32 .f32) (harg6 : arg6.IsWhole)
    (x0 : Vec F S2000x512 .f32) (x1 : Vec F S512x256 .f32) (x2 : Vec F S1x256 .f32) (x3 : Vec F S256x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t` each
    input's buffer still at its block and the output's at the projection of the five input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WBody1.lean ====
import proofs.«111898_j25933012533347_2_alg».proof.Proof.Gen.Kernel.Launch
import proofs.«111898_j25933012533347_2_alg».proof.Proof.Gen.Kernel.Skeleton
import proofs.«111898_j25933012533347_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One hop's row update as a pipeline (region 1): every point reads its three input blocks, stores one output block -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 5000×32 staging buffer as one rectangle. -/
abbrev r1 : Rect S5000x32 := Rect.unit (s := S5000x32) ![0, 0] S5000x32.size inb_S5000x32_S5000x32_0_0

/-- The output buffer after the body: the one store of the row update of the three input blocks. -/
def out1_3 (x0 x1 x2 : Vec F S5000x32 .f32) : Vec F S5000x32 .f32 :=
  View.canon [⟨r1, k1_pay1 (View.ld x0 r1) (View.ld x1 r1) (View.ld x2 r1)⟩]

/-- The store covers the buffer. -/
theorem cover1_3 (p0 : Vec F S5000x32 .f32) (y : S5000x32.Idx) :
    ∃ pc ∈ ([⟨r1, p0⟩] : List (View.Piece (Elt F) S5000x32 .f32)), y ∈ pc.1.set :=
  View.cover_of_tiled [⟨r1, p0⟩] S5000x32.size (by rfl) y

set_option maxHeartbeats 1000000 in
/-- The body on whole staging buffers: inputs at known contents, the output at anything; it ends with the
    inputs as they were and the output at `out1_3` of them. -/
theorem sound_kernel1 (c : Dev nD) (E : Set ℕ) (i : grid1.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x32 .f32) (harg4 : arg4.IsWhole)
    (x0 x1 x2 : Vec F S5000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer still at its block and the output's at the row update of the three input blocks; the invariant is the
    scoped rest and the generator register, untouched; nothing owed; the input arrays held at the shares `qs`. -/
def dat1 (qs : Fin 4 → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := qs
  owed _ := 0

variable (qs : Fin 4 → PosShare TreeShare)

theorem A_eq1 (c : Dev nD) (w : Fin cfg1.W) : (dat1 V qs c).A w = V c (Pipeline.arrRef spec1 w) := by
  dsimp only [dat1]

theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) :
    (dat1 V qs c).after 3 t = out1_3 (iblk1 V c 0 t) (iblk1 V c 1 t) (iblk1 V c 2 t) := by dsimp only [dat1]

theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d

/-! ## The body obligation, at a generic point -/

def bodyPre1 (c : Dev nD) (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d)))

def bodyPost1 (c : Dev nD) (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ owns (c : Thread nD τ) (st1_3 t) fullShare ((dat1 V qs c).after 3 t))

/-- The body at any point: the inputs' buffers hold their blocks, so the body's triple applies; the invariant and the
    core's dues pass through unread. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2]
  rw [show (dat1 V qs c).Φ t.succ = (dat1 V qs c).Φ t.castSucc from rfl,
    show (dat1 V qs c).owesAt () t.succ = (dat1 V qs c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V qs c) (defs₀ (F := F)) Variants.none () Set.univ := fun t => by
  rw [bigSep_W1, bigSep_W1]
  exact sound_body1 V qs c t

end Cert.Kernel.Hand

end
-- ==== Proof.WShared1.lean ====
import proofs.«111898_j25933012533347_2_alg».proof.Proof.Gen.Kernel.Launch
import proofs.«111898_j25933012533347_2_alg».proof.Proof.Gen.Kernel.Skeleton
import proofs.«111898_j25933012533347_2_alg».proof.Proof.Gen.Kernel.Points
import proofs.«111898_j25933012533347_2_alg».proof.Proof.WBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: two of its input windows read ONE array, each holding half of it

The projection's result is both the running value and the anchor of the first hop, so the first and third windows of the
first hop's pipeline name the same array. The pipeline holds each input array at a share of its own: the shared array is
split in its two halves at entry and rejoined at exit. -/

/-- The shares at which region 1 holds its arrays: each of the two windows on the shared array holds half. -/
def qs1 : Fin 4 → PosShare TreeShare
  | ⟨0, _⟩ => fullShare.left
  | ⟨1, _⟩ => fullShare
  | ⟨2, _⟩ => fullShare.right
  | ⟨3, _⟩ => fullShare

/-- Region 1's three arrays: the projection's result (read by two windows), the scattered sum, the hop's result. -/
theorem image1 : Finset.image (Pipeline.arrRef spec1) Finset.univ = {main_v2, main_v46, main_v47} := by decide

/-- A conjunction over those three buffers, written out. -/
theorem bigSep_three {M : Type} [URA M] (Φ : Ref sig .tc → sProp M) :
    bigSep ({main_v2, main_v46, main_v47} : Finset (Ref sig .tc)) Φ = iprop(Φ main_v2 ∗ Φ main_v46 ∗ Φ main_v47) := by
  rw [bigSep_insert (by decide), bigSep_insert (by decide), bigSep_singleton]
  rfl

variable (V V' : (c : Dev nD) → (b : Ref sig .tc) → Buf (Elt F) ((c : Thread nD τ).loc b))

set_option maxHeartbeats 1000000 in
/-- ENTRY: the three buffers behind region 1's arrays, whole at the full share, are the pipeline's arrays at entry — the
    shared one split in its two halves. -/
theorem arrays1_of_bufs (c : Dev nD) :
    (Pipeline.arrBufs (Ix := Unit) (Name := ℕ) (U := UR sig nD τ) (Lvl := ℕ) spec1 c (V c) : sProp 𝕄)
      ⊢ (dat1 V qs1 c).arrays ((dat1 V qs1 c).arrAt · 0) := by
  unfold Pipeline.arrBufs Pipeline.Dat.arrays
  rw [bigSep_W1]
  dsimp only
  rw [image1, bigSep_three,
    (arr_whole1 0).set_eq_univ, (arr_whole1 1).set_eq_univ, (arr_whole1 3).set_eq_univ,
    show (dat1 V qs1 c).share 0 = fullShare.left from rfl, show (dat1 V qs1 c).share 1 = fullShare from rfl,
    show (dat1 V qs1 c).share 2 = fullShare.right from rfl, show (dat1 V qs1 c).share 3 = fullShare from rfl,
    show (dat1 V qs1 c).arrAt 0 0 = V c main_v2 from A_eq1 V qs1 c 0,
    show (dat1 V qs1 c).arrAt 1 0 = V c main_v46 from A_eq1 V qs1 c 1,
    show (dat1 V qs1 c).arrAt 2 0 = V c main_v2 from A_eq1 V qs1 c 2,
    show (dat1 V qs1 c).arrAt 3 0 = V c main_v47 from A_eq1 V qs1 c 3]
  iintro ⟨H2, H46, H47⟩
  ihave H := (pointsTo_share (PosShare.mem_left_op_right fullShare)).1 $$ H2
  icases H with ⟨Ha, Hb⟩
  isplitl [Ha]; · iexact Ha
  isplitl [H46]; · iexact H46
  isplitl [Hb]; · iexact Hb
  iexact H47

set_option maxHeartbeats 1000000 in
/-- EXIT: the pipeline's arrays at their final contents, read off a valuation `V'`, are the three buffers whole at the full
    share at `V'` — the halves of the shared array rejoined. -/
theorem bufs_of_arrays1 (c : Dev nD) (hF : ∀ w, (dat1 V qs1 c).arrAt w cfg1.N = V' c (Pipeline.arrRef spec1 w)) :
    (dat1 V qs1 c).arrays ((dat1 V qs1 c).arrAt · cfg1.N)
      ⊢ (Pipeline.arrBufs (Ix := Unit) (Name := ℕ) (U := UR sig nD τ) (Lvl := ℕ) spec1 c (V' c) : sProp 𝕄) := by
  unfold Pipeline.arrBufs Pipeline.Dat.arrays
  rw [bigSep_W1]
  dsimp only
  rw [image1, bigSep_three,
    (arr_whole1 0).set_eq_univ, (arr_whole1 1).set_eq_univ, (arr_whole1 3).set_eq_univ,
    show (dat1 V qs1 c).share 0 = fullShare.left from rfl, show (dat1 V qs1 c).share 1 = fullShare from rfl,
    show (dat1 V qs1 c).share 2 = fullShare.right from rfl, show (dat1 V qs1 c).share 3 = fullShare from rfl,
    hF 0, hF 1, hF 2, hF 3]
  iintro ⟨Ha, H46, Hb, H47⟩
  isplitl [Ha Hb]
  · iapply (pointsTo_share (PosShare.mem_left_op_right fullShare)).2
    isplitl [Ha]; · iexact Ha
    iexact Hb
  isplitl [H46]; · iexact H46
  iexact H47

/-- The buffers that are none of region 1's arrays are held alike at two valuations that agree off the arrays. -/
theorem rest1_congr (c : Dev nD) (hrest : ∀ b, b ∉ Finset.univ.image (Pipeline.arrRef spec1) → V' c b = V c b) :
    (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c (V' c) := by
  unfold Pipeline.unscopedRest
  exact bigSep_congr fun b hb => by rw [hrest b (Finset.mem_sdiff.mp hb).2]

end Cert.Kernel.Hand

end
-- ==== Proof.WBody2.lean ====
import proofs.«111898_j25933012533347_2_alg».proof.Proof.Gen.Kernel.Launch
import proofs.«111898_j25933012533347_2_alg».proof.Proof.Gen.Kernel.Skeleton
import proofs.«111898_j25933012533347_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One hop's row update as a pipeline (region 2): every point reads its three input blocks, stores one output block -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 5000×32 staging buffer as one rectangle. -/
abbrev r2 : Rect S5000x32 := Rect.unit (s := S5000x32) ![0, 0] S5000x32.size inb_S5000x32_S5000x32_0_0

/-- The output buffer after the body: the one store of the row update of the three input blocks. -/
def out2_3 (x0 x1 x2 : Vec F S5000x32 .f32) : Vec F S5000x32 .f32 :=
  View.canon [⟨r2, k2_pay1 (View.ld x0 r2) (View.ld x1 r2) (View.ld x2 r2)⟩]

/-- The store covers the buffer. -/
theorem cover2_3 (p0 : Vec F S5000x32 .f32) (y : S5000x32.Idx) :
    ∃ pc ∈ ([⟨r2, p0⟩] : List (View.Piece (Elt F) S5000x32 .f32)), y ∈ pc.1.set :=
  View.cover_of_tiled [⟨r2, p0⟩] S5000x32.size (by rfl) y

set_option maxHeartbeats 1000000 in
/-- The body on whole staging buffers: inputs at known contents, the output at anything; it ends with the
    inputs as they were and the output at `out2_3` of them. -/
theorem sound_kernel2 (c : Dev nD) (E : Set ℕ) (i : grid2.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x32 .f32) (harg4 : arg4.IsWhole)
    (x0 x1 x2 : Vec F S5000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer still at its block and the output's at the row update of the three input blocks; the invariant is the
    scoped rest and the generator register, untouched; nothing owed; the input arrays held at the shares `qs`. -/
def dat2 (qs : Fin 4 → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := qs
  owed _ := 0

variable (qs : Fin 4 → PosShare TreeShare)

theorem A_eq2 (c : Dev nD) (w : Fin cfg2.W) : (dat2 V qs c).A w = V c (Pipeline.arrRef spec2 w) := by
  dsimp only [dat2]

theorem after2_0 (c : Dev nD) (t : Fin cfg2.N) : (dat2 V qs c).after 0 t = iblk2 V c 0 t := by dsimp only [dat2]
theorem after2_1 (c : Dev nD) (t : Fin cfg2.N) : (dat2 V qs c).after 1 t = iblk2 V c 1 t := by dsimp only [dat2]
theorem after2_2 (c : Dev nD) (t : Fin cfg2.N) : (dat2 V qs c).after 2 t = iblk2 V c 2 t := by dsimp only [dat2]
theorem after2_3 (c : Dev nD) (t : Fin cfg2.N) :
    (dat2 V qs c).after 3 t = out2_3 (iblk2 V c 0 t) (iblk2 V c 1 t) (iblk2 V c 2 t) := by dsimp only [dat2]

theorem before2_0 (c : Dev nD) (t : Fin cfg2.N) (d) : (dat2 V qs c).before 0 t d = iblk2 V c 0 t :=
  before2_0_of V (dat2 V qs c) (A_eq2 V qs c 0) (after2_0 V qs c) t d
theorem before2_1 (c : Dev nD) (t : Fin cfg2.N) (d) : (dat2 V qs c).before 1 t d = iblk2 V c 1 t :=
  before2_1_of V (dat2 V qs c) (A_eq2 V qs c 1) (after2_1 V qs c) t d
theorem before2_2 (c : Dev nD) (t : Fin cfg2.N) (d) : (dat2 V qs c).before 2 t d = iblk2 V c 2 t :=
  before2_2_of V (dat2 V qs c) (A_eq2 V qs c 2) (after2_2 V qs c) t d

/-! ## The body obligation, at a generic point -/

def bodyPre2 (c : Dev nD) (t : Fin cfg2.N) : sProp 𝕄 :=
  iprop((dat2 V qs c).Φ t.castSucc ∗ (dat2 V qs c).owesAt () t.castSucc
    ∗ (∃ d, owns (c : Thread nD τ) (st2_0 t) fullShare ((dat2 V qs c).before 0 t d))
    ∗ (∃ d, owns (c : Thread nD τ) (st2_1 t) fullShare ((dat2 V qs c).before 1 t d))
    ∗ (∃ d, owns (c : Thread nD τ) (st2_2 t) fullShare ((dat2 V qs c).before 2 t d))
    ∗ (∃ d, owns (c : Thread nD τ) (st2_3 t) fullShare ((dat2 V qs c).before 3 t d)))

def bodyPost2 (c : Dev nD) (t : Fin cfg2.N) : sProp 𝕄 :=
  iprop((dat2 V qs c).Φ t.succ ∗ (dat2 V qs c).owesAt () t.succ
    ∗ owns (c : Thread nD τ) (st2_0 t) fullShare ((dat2 V qs c).after 0 t)
    ∗ owns (c : Thread nD τ) (st2_1 t) fullShare ((dat2 V qs c).after 1 t)
    ∗ owns (c : Thread nD τ) (st2_2 t) fullShare ((dat2 V qs c).after 2 t)
    ∗ owns (c : Thread nD τ) (st2_3 t) fullShare ((dat2 V qs c).after 3 t))

/-- The body at any point: the inputs' buffers hold their blocks, so the body's triple applies; the invariant and the
    core's dues pass through unread. -/
theorem sound_body2 (c : Dev nD) (t : Fin cfg2.N) :
    bodyPre2 V qs c t ⊢ wp frame (wpE (defs₀ (F := F)) Variants.none c none) Set.univ (bodyAt2 t) (fun _ => bodyPost2 V qs c t) := by
  unfold bodyPre2 bodyPost2 bodyAt2
  simp only [before2_0, before2_1, before2_2]
  rw [show (dat2 V qs c).Φ t.succ = (dat2 V qs c).Φ t.castSucc from rfl,
    show (dat2 V qs c).owesAt () t.succ = (dat2 V qs c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V qs c) (defs₀ (F := F)) Variants.none () Set.univ := fun t => by
  rw [bigSep_W2, bigSep_W2]
  exact sound_body2 V qs c t

end Cert.Kernel.Hand

end
-- ==== Proof.WBody3.lean ====
import proofs.«111898_j25933012533347_2_alg».proof.Proof.Gen.Kernel.Launch
import proofs.«111898_j25933012533347_2_alg».proof.Proof.Gen.Kernel.Skeleton
import proofs.«111898_j25933012533347_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One hop's row update as a pipeline (region 3): every point reads its three input blocks, stores one output block -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 5000×32 staging buffer as one rectangle. -/
abbrev r3 : Rect S5000x32 := Rect.unit (s := S5000x32) ![0, 0] S5000x32.size inb_S5000x32_S5000x32_0_0

/-- The output buffer after the body: the one store of the row update of the three input blocks. -/
def out3_3 (x0 x1 x2 : Vec F S5000x32 .f32) : Vec F S5000x32 .f32 :=
  View.canon [⟨r3, k3_pay1 (View.ld x0 r3) (View.ld x1 r3) (View.ld x2 r3)⟩]

/-- The store covers the buffer. -/
theorem cover3_3 (p0 : Vec F S5000x32 .f32) (y : S5000x32.Idx) :
    ∃ pc ∈ ([⟨r3, p0⟩] : List (View.Piece (Elt F) S5000x32 .f32)), y ∈ pc.1.set :=
  View.cover_of_tiled [⟨r3, p0⟩] S5000x32.size (by rfl) y

set_option maxHeartbeats 1000000 in
/-- The body on whole staging buffers: inputs at known contents, the output at anything; it ends with the
    inputs as they were and the output at `out3_3` of them. -/
theorem sound_kernel3 (c : Dev nD) (E : Set ℕ) (i : grid3.Coords)
    (arg1 : Memref sig .tc .vmem S5000x32 .f32) (harg1 : arg1.IsWhole) (arg2 : Memref sig .tc .vmem S5000x32 .f32) (harg2 : arg2.IsWhole)
    (arg3 : Memref sig .tc .vmem S5000x32 .f32) (harg3 : arg3.IsWhole) (arg4 : Memref sig .tc .vmem S5000x32 .f32) (harg4 : arg4.IsWhole)
    (x0 x1 x2 : Vec F S5000x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer still at its block and the output's at the row update of the three input blocks; the invariant is the
    scoped rest and the generator register, untouched; nothing owed; the input arrays held at the shares `qs`. -/
def dat3 (qs : Fin 4 → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q := qs
  owed _ := 0

variable (qs : Fin 4 → PosShare TreeShare)

theorem A_eq3 (c : Dev nD) (w : Fin cfg3.W) : (dat3 V qs c).A w = V c (Pipeline.arrRef spec3 w) := by
  dsimp only [dat3]

theorem after3_0 (c : Dev nD) (t : Fin cfg3.N) : (dat3 V qs c).after 0 t = iblk3 V c 0 t := by dsimp only [dat3]
theorem after3_1 (c : Dev nD) (t : Fin cfg3.N) : (dat3 V qs c).after 1 t = iblk3 V c 1 t := by dsimp only [dat3]
theorem after3_2 (c : Dev nD) (t : Fin cfg3.N) : (dat3 V qs c).after 2 t = iblk3 V c 2 t := by dsimp only [dat3]
theorem after3_3 (c : Dev nD) (t : Fin cfg3.N) :
    (dat3 V qs c).after 3 t = out3_3 (iblk3 V c 0 t) (iblk3 V c 1 t) (iblk3 V c 2 t) := by dsimp only [dat3]

theorem before3_0 (c : Dev nD) (t : Fin cfg3.N) (d) : (dat3 V qs c).before 0 t d = iblk3 V c 0 t :=
  before3_0_of V (dat3 V qs c) (A_eq3 V qs c 0) (after3_0 V qs c) t d
theorem before3_1 (c : Dev nD) (t : Fin cfg3.N) (d) : (dat3 V qs c).before 1 t d = iblk3 V c 1 t :=
  before3_1_of V (dat3 V qs c) (A_eq3 V qs c 1) (after3_1 V qs c) t d
theorem before3_2 (c : Dev nD) (t : Fin cfg3.N) (d) : (dat3 V qs c).before 2 t d = iblk3 V c 2 t :=
  before3_2_of V (dat3 V qs c) (A_eq3 V qs c 2) (after3_2 V qs c) t d

/-! ## The body obligation, at a generic point -/

def bodyPre3 (c : Dev nD) (t : Fin cfg3.N) : sProp 𝕄 :=
  iprop((dat3 V qs c).Φ t.castSucc ∗ (dat3 V qs c).owesAt () t.castSucc
    ∗ (∃ d, owns (c : Thread nD τ) (st3_0 t) fullShare ((dat3 V qs c).before 0 t d))
    ∗ (∃ d, owns (c : Thread nD τ) (st3_1 t) fullShare ((dat3 V qs c).before 1 t d))
    ∗ (∃ d, owns (c : Thread nD τ) (st3_2 t) fullShare ((dat3 V qs c).before 2 t d))
    ∗ (∃ d, owns (c : Thread nD τ) (st3_3 t) fullShare ((dat3 V qs c).before 3 t d)))

def bodyPost3 (c : Dev nD) (t : Fin cfg3.N) : sProp 𝕄 :=
  iprop((dat3 V qs c).Φ t.succ ∗ (dat3 V qs c).owesAt () t.succ
    ∗ owns (c : Thread nD τ) (st3_0 t) fullShare ((dat3 V qs c).after 0 t)
    ∗ owns (c : Thread nD τ) (st3_1 t) fullShare ((dat3 V qs c).after 1 t)
    ∗ owns (c : Thread nD τ) (st3_2 t) fullShare ((dat3 V qs c).after 2 t)
    ∗ owns (c : Thread nD τ) (st3_3 t) fullShare ((dat3 V qs c).after 3 t))

/-- The body at any point: the inputs' buffers hold their blocks, so the body's triple applies; the invariant and the
    core's dues pass through unread. -/
theorem sound_body3 (c : Dev nD) (t : Fin cfg3.N) :
    bodyPre3 V qs c t ⊢ wp frame (wpE (defs₀ (F := F)) Variants.none c none) Set.univ (bodyAt3 t) (fun _ => bodyPost3 V qs c t) := by
  unfold bodyPre3 bodyPost3 bodyAt3
  simp only [before3_0, before3_1, before3_2]
  rw [show (dat3 V qs c).Φ t.succ = (dat3 V qs c).Φ t.castSucc from rfl,
    show (dat3 V qs c).owesAt () t.succ = (dat3 V qs c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V qs c) (defs₀ (F := F)) Variants.none () Set.univ := fun t => by
  rw [bigSep_W3, bigSep_W3]
  exact sound_body3 V qs c t

end Cert.Kernel.Hand

end
-- ==== Proof.WFold.lean ====
import proofs.«111898_j25933012533347_2_alg».proof.Proof.Gen.Kernel.Launch
import proofs.«111898_j25933012533347_2_alg».proof.Proof.Gen.Kernel.Skeleton
import proofs.«111898_j25933012533347_2_alg».proof.Proof.Gen.Kernel.Points
import proofs.«111898_j25933012533347_2_alg».proof.Proof.Gen.Kernel.Regions
import proofs.«111898_j25933012533347_2_alg».proof.Proof.WBody0
import proofs.«111898_j25933012533347_2_alg».proof.Proof.WShared1
import proofs.«111898_j25933012533347_2_alg».proof.Proof.WBody2
import proofs.«111898_j25933012533347_2_alg».proof.Proof.WBody3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: four kernel regions among stretches of host operations

The buffer contents at every boundary are a fold from the launch memory: a host stretch applies its operations, a region
replaces its output array by what its write-backs leave. -/

variable (m : (ℓ : Loc nD τ sig) → Buf (Elt F) ℓ)

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- What region 0 leaves in its output array: the write-backs of all its points. -/
def o2 (c : Dev nD) := (dat0 (V1 m) c).arrAt 5 cfg0.N
/-- Core `c`'s buffers at region 0's exit: its output array at what the write-backs leave, every other buffer as entered. -/
def W2 (c : Dev nD) : Valuation τ sig (Elt F) := Function.update (W1 m c) (Proc.devRef .tc main_v2) (o2 m c)
theorem W2_out (c : Dev nD) : W2 m c (Proc.devRef .tc main_v2) = o2 m c := by unfold W2; exact Function.update_self _ _ _
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b
theorem hF0 (c : Dev nD) : ∀ w : Fin cfg0.W, (dat0 (V1 m) c).arrAt w cfg0.N = V2 m c (Pipeline.arrRef spec0 w)
  | ⟨0, _⟩ => ((dat0 (V1 m) c).arrAt_in 0 rfl _).trans (((A_eq0 (V1 m) c 0)).trans (W2_of_ne m c _ (by decide)).symm)
  | ⟨1, _⟩ => ((dat0 (V1 m) c).arrAt_in 1 rfl _).trans (((A_eq0 (V1 m) c 1)).trans (W2_of_ne m c _ (by decide)).symm)
  | ⟨2, _⟩ => ((dat0 (V1 m) c).arrAt_in 2 rfl _).trans (((A_eq0 (V1 m) c 2)).trans (W2_of_ne m c _ (by decide)).symm)
  | ⟨3, _⟩ => ((dat0 (V1 m) c).arrAt_in 3 rfl _).trans (((A_eq0 (V1 m) c 3)).trans (W2_of_ne m c _ (by decide)).symm)
  | ⟨4, _⟩ => ((dat0 (V1 m) c).arrAt_in 4 rfl _).trans (((A_eq0 (V1 m) c 4)).trans (W2_of_ne m c _ (by decide)).symm)
  | ⟨5, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨5, Finset.mem_univ _, e.symm⟩)

/-- After the host stretch `hostOps1`. -/
abbrev W3 : Dev nD → Valuation τ sig (Elt F) := fun c => StableHlo.after hostOps1 (W2 m c)
/-- After the host stretch `hostOps1_1`. -/
abbrev W4 : Dev nD → Valuation τ sig (Elt F) := fun c => StableHlo.after hostOps1_1 (W3 m c)
/-- After the host stretch `hostOps1_2`. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

/-- What region 1 leaves in its output array: the write-backs of all its points. -/
def o6 (c : Dev nD) := (dat1 (V5 m) qs1 c).arrAt 3 cfg1.N
/-- Core `c`'s buffers at region 1's exit: its output array at what the write-backs leave, every other buffer as entered. -/
def W6 (c : Dev nD) : Valuation τ sig (Elt F) := Function.update (W5 m c) (Proc.devRef .tc main_v47) (o6 m c)
theorem W6_out (c : Dev nD) : W6 m c (Proc.devRef .tc main_v47) = o6 m c := by unfold W6; exact Function.update_self _ _ _
theorem W6_of_ne (c : Dev nD) (b : Ref sig .tc) (hb : b ≠ main_v47) : W6 m c (Proc.devRef .tc b) = W5 m c (Proc.devRef .tc b) := by
  unfold W6; exact Function.update_of_ne (StableHlo.devRef_ne_of_ne hb) _ _
abbrev V6 : (c : Dev nD) → (b : Ref sig .tc) → Buf (Elt F) ((c : Thread nD τ).loc b) := fun c b => W6 m c b
theorem hF1 (c : Dev nD) : ∀ w : Fin cfg1.W, (dat1 (V5 m) qs1 c).arrAt w cfg1.N = V6 m c (Pipeline.arrRef spec1 w)
  | ⟨0, _⟩ => ((dat1 (V5 m) qs1 c).arrAt_in 0 rfl _).trans (((A_eq1 (V5 m) qs1 c 0)).trans (W6_of_ne m c _ (by decide)).symm)
  | ⟨1, _⟩ => ((dat1 (V5 m) qs1 c).arrAt_in 1 rfl _).trans (((A_eq1 (V5 m) qs1 c 1)).trans (W6_of_ne m c _ (by decide)).symm)
  | ⟨2, _⟩ => ((dat1 (V5 m) qs1 c).arrAt_in 2 rfl _).trans (((A_eq1 (V5 m) qs1 c 2)).trans (W6_of_ne m c _ (by decide)).symm)
  | ⟨3, _⟩ => (W6_out m c).symm
theorem hrest1 (c : Dev nD) : ∀ b, b ∉ Finset.univ.image (Pipeline.arrRef spec1) → V6 m c b = V5 m c b :=
  fun b hb => W6_of_ne m c b fun e => hb (Finset.mem_image.mpr ⟨3, Finset.mem_univ _, e.symm⟩)

/-- After the host stretch `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- What region 2 leaves in its output array: the write-backs of all its points. -/
def o8 (c : Dev nD) := (dat2 (V7 m) (fun _ => fullShare) c).arrAt 3 cfg2.N
/-- Core `c`'s buffers at region 2's exit: its output array at what the write-backs leave, every other buffer as entered. -/
def W8 (c : Dev nD) : Valuation τ sig (Elt F) := Function.update (W7 m c) (Proc.devRef .tc main_v61) (o8 m c)
theorem W8_out (c : Dev nD) : W8 m c (Proc.devRef .tc main_v61) = o8 m c := by unfold W8; exact Function.update_self _ _ _
theorem W8_of_ne (c : Dev nD) (b : Ref sig .tc) (hb : b ≠ main_v61) : W8 m c (Proc.devRef .tc b) = W7 m c (Proc.devRef .tc b) := by
  unfold W8; exact Function.update_of_ne (StableHlo.devRef_ne_of_ne hb) _ _
abbrev V8 : (c : Dev nD) → (b : Ref sig .tc) → Buf (Elt F) ((c : Thread nD τ).loc b) := fun c b => W8 m c b
theorem hF2 (c : Dev nD) : ∀ w : Fin cfg2.W, (dat2 (V7 m) (fun _ => fullShare) c).arrAt w cfg2.N = V8 m c (Pipeline.arrRef spec2 w)
  | ⟨0, _⟩ => ((dat2 (V7 m) (fun _ => fullShare) c).arrAt_in 0 rfl _).trans (((A_eq2 (V7 m) (fun _ => fullShare) c 0)).trans (W8_of_ne m c _ (by decide)).symm)
  | ⟨1, _⟩ => ((dat2 (V7 m) (fun _ => fullShare) c).arrAt_in 1 rfl _).trans (((A_eq2 (V7 m) (fun _ => fullShare) c 1)).trans (W8_of_ne m c _ (by decide)).symm)
  | ⟨2, _⟩ => ((dat2 (V7 m) (fun _ => fullShare) c).arrAt_in 2 rfl _).trans (((A_eq2 (V7 m) (fun _ => fullShare) c 2)).trans (W8_of_ne m c _ (by decide)).symm)
  | ⟨3, _⟩ => (W8_out m c).symm
theorem hrest2 (c : Dev nD) : ∀ b, b ∉ Finset.univ.image (Pipeline.arrRef spec2) → V8 m c b = V7 m c b :=
  fun b hb => W8_of_ne m c b fun e => hb (Finset.mem_image.mpr ⟨3, Finset.mem_univ _, e.symm⟩)

/-- After the host stretch `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- What region 3 leaves in its output array: the write-backs of all its points. -/
def o10 (c : Dev nD) := (dat3 (V9 m) (fun _ => fullShare) c).arrAt 3 cfg3.N
/-- Core `c`'s buffers at region 3's exit: its output array at what the write-backs leave, every other buffer as entered. -/
def W10 (c : Dev nD) : Valuation τ sig (Elt F) := Function.update (W9 m c) (Proc.devRef .tc main_v75) (o10 m c)
theorem W10_out (c : Dev nD) : W10 m c (Proc.devRef .tc main_v75) = o10 m c := by unfold W10; exact Function.update_self _ _ _
theorem W10_of_ne (c : Dev nD) (b : Ref sig .tc) (hb : b ≠ main_v75) : W10 m c (Proc.devRef .tc b) = W9 m c (Proc.devRef .tc b) := by
  unfold W10; exact Function.update_of_ne (StableHlo.devRef_ne_of_ne hb) _ _
abbrev V10 : (c : Dev nD) → (b : Ref sig .tc) → Buf (Elt F) ((c : Thread nD τ).loc b) := fun c b => W10 m c b
theorem hF3 (c : Dev nD) : ∀ w : Fin cfg3.W, (dat3 (V9 m) (fun _ => fullShare) c).arrAt w cfg3.N = V10 m c (Pipeline.arrRef spec3 w)
  | ⟨0, _⟩ => ((dat3 (V9 m) (fun _ => fullShare) c).arrAt_in 0 rfl _).trans (((A_eq3 (V9 m) (fun _ => fullShare) c 0)).trans (W10_of_ne m c _ (by decide)).symm)
  | ⟨1, _⟩ => ((dat3 (V9 m) (fun _ => fullShare) c).arrAt_in 1 rfl _).trans (((A_eq3 (V9 m) (fun _ => fullShare) c 1)).trans (W10_of_ne m c _ (by decide)).symm)
  | ⟨2, _⟩ => ((dat3 (V9 m) (fun _ => fullShare) c).arrAt_in 2 rfl _).trans (((A_eq3 (V9 m) (fun _ => fullShare) c 2)).trans (W10_of_ne m c _ (by decide)).symm)
  | ⟨3, _⟩ => (W10_out m c).symm
theorem hrest3 (c : Dev nD) : ∀ b, b ∉ Finset.univ.image (Pipeline.arrRef spec3) → V10 m c b = V9 m c b :=
  fun b hb => W10_of_ne m c b fun e => hb (Finset.mem_image.mpr ⟨3, Finset.mem_univ _, e.symm⟩)

/-! ## The arguments end as launched -/

/-- A buffer that no host stretch writes and that is no region's output array ends as launched. -/
theorem W10_kept (c : Dev nD) (r : Ref sig .tc) (h0 : r ∉ hostOps0_W) (h1 : r ∉ hostOps1_W) (h11 : r ∉ hostOps1_1_W) (h12 : r ∉ hostOps1_2_W)
    (h2 : r ∉ hostOps2_W) (h3 : r ∉ hostOps3_W) (n2 : r ≠ main_v2) (n47 : r ≠ main_v47) (n61 : r ≠ main_v61) (n75 : r ≠ main_v75) :
    W10 m c (Proc.devRef .tc r) = m ((c : Thread nD τ).loc r) :=
  (W10_of_ne m c r n75).trans <| (StableHlo.after_of_writes_sub hostOps3 _ hostOps3_writes h3).trans <|
  (W8_of_ne m c r n61).trans <| (StableHlo.after_of_writes_sub hostOps2 _ hostOps2_writes h2).trans <|
  (W6_of_ne m c r n47).trans <| (StableHlo.after_of_writes_sub hostOps1_2 _ hostOps1_2_writes h12).trans <|
  (StableHlo.after_of_writes_sub hostOps1_1 _ hostOps1_1_writes h11).trans <| (StableHlo.after_of_writes_sub hostOps1 _ hostOps1_writes h1).trans <|
  (W2_of_ne m c r n2).trans <| (StableHlo.after_of_writes_sub hostOps0 _ hostOps0_writes h0).trans rfl

end Cert.Kernel.Hand

end
-- ==== Proof.WRun.lean ====
import proofs.«111898_j25933012533347_2_alg».proof.Proof.Gen.Kernel.Launch
import proofs.«111898_j25933012533347_2_alg».proof.Proof.Gen.Kernel.Skeleton
import proofs.«111898_j25933012533347_2_alg».proof.Proof.Gen.Kernel.Points
import proofs.«111898_j25933012533347_2_alg».proof.Proof.Gen.Kernel.Regions
import proofs.«111898_j25933012533347_2_alg».proof.Proof.WFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: four kernel regions among stretches of host operations, as segments -/

variable (m : (ℓ : Loc nD τ sig) → Buf (Elt F) ℓ)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) qs1 c
  | ⟨2, _⟩ => fun c => dat2 (V7 m) (fun _ => fullShare) c
  | ⟨3, _⟩ => fun c => dat3 (V9 m) (fun _ => fullShare) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m c) ∗ ∃ r, prngReg c r)

/-! ## Region 1's arrays: two of its input windows read one array, held in halves -/

/-- ENTRY: the unscoped buffers at `W5` are region 1's arrays — the shared one split in two halves — and the rest. -/
theorem entry1 (c : Dev nD) :
    (unscopedBufs c (V5 m c) : sProp 𝕄) ⊢ iprop((pdats m 1 c).arrays ((pdats m 1 c).arrAt · 0)
      ∗ Pipeline.unscopedRest (Ix := Unit) (Name := ℕ) (U := UR sig nD τ) (Lvl := ℕ) spec1 c (V5 m c)) := by
  rw [Pipeline.unscopedBufs_split₀ (Pipeline.pin (pcfgs (F := F)) adm) 1 winFacts₀1.arr_unscoped c (V5 m c)]
  refine sep_mono ?_ .rfl
  exact arrays1_of_bufs (V5 m) c

/-- EXIT: region 1's arrays at their final contents — the halves rejoined — and the rest are the unscoped buffers at `W6`. -/
theorem exit1 (c : Dev nD) :
    iprop((pdats m 1 c).arrays ((pdats m 1 c).arrAt · cfg1.N)
      ∗ Pipeline.unscopedRest (Ix := Unit) (Name := ℕ) (U := UR sig nD τ) (Lvl := ℕ) spec1 c (V5 m c)) ⊢ (unscopedBufs c (V6 m c) : sProp 𝕄) := by
  rw [Pipeline.unscopedBufs_split₀ (Pipeline.pin (pcfgs (F := F)) adm) 1 winFacts₀1.arr_unscoped c (V6 m c)]
  refine sep_mono ?_ (Entails.of_eq ?_)
  · exact bufs_of_arrays1 (V5 m) (V6 m) c (hF1 m c)
  · exact rest1_congr (V5 m) (V6 m) c (hrest1 m c)

/-! ## The regions as segments -/

set_option backward.isDefEq.respectTransparency.types false in
/-- Region 0 over the thread state: entered from every unscoped buffer at `W1`, left at `W2`. Its arrays are split
    out of the unscoped buffers and put back at the exit contents; the generator register goes into the invariant and out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`; its arrays by `entry1` / `exit1`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V5 m) qs1 c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split
    out of the unscoped buffers and put back at the exit contents; the generator register goes into the invariant and out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) (fun _ => fullShare) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split
    out of the unscoped buffers and put back at the exit contents; the generator register goes into the invariant and out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) (fun _ => fullShare) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

variable (ρ : Dev nD → PrngReg)

/-- @main's ten segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .region (reg3 m) ]

set_option backward.isDefEq.respectTransparency.types false in
/-- THE RUN: from any memory with zero counters every weakly fair execution of @main terminates, nothing faulting, and
    every final state holds every unscoped buffer at the last boundary's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: every weakly fair execution terminates, nothing faulting, with the six argument arrays as launched: each is
    an unscoped buffer that no host stretch writes and no region's output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W10_kept m c main_arg0 (by decide) (by decide) (by decide) (by decide) (by decide) (by decide) (by decide) (by decide) (by decide) (by decide)),
     (h c _ (mem_uc main_arg1 (by decide))).trans (W10_kept m c main_arg1 (by decide) (by decide) (by decide) (by decide) (by decide) (by decide) (by decide) (by decide) (by decide) (by decide)),
     (h c _ (mem_uc main_arg2 (by decide))).trans (W10_kept m c main_arg2 (by decide) (by decide) (by decide) (by decide) (by decide) (by decide) (by decide) (by decide) (by decide) (by decide)),
     (h c _ (mem_uc main_arg3 (by decide))).trans (W10_kept m c main_arg3 (by decide) (by decide) (by decide) (by decide) (by decide) (by decide) (by decide) (by decide) (by decide) (by decide)),
     (h c _ (mem_uc main_arg4 (by decide))).trans (W10_kept m c main_arg4 (by decide) (by decide) (by decide) (by decide) (by decide) (by decide) (by decide) (by decide) (by decide) (by decide)),
     (h c _ (mem_uc main_arg5 (by decide))).trans (W10_kept m c main_arg5 (by decide) (by decide) (by decide) (by decide) (by decide) (by decide) (by decide) (by decide) (by decide) (by decide))⟩)
    (run_all m ρ)

end Cert.Kernel.Hand

end
-- ==== Proof.RefForms.lean ====
/- The reference's multilayer perceptron and its per-hop row update, each as a function of its
   operand arrays: the same host operations, in the same order, over the same shape records and
   float literals as the reference program's own stages, with the operands left as variables.
   Each intermediate array is a definition of its own, so that a stage can be read at an index
   from the stage before it. -/
import proofs.«111898_j25933012533347_2_alg».proof.Proof.Gen.ReferenceIdeal
import Idealize.ShloMosaic.Lib.Pipeline.Value

noncomputable section

namespace Cert.Hand.Rows

open Cert.ReferenceIdeal Cert.ReferenceIdeal.Gen Idealize.ShloMosaic Idealize.ShloMosaic.TcCoe Idealize.SL.Sem Idealize.ShloMosaic.StableHlo

variable {F : FTy → Type} [FloatOps F]

/-! ## The perceptron: relu (x · W1 + b1) · W2 + b2 -/

/-- x · W1, contracting the 512 input features. -/
def mlpDot1 (x : (⟨S100000x512, .f32⟩ : BufTy).Contents (Elt F)) (W1 : (⟨S512x256, .f32⟩ : BufTy).Contents (Elt F)) : (⟨S100000x256, .f32⟩ : BufTy).Contents (Elt F) :=
  Host.dotGeneral dot_S100000x512_S512x256_S100000x256_1_0_0_1_n_n none (x) (W1)

/-- b1 as a single row. -/
def mlpB1Row (b1 : (⟨S256, .f32⟩ : BufTy).Contents (Elt F)) : (⟨S1x256, .f32⟩ : BufTy).Contents (Elt F) :=
  broadcastInDim S1x256 ![1] bcast_S256_S1x256_1 (b1)

/-- b1 repeated down every row. -/
def mlpB1Mat (b1 : (⟨S256, .f32⟩ : BufTy).Contents (Elt F)) : (⟨S100000x256, .f32⟩ : BufTy).Contents (Elt F) :=
  broadcastInDim S100000x256 ![0, 1] bcast_S1x256_S100000x256_0_1 (mlpB1Row (F := F) b1)

/-- x · W1 + b1. -/
def mlpPre (x : (⟨S100000x512, .f32⟩ : BufTy).Contents (Elt F)) (W1 : (⟨S512x256, .f32⟩ : BufTy).Contents (Elt F)) (b1 : (⟨S256, .f32⟩ : BufTy).Contents (Elt F)) : (⟨S100000x256, .f32⟩ : BufTy).Contents (Elt F) :=
  addf (mlpDot1 (F := F) x W1) (mlpB1Mat (F := F) b1)

/-- The zero array the rectifier compares against. -/
def mlpZero : (⟨S100000x256, .f32⟩ : BufTy).Contents (Elt F) :=
  broadcastInDim S100000x256 ![] bcast_S_S100000x256 (constant S_ .f32 0x00000000#32)

/-- max (x · W1 + b1, 0). -/
def mlpHid (x : (⟨S100000x512, .f32⟩ : BufTy).Contents (Elt F)) (W1 : (⟨S512x256, .f32⟩ : BufTy).Contents (Elt F)) (b1 : (⟨S256, .f32⟩ : BufTy).Contents (Elt F)) : (⟨S100000x256, .f32⟩ : BufTy).Contents (Elt F) :=
  maximumf (mlpPre (F := F) x W1 b1) (mlpZero (F := F))

/-- hidden · W2, contracting the 256 hidden features. -/
def mlpDot2 (x : (⟨S100000x512, .f32⟩ : BufTy).Contents (Elt F)) (W1 : (⟨S512x256, .f32⟩ : BufTy).Contents (Elt F)) (b1 : (⟨S256, .f32⟩ : BufTy).Contents (Elt F)) (W2 : (⟨S256x32, .f32⟩ : BufTy).Contents (Elt F)) : (⟨S100000x32, .f32⟩ : BufTy).Contents (Elt F) :=
  Host.dotGeneral dot_S100000x256_S256x32_S100000x32_1_0_0_1_n_n none (mlpHid (F := F) x W1 b1) (W2)

/-- b2 as a single row. -/
def mlpB2Row (b2 : (⟨S32, .f32⟩ : BufTy).Contents (Elt F)) : (⟨S1x32, .f32⟩ : BufTy).Contents (Elt F) :=
  broadcastInDim S1x32 ![1] bcast_S32_S1x32_1 (b2)

/-- b2 repeated down every row. -/
def mlpB2Mat (b2 : (⟨S32, .f32⟩ : BufTy).Contents (Elt F)) : (⟨S100000x32, .f32⟩ : BufTy).Contents (Elt F) :=
  broadcastInDim S100000x32 ![0, 1] bcast_S1x32_S100000x32_0_1 (mlpB2Row (F := F) b2)

/-- relu (x · W1 + b1) · W2 + b2. -/
def MLPr (x : (⟨S100000x512, .f32⟩ : BufTy).Contents (Elt F)) (W1 : (⟨S512x256, .f32⟩ : BufTy).Contents (Elt F)) (b1 : (⟨S256, .f32⟩ : BufTy).Contents (Elt F)) (W2 : (⟨S256x32, .f32⟩ : BufTy).Contents (Elt F)) (b2 : (⟨S32, .f32⟩ : BufTy).Contents (Elt F)) : (⟨S100000x32, .f32⟩ : BufTy).Contents (Elt F) :=
  addf (mlpDot2 (F := F) x W1 b1 W2) (mlpB2Mat (F := F) b2)

/-! ## The row update: hh + score(‖diff‖) · diff, diff = (xk − 1 · (xk − ax)) − hh -/

/-- xk − ax. -/
def updLx (xk ax : (⟨S100000x32, .f32⟩ : BufTy).Contents (Elt F)) : (⟨S100000x32, .f32⟩ : BufTy).Contents (Elt F) :=
  subf (xk) (ax)

/-- The coefficient 1, at every entry. -/
def updOneMat : (⟨S100000x32, .f32⟩ : BufTy).Contents (Elt F) :=
  broadcastInDim S100000x32 ![] bcast_S_S100000x32 (constant S_ .f32 0x3F800000#32)

/-- 1 · (xk − ax). -/
def updScaled (xk ax : (⟨S100000x32, .f32⟩ : BufTy).Contents (Elt F)) : (⟨S100000x32, .f32⟩ : BufTy).Contents (Elt F) :=
  mulf (updOneMat (F := F)) (updLx (F := F) xk ax)

/-- y = xk − 1 · (xk − ax). -/
def updY (xk ax : (⟨S100000x32, .f32⟩ : BufTy).Contents (Elt F)) : (⟨S100000x32, .f32⟩ : BufTy).Contents (Elt F) :=
  subf (xk) (updScaled (F := F) xk ax)

/-- diff = y − hh. -/
def updDiff (xk ax hh : (⟨S100000x32, .f32⟩ : BufTy).Contents (Elt F)) : (⟨S100000x32, .f32⟩ : BufTy).Contents (Elt F) :=
  subf (updY (F := F) xk ax) (hh)

/-- diff · diff, entry by entry. -/
def updSq (xk ax hh : (⟨S100000x32, .f32⟩ : BufTy).Contents (Elt F)) : (⟨S100000x32, .f32⟩ : BufTy).Contents (Elt F) :=
  mulf (updDiff (F := F) xk ax hh) (updDiff (F := F) xk ax hh)

/-- The sum of squares along each row, from 0. -/
def updSum (xk ax hh : (⟨S100000x32, .f32⟩ : BufTy).Contents (Elt F)) : (⟨S100000, .f32⟩ : BufTy).Contents (Elt F) :=
  Host.reduceAdd (updSq (F := F) xk ax hh) (constant S_ .f32 0x00000000#32) reducesTo_S100000x32_S100000_d1 h_S_

/-- The row norm. -/
def updRn (xk ax hh : (⟨S100000x32, .f32⟩ : BufTy).Contents (Elt F)) : (⟨S100000, .f32⟩ : BufTy).Contents (Elt F) :=
  Host.sqrt (updSum (F := F) xk ax hh)

/-- 0 at every row. -/
def updZeroVec : (⟨S100000, .f32⟩ : BufTy).Contents (Elt F) :=
  broadcastInDim S100000 ![] bcast_S_S100000 (constant S_ .f32 0x00000000#32)

/-- norm > 0, row by row. -/
def updPos (xk ax hh : (⟨S100000x32, .f32⟩ : BufTy).Contents (Elt F)) : (⟨S100000, .i1⟩ : BufTy).Contents (Elt F) :=
  cmpf .ogt (updRn (F := F) xk ax hh) (updZeroVec (F := F))

/-- 1 at every row: the replacement divisor. -/
def updOneVec : (⟨S100000, .f32⟩ : BufTy).Contents (Elt F) :=
  broadcastInDim S100000 ![] bcast_S_S100000 (id (constant S_ .f32 0x3F800000#32))

/-- The safe divisor: the norm where it is positive, 1 elsewhere. -/
def updSafe (xk ax hh : (⟨S100000x32, .f32⟩ : BufTy).Contents (Elt F)) : (⟨S100000, .f32⟩ : BufTy).Contents (Elt F) :=
  select (updPos (F := F) xk ax hh) (updRn (F := F) xk ax hh) (updOneVec (F := F))

/-- The threshold 1/2 at every row. -/
def updHalfVec : (⟨S100000, .f32⟩ : BufTy).Contents (Elt F) :=
  broadcastInDim S100000 ![] bcast_S_S100000 (constant S_ .f32 0x3F000000#32)

/-- norm − 1/2. -/
def updShift (xk ax hh : (⟨S100000x32, .f32⟩ : BufTy).Contents (Elt F)) : (⟨S100000, .f32⟩ : BufTy).Contents (Elt F) :=
  subf (updRn (F := F) xk ax hh) (updHalfVec (F := F))

/-- max (norm − 1/2, 0). -/
def updClamp (xk ax hh : (⟨S100000x32, .f32⟩ : BufTy).Contents (Elt F)) : (⟨S100000, .f32⟩ : BufTy).Contents (Elt F) :=
  maximumf (updShift (F := F) xk ax hh) (updZeroVec (F := F))

/-- max (norm − 1/2, 0) / safe divisor. -/
def updRatio (xk ax hh : (⟨S100000x32, .f32⟩ : BufTy).Contents (Elt F)) : (⟨S100000, .f32⟩ : BufTy).Contents (Elt F) :=
  Host.divf (updClamp (F := F) xk ax hh) (updSafe (F := F) xk ax hh)

/-- 0 at every row: the score of a zero row. -/
def updZeroAlt : (⟨S100000, .f32⟩ : BufTy).Contents (Elt F) :=
  broadcastInDim S100000 ![] bcast_S_S100000 (id (constant S_ .f32 0x00000000#32))

/-- The score: the ratio where the norm is positive, 0 elsewhere. -/
def updScore (xk ax hh : (⟨S100000x32, .f32⟩ : BufTy).Contents (Elt F)) : (⟨S100000, .f32⟩ : BufTy).Contents (Elt F) :=
  select (updPos (F := F) xk ax hh) (updRatio (F := F) xk ax hh) (updZeroAlt (F := F))

/-- The score as a column. -/
def updScoreCol (xk ax hh : (⟨S100000x32, .f32⟩ : BufTy).Contents (Elt F)) : (⟨S100000x1, .f32⟩ : BufTy).Contents (Elt F) :=
  broadcastInDim S100000x1 ![0] bcast_S100000_S100000x1_0 (updScore (F := F) xk ax hh)

/-- The score repeated along each row. -/
def updScoreMat (xk ax hh : (⟨S100000x32, .f32⟩ : BufTy).Contents (Elt F)) : (⟨S100000x32, .f32⟩ : BufTy).Contents (Elt F) :=
  broadcastInDim S100000x32 ![0, 1] bcast_S100000x1_S100000x32_0_1 (updScoreCol (F := F) xk ax hh)

/-- score · diff. -/
def updProd (xk ax hh : (⟨S100000x32, .f32⟩ : BufTy).Contents (Elt F)) : (⟨S100000x32, .f32⟩ : BufTy).Contents (Elt F) :=
  mulf (updScoreMat (F := F) xk ax hh) (updDiff (F := F) xk ax hh)

/-- hh + score · diff. -/
def UPDr (xk ax hh : (⟨S100000x32, .f32⟩ : BufTy).Contents (Elt F)) : (⟨S100000x32, .f32⟩ : BufTy).Contents (Elt F) :=
  addf (hh) (updProd (F := F) xk ax hh)

end Cert.Hand.Rows

end
-- ==== Proof.RefWholeDefs.lean ====
import proofs.«111898_j25933012533347_2_alg».proof.Proof.Gen.ReferenceIdeal
import proofs.«111898_j25933012533347_2_alg».proof.Proof.RefForms
import Idealize.ShloMosaic.Lib.Pipeline.Value

noncomputable section

namespace Cert.Hand.Whole

open Cert.ReferenceIdeal Cert.ReferenceIdeal.Gen Idealize.ShloMosaic Idealize.ShloMosaic.TcCoe Idealize.SL.Sem Idealize.ShloMosaic.StableHlo
open Cert.Hand.Rows

variable {F : FTy → Type} [FloatOps F]

/-! ## The reference's result as a composition of whole-array functions

The reference computes, from the edge list, the source and target index vectors with the self loops appended
and the symmetric normalisation weights; from the features, a two-layer perceptron; and then three times the
weighted neighbour sum of the current features followed by the proximal update. Each piece is named here as a
function of whole arrays, in the reference's own operations, and the result is their composition. -/

/-- Contents of an array of 32-bit integers / 32-bit floats of a given shape. -/
abbrev CI (s : Shape) : Type := (⟨s, .i32⟩ : BufTy).Contents (Elt F)
abbrev CF (s : Shape) : Type := (⟨s, .f32⟩ : BufTy).Contents (Elt F)

/-- The node numbers 0 … 99999: the self loops' endpoints. -/
def LOOPr : CI (F := F) S100000 := iotaInDim S100000 32 0

/-- The edges' sources (row 0 of the edge list) followed by the self loops. -/
def ROWr (ei : CI (F := F) S2x1600000) : CI (F := F) S1700000 :=
  concatenate S1700000 0 [⟨S1600000, (shapeCast S1600000 (extractStridedSlice S1x1600000 ![0, 0] ei slices_S2x1600000_S1x1600000_0_0) shapeCasts_S1x1600000_S1600000 : CI (F := F) S1600000)⟩, ⟨S100000, (LOOPr : CI (F := F) S100000)⟩] concatenates_S1600000_S100000_S1700000_d0

/-- The edges' targets (row 1 of the edge list) followed by the self loops. -/
def COLr (ei : CI (F := F) S2x1600000) : CI (F := F) S1700000 :=
  concatenate S1700000 0 [⟨S1600000, (shapeCast S1600000 (extractStridedSlice S1x1600000 ![1, 0] ei slices_S2x1600000_S1x1600000_1_0) shapeCasts_S1x1600000_S1600000 : CI (F := F) S1600000)⟩, ⟨S100000, (LOOPr : CI (F := F) S100000)⟩] concatenates_S1600000_S100000_S1700000_d0

/-- An index vector made a column of gather indices, a negative index first moved up by the node count. -/
def WRAPr (ix : CI (F := F) S1700000) : CI (F := F) S1700000x1 :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- The all-ones edge weights. -/
def ONESr : CF (F := F) S1700000 := broadcastInDim S1700000 ![] bcast_S_S1700000 (constant S_ .f32 0x3F800000#32)

/-- The weighted in-degree of every node: the edge weights summed by target. -/
def DEGr (ei : CI (F := F) S2x1600000) : CF (F := F) S100000 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (COLr ei))
    ONESr

/-- The inverse square root of the degree where it is positive, zero elsewhere. -/
def DISr (ei : CI (F := F) S2x1600000) : CF (F := F) S100000 :=
  select (cmpf .ogt (DEGr ei) (broadcastInDim S100000 ![] bcast_S_S100000 (constant S_ .f32 0x00000000#32)))
    (Host.rsqrt (DEGr ei))
    (broadcastInDim S100000 ![] bcast_S_S100000 (id (constant S_ .f32 0x00000000#32)))

/-- The normalisation weight of every edge: dis[source] · 1 · dis[target]. -/
def NORMr (ei : CI (F := F) S2x1600000) : CF (F := F) S1700000 :=
  mulf (mulf (Host.gather gather_S100000_S1700000x1_S1700000_n_0_n_n_0_1_1 (DISr ei) (WRAPr (ROWr ei))) ONESr)
    (Host.gather gather_S100000_S1700000x1_S1700000_n_0_n_n_0_1_1 (DISr ei) (WRAPr (COLr ei)))

/-- One propagation: every edge carries its weight times its source's feature row to its target, where the
    contributions are summed. -/
def AXr (norm : CF (F := F) S1700000) (row col : CI (F := F) S1700000) (xk : CF (F := F) S100000x32) : CF (F := F) S100000x32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 col)
    (mulf (broadcastInDim S1700000x32 ![0, 1] bcast_S1700000x1_S1700000x32_0_1 (broadcastInDim S1700000x1 ![0] bcast_S1700000_S1700000x1_0 norm))
      (Host.gather gather_S100000x32_S1700000x1_S1700000x32_1_0_n_n_0_1_132 xk (WRAPr row)))

/-- One step: the neighbour sum of the current features, then the proximal update towards the perceptron's output. -/
def HOPr (norm : CF (F := F) S1700000) (row col : CI (F := F) S1700000) (hh xk : CF (F := F) S100000x32) : CF (F := F) S100000x32 :=
  UPDr xk (AXr norm row col xk) hh

/-- The features after one, two steps, and the result after three. -/
def X1r (x : CF (F := F) S100000x512) (W1 : CF (F := F) S512x256) (b1 : CF (F := F) S256) (W2 : CF (F := F) S256x32) (b2 : CF (F := F) S32)
    (ei : CI (F := F) S2x1600000) : CF (F := F) S100000x32 :=
  HOPr (NORMr ei) (ROWr ei) (COLr ei) (MLPr x W1 b1 W2 b2) (MLPr x W1 b1 W2 b2)
def X2r (x : CF (F := F) S100000x512) (W1 : CF (F := F) S512x256) (b1 : CF (F := F) S256) (W2 : CF (F := F) S256x32) (b2 : CF (F := F) S32)
    (ei : CI (F := F) S2x1600000) : CF (F := F) S100000x32 :=
  HOPr (NORMr ei) (ROWr ei) (COLr ei) (MLPr x W1 b1 W2 b2) (X1r x W1 b1 W2 b2 ei)
def TOTALr (x : CF (F := F) S100000x512) (W1 : CF (F := F) S512x256) (b1 : CF (F := F) S256) (W2 : CF (F := F) S256x32) (b2 : CF (F := F) S32)
    (ei : CI (F := F) S2x1600000) : CF (F := F) S100000x32 :=
  HOPr (NORMr ei) (ROWr ei) (COLr ei) (MLPr x W1 b1 W2 b2) (X2r x W1 b1 W2 b2 ei)

/-- The result with every step written out. -/
theorem TOTALr_eq (x : CF (F := F) S100000x512) (W1 : CF (F := F) S512x256) (b1 : CF (F := F) S256) (W2 : CF (F := F) S256x32) (b2 : CF (F := F) S32)
    (ei : CI (F := F) S2x1600000) :
    TOTALr x W1 b1 W2 b2 ei =
      (let h := MLPr x W1 b1 W2 b2
       let n := NORMr ei
       let r := ROWr ei
       let c := COLr ei
       let x1 := UPDr h (AXr n r c h) h
       let x2 := UPDr x1 (AXr n r c x1) h
       UPDr x2 (AXr n r c x2) h) := rfl

end Cert.Hand.Whole

end
-- ==== Proof.RefValue.lean ====
import proofs.«111898_j25933012533347_2_alg».proof.Proof.RefRunP
import proofs.«111898_j25933012533347_2_alg».proof.Proof.RefWholeDefs
import Idealize.ShloMosaic.Lib.StableHlo.Run

noncomputable section

namespace Cert.Hand.RefValue

open Cert.ReferenceIdeal Cert.ReferenceIdeal.Gen Idealize.ShloMosaic Idealize.ShloMosaic.TcCoe Idealize.SL.Sem Idealize.ShloMosaic.StableHlo
open Cert.Hand.Rows Cert.Hand.Whole

variable {F : FTy → Type} [FloatOps F]

/-! # The reference's run, read as the composition of whole-array functions

The reference is one straight line of host operations. It is cut into five stretches — the perceptron, the
index vectors and weights, and the three steps —; each stretch, from arbitrary contents, leaves in the buffers
the later stretches read the named whole-array function of what it read, and keeps the buffers it does not
write; composed, the line leaves in its result the whole composition applied to the arguments. -/

/-- The perceptron: two matrix products, each with its bias row added, a rectifier between them. -/
abbrev opsMlp : List (HloOp τ sig (Elt F)) :=
  [ binary main_arg0 main_arg1 main_v0 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v3) (TRef.of (T := ⟨S100000x256, .f32⟩) main_call0_v0) (TRef.of (T := ⟨S100000x256, .f32⟩) main_v4) maximumf,
    binary main_v4 main_arg3 main_v5 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    unary main_arg4 main_v6 (broadcastInDim S1x32 ![1] bcast_S32_S1x32_1 : (⟨S32, .f32⟩ : BufTy).Contents (Elt F) → (⟨S1x32, .f32⟩ : BufTy).Contents (Elt F)),
    unary main_v6 main_v7 (broadcastInDim S100000x32 ![0, 1] bcast_S1x32_S100000x32_0_1 : (⟨S1x32, .f32⟩ : BufTy).Contents (Elt F) → (⟨S100000x32, .f32⟩ : BufTy).Contents (Elt F)),
    binary main_v5 main_v7 main_v8 (addf : (⟨S100000x32, .f32⟩ : BufTy).Contents (Elt F) → (⟨S100000x32, .f32⟩ : BufTy).Contents (Elt F) → (⟨S100000x32, .f32⟩ : BufTy).Contents (Elt F)) ]
/-- The index vectors with the self loops appended, the degrees, and the normalisation weights. -/
abbrev opsNorm : List (HloOp τ sig (Elt F)) :=
  [ nullary main_v9 (iotaInDim S100000 32 0),
    unary main_arg5 main_v10 ((extractStridedSlice S1x1600000 ![0, 0] · slices_S2x1600000_S1x1600000_0_0) : (⟨S2x1600000, .i32⟩ : BufTy).Contents (Elt F) → (⟨S1x1600000, .i32⟩ : BufTy).Contents (Elt F)),
    reshape main_v10 main_v11 rfl shapeCasts_S1x1600000_S1600000,
    binary main_v11 main_v9 main_v12 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg5 main_v13 ((extractStridedSlice S1x1600000 ![1, 0] · slices_S2x1600000_S1x1600000_1_0) : (⟨S2x1600000, .i32⟩ : BufTy).Contents (Elt F) → (⟨S1x1600000, .i32⟩ : BufTy).Contents (Elt F)),
    reshape main_v13 main_v14 rfl shapeCasts_S1x1600000_S1600000,
    binary main_v14 main_v9 main_v15 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v16 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v17 (broadcastInDim S100000 ![] bcast_S_S100000 : (⟨S_, .f32⟩ : BufTy).Contents (Elt F) → (⟨S100000, .f32⟩ : BufTy).Contents (Elt F)),
    unary main_v15 main_v18 (broadcastInDim S1700000x1 ![0] bcast_S1700000_S1700000x1_0 : (⟨S1700000, .i32⟩ : BufTy).Contents (Elt F) → (⟨S1700000x1, .i32⟩ : BufTy).Contents (Elt F)),
    ternary main_v17 main_v18 main_v16 main_v19 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v20 (broadcastInDim S100000 ![] bcast_S_S100000 : (⟨S_, .f32⟩ : BufTy).Contents (Elt F) → (⟨S100000, .f32⟩ : BufTy).Contents (Elt F)),
    binary main_v19 main_v20 main_v21 (cmpf .ogt : (⟨S100000, .f32⟩ : BufTy).Contents (Elt F) → (⟨S100000, .f32⟩ : BufTy).Contents (Elt F) → (⟨S100000, .i1⟩ : BufTy).Contents (Elt F)),
    unary main_v19 main_v22 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v21) (TRef.of (T := ⟨S100000, .f32⟩) main_v22) (TRef.of (T := ⟨S100000, .f32⟩) main_call1_v1) (TRef.of (T := ⟨S100000, .f32⟩) main_v23) select,
    nullary main_c (constantI S_ 32 0#32),
    unary main_c main_v24 (broadcastInDim S1700000 ![] bcast_S_S1700000 : (⟨S_, .i32⟩ : BufTy).Contents (Elt F) → (⟨S1700000, .i32⟩ : BufTy).Contents (Elt F)),
    binary main_v12 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v26 (broadcastInDim S1700000 ![] bcast_S_S1700000 : (⟨S_, .i32⟩ : BufTy).Contents (Elt F) → (⟨S1700000, .i32⟩ : BufTy).Contents (Elt F)),
    binary main_v12 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v12 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v23 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v30 main_v16 main_v31 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v32 (broadcastInDim S1700000 ![] bcast_S_S1700000 : (⟨S_, .i32⟩ : BufTy).Contents (Elt F) → (⟨S1700000, .i32⟩ : BufTy).Contents (Elt F)),
    binary main_v15 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v34 (broadcastInDim S1700000 ![] bcast_S_S1700000 : (⟨S_, .i32⟩ : BufTy).Contents (Elt F) → (⟨S1700000, .i32⟩ : BufTy).Contents (Elt F)),
    binary main_v15 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v15 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v23 main_v37 main_v38 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v31 main_v38 main_v39 (mulf : (⟨S1700000, .f32⟩ : BufTy).Contents (Elt F) → (⟨S1700000, .f32⟩ : BufTy).Contents (Elt F) → (⟨S1700000, .f32⟩ : BufTy).Contents (Elt F)) ]
/-- The first step: the neighbour sum of the perceptron's output and the update. -/
abbrev opsHop1 : List (HloOp τ sig (Elt F)) :=
  [ unary main_v39 main_v40 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v41 (broadcastInDim S1700000 ![] bcast_S_S1700000 : (⟨S_, .i32⟩ : BufTy).Contents (Elt F) → (⟨S1700000, .i32⟩ : BufTy).Contents (Elt F)),
    binary main_v12 main_v41 main_v42 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v43 (broadcastInDim S1700000 ![] bcast_S_S1700000 : (⟨S_, .i32⟩ : BufTy).Contents (Elt F) → (⟨S1700000, .i32⟩ : BufTy).Contents (Elt F)),
    binary main_v12 main_v43 main_v44 (addi : (⟨S1700000, .i32⟩ : BufTy).Contents (Elt F) → (⟨S1700000, .i32⟩ : BufTy).Contents (Elt F) → (⟨S1700000, .i32⟩ : BufTy).Contents (Elt F)),
    ternary main_v42 main_v44 main_v12 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v45 main_v46 (broadcastInDim S1700000x1 ![0] bcast_S1700000_S1700000x1_0 : (⟨S1700000, .i32⟩ : BufTy).Contents (Elt F) → (⟨S1700000x1, .i32⟩ : BufTy).Contents (Elt F)),
    binary main_v8 main_v46 main_v47 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v40 main_v48 (broadcastInDim S1700000x32 ![0, 1] bcast_S1700000x1_S1700000x32_0_1 : (⟨S1700000x1, .f32⟩ : BufTy).Contents (Elt F) → (⟨S1700000x32, .f32⟩ : BufTy).Contents (Elt F)),
    binary main_v48 main_v47 main_v49 (mulf : (⟨S1700000x32, .f32⟩ : BufTy).Contents (Elt F) → (⟨S1700000x32, .f32⟩ : BufTy).Contents (Elt F) → (⟨S1700000x32, .f32⟩ : BufTy).Contents (Elt F)),
    nullary main_cst_8 (constant S_ .f32 0x00000000#32),
    unary main_cst_8 main_v50 (broadcastInDim S100000x32 ![] bcast_S_S100000x32 : (⟨S_, .f32⟩ : BufTy).Contents (Elt F) → (⟨S100000x32, .f32⟩ : BufTy).Contents (Elt F)),
    unary main_v15 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v8 main_v52 main_v53 (subf : (⟨S100000x32, .f32⟩ : BufTy).Contents (Elt F) → (⟨S100000x32, .f32⟩ : BufTy).Contents (Elt F) → (⟨S100000x32, .f32⟩ : BufTy).Contents (Elt F)),
    nullary main_cst_9 (constant S_ .f32 0x3F800000#32),
    unary main_cst_9 main_v54 (broadcastInDim S100000x32 ![] bcast_S_S100000x32 : (⟨S_, .f32⟩ : BufTy).Contents (Elt F) → (⟨S100000x32, .f32⟩ : BufTy).Contents (Elt F)),
    binary main_v54 main_v53 main_v55 (mulf : (⟨S100000x32, .f32⟩ : BufTy).Contents (Elt F) → (⟨S100000x32, .f32⟩ : BufTy).Contents (Elt F) → (⟨S100000x32, .f32⟩ : BufTy).Contents (Elt F)),
    binary main_v8 main_v55 main_v56 (subf : (⟨S100000x32, .f32⟩ : BufTy).Contents (Elt F) → (⟨S100000x32, .f32⟩ : BufTy).Contents (Elt F) → (⟨S100000x32, .f32⟩ : BufTy).Contents (Elt F)),
    binary main_v56 main_v8 main_v57 (subf : (⟨S100000x32, .f32⟩ : BufTy).Contents (Elt F) → (⟨S100000x32, .f32⟩ : BufTy).Contents (Elt F) → (⟨S100000x32, .f32⟩ : BufTy).Contents (Elt F)),
    binary main_v57 main_v57 main_v58 (mulf : (⟨S100000x32, .f32⟩ : BufTy).Contents (Elt F) → (⟨S100000x32, .f32⟩ : BufTy).Contents (Elt F) → (⟨S100000x32, .f32⟩ : BufTy).Contents (Elt F)),
    nullary main_cst_10 (constant S_ .f32 0x00000000#32),
    binary main_v58 main_cst_10 main_v59 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v59 main_v60 (Host.sqrt : (⟨S100000, .f32⟩ : BufTy).Contents (Elt F) → (⟨S100000, .f32⟩ : BufTy).Contents (Elt F)),
    nullary main_cst_11 (constant S_ .f32 0x00000000#32),
    unary main_cst_11 main_v61 (broadcastInDim S100000 ![] bcast_S_S100000 : (⟨S_, .f32⟩ : BufTy).Contents (Elt F) → (⟨S100000, .f32⟩ : BufTy).Contents (Elt F)),
    binary main_v60 main_v61 main_v62 (cmpf .ogt : (⟨S100000, .f32⟩ : BufTy).Contents (Elt F) → (⟨S100000, .f32⟩ : BufTy).Contents (Elt F) → (⟨S100000, .i1⟩ : BufTy).Contents (Elt F)),
    nullary main_cst_12 (constant S_ .f32 0x3F800000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v62) (TRef.of (T := ⟨S100000, .f32⟩) main_v60) (TRef.of (T := ⟨S100000, .f32⟩) main_call2_v1) (TRef.of (T := ⟨S100000, .f32⟩) main_v63) select,
    nullary main_cst_13 (constant S_ .f32 0x00000000#32),
    unary main_cst_13 main_v64 (broadcastInDim S100000 ![] bcast_S_S100000 : (⟨S_, .f32⟩ : BufTy).Contents (Elt F) → (⟨S100000, .f32⟩ : BufTy).Contents (Elt F)),
    binary main_v60 main_v64 main_v65 (cmpf .ogt : (⟨S100000, .f32⟩ : BufTy).Contents (Elt F) → (⟨S100000, .f32⟩ : BufTy).Contents (Elt F) → (⟨S100000, .i1⟩ : BufTy).Contents (Elt F)),
    nullary main_cst_14 (constant S_ .f32 0x3F000000#32),
    unary main_cst_14 main_v66 (broadcastInDim S100000 ![] bcast_S_S100000 : (⟨S_, .f32⟩ : BufTy).Contents (Elt F) → (⟨S100000, .f32⟩ : BufTy).Contents (Elt F)),
    binary main_v60 main_v66 main_v67 (subf : (⟨S100000, .f32⟩ : BufTy).Contents (Elt F) → (⟨S100000, .f32⟩ : BufTy).Contents (Elt F) → (⟨S100000, .f32⟩ : BufTy).Contents (Elt F)),
    nullary main_cst_15 (constant S_ .f32 0x00000000#32),
    unary main_cst_15 main_v68 (broadcastInDim S100000 ![] bcast_S_S100000 : (⟨S_, .f32⟩ : BufTy).Contents (Elt F) → (⟨S100000, .f32⟩ : BufTy).Contents (Elt F)),
    binary main_v67 main_v68 main_v69 (maximumf : (⟨S100000, .f32⟩ : BufTy).Contents (Elt F) → (⟨S100000, .f32⟩ : BufTy).Contents (Elt F) → (⟨S100000, .f32⟩ : BufTy).Contents (Elt F)),
    binary main_v69 main_v63 main_v70 (Host.divf : (⟨S100000, .f32⟩ : BufTy).Contents (Elt F) → (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v65) (TRef.of (T := ⟨S100000, .f32⟩) main_v70) (TRef.of (T := ⟨S100000, .f32⟩) main_call3_v1) (TRef.of (T := ⟨S100000, .f32⟩) main_v71) select,
    unary main_v71 main_v72 (broadcastInDim S100000x1 ![0] bcast_S100000_S100000x1_0 : (⟨S100000, .f32⟩ : BufTy).Contents (Elt F) → (⟨S100000x1, .f32⟩ : BufTy).Contents (Elt F)),
    unary main_v72 main_v73 (broadcastInDim S100000x32 ![0, 1] bcast_S100000x1_S100000x32_0_1 : (⟨S100000x1, .f32⟩ : BufTy).Contents (Elt F) → (⟨S100000x32, .f32⟩ : BufTy).Contents (Elt F)),
    binary main_v73 main_v57 main_v74 (mulf : (⟨S100000x32, .f32⟩ : BufTy).Contents (Elt F) → (⟨S100000x32, .f32⟩ : BufTy).Contents (Elt F) → (⟨S100000x32, .f32⟩ : BufTy).Contents (Elt F)),
    binary main_v8 main_v74 main_v75 (addf : (⟨S100000x32, .f32⟩ : BufTy).Contents (Elt F) → (⟨S100000x32, .f32⟩ : BufTy).Contents (Elt F) → (⟨S100000x32, .f32⟩ : BufTy).Contents (Elt F)) ]
/-- The second step. -/
abbrev opsHop2 : List (HloOp τ sig (Elt F)) :=
  [ unary main_v39 main_v76 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v77 (broadcastInDim S1700000 ![] bcast_S_S1700000 : (⟨S_, .i32⟩ : BufTy).Contents (Elt F) → (⟨S1700000, .i32⟩ : BufTy).Contents (Elt F)),
    binary main_v12 main_v77 main_v78 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v79 (broadcastInDim S1700000 ![] bcast_S_S1700000 : (⟨S_, .i32⟩ : BufTy).Contents (Elt F) → (⟨S1700000, .i32⟩ : BufTy).Contents (Elt F)),
    binary main_v12 main_v79 main_v80 (addi : (⟨S1700000, .i32⟩ : BufTy).Contents (Elt F) → (⟨S1700000, .i32⟩ : BufTy).Contents (Elt F) → (⟨S1700000, .i32⟩ : BufTy).Contents (Elt F)),
    ternary main_v78 main_v80 main_v12 main_v81 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v81 main_v82 (broadcastInDim S1700000x1 ![0] bcast_S1700000_S1700000x1_0 : (⟨S1700000, .i32⟩ : BufTy).Contents (Elt F) → (⟨S1700000x1, .i32⟩ : BufTy).Contents (Elt F)),
    binary main_v75 main_v82 main_v83 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v76 main_v84 (broadcastInDim S1700000x32 ![0, 1] bcast_S1700000x1_S1700000x32_0_1 : (⟨S1700000x1, .f32⟩ : BufTy).Contents (Elt F) → (⟨S1700000x32, .f32⟩ : BufTy).Contents (Elt F)),
    binary main_v84 main_v83 main_v85 (mulf : (⟨S1700000x32, .f32⟩ : BufTy).Contents (Elt F) → (⟨S1700000x32, .f32⟩ : BufTy).Contents (Elt F) → (⟨S1700000x32, .f32⟩ : BufTy).Contents (Elt F)),
    nullary main_cst_19 (constant S_ .f32 0x00000000#32),
    unary main_cst_19 main_v86 (broadcastInDim S100000x32 ![] bcast_S_S100000x32 : (⟨S_, .f32⟩ : BufTy).Contents (Elt F) → (⟨S100000x32, .f32⟩ : BufTy).Contents (Elt F)),
    unary main_v15 main_v87 (broadcastInDim S1700000x1 ![0] bcast_S1700000_S1700000x1_0 : (⟨S1700000, .i32⟩ : BufTy).Contents (Elt F) → (⟨S1700000x1, .i32⟩ : BufTy).Contents (Elt F)),
    ternary main_v86 main_v87 main_v85 main_v88 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v75 main_v88 main_v89 (subf : (⟨S100000x32, .f32⟩ : BufTy).Contents (Elt F) → (⟨S100000x32, .f32⟩ : BufTy).Contents (Elt F) → (⟨S100000x32, .f32⟩ : BufTy).Contents (Elt F)),
    nullary main_cst_20 (constant S_ .f32 0x3F800000#32),
    unary main_cst_20 main_v90 (broadcastInDim S100000x32 ![] bcast_S_S100000x32 : (⟨S_, .f32⟩ : BufTy).Contents (Elt F) → (⟨S100000x32, .f32⟩ : BufTy).Contents (Elt F)),
    binary main_v90 main_v89 main_v91 (mulf : (⟨S100000x32, .f32⟩ : BufTy).Contents (Elt F) → (⟨S100000x32, .f32⟩ : BufTy).Contents (Elt F) → (⟨S100000x32, .f32⟩ : BufTy).Contents (Elt F)),
    binary main_v75 main_v91 main_v92 (subf : (⟨S100000x32, .f32⟩ : BufTy).Contents (Elt F) → (⟨S100000x32, .f32⟩ : BufTy).Contents (Elt F) → (⟨S100000x32, .f32⟩ : BufTy).Contents (Elt F)),
    binary main_v92 main_v8 main_v93 (subf : (⟨S100000x32, .f32⟩ : BufTy).Contents (Elt F) → (⟨S100000x32, .f32⟩ : BufTy).Contents (Elt F) → (⟨S100000x32, .f32⟩ : BufTy).Contents (Elt F)),
    binary main_v93 main_v93 main_v94 (mulf : (⟨S100000x32, .f32⟩ : BufTy).Contents (Elt F) → (⟨S100000x32, .f32⟩ : BufTy).Contents (Elt F) → (⟨S100000x32, .f32⟩ : BufTy).Contents (Elt F)),
    nullary main_cst_21 (constant S_ .f32 0x00000000#32),
    binary main_v94 main_cst_21 main_v95 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v95 main_v96 (Host.sqrt : (⟨S100000, .f32⟩ : BufTy).Contents (Elt F) → (⟨S100000, .f32⟩ : BufTy).Contents (Elt F)),
    nullary main_cst_22 (constant S_ .f32 0x00000000#32),
    unary main_cst_22 main_v97 (broadcastInDim S100000 ![] bcast_S_S100000 : (⟨S_, .f32⟩ : BufTy).Contents (Elt F) → (⟨S100000, .f32⟩ : BufTy).Contents (Elt F)),
    binary main_v96 main_v97 main_v98 (cmpf .ogt : (⟨S100000, .f32⟩ : BufTy).Contents (Elt F) → (⟨S100000, .f32⟩ : BufTy).Contents (Elt F) → (⟨S100000, .i1⟩ : BufTy).Contents (Elt F)),
    nullary main_cst_23 (constant S_ .f32 0x3F800000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v98) (TRef.of (T := ⟨S100000, .f32⟩) main_v96) (TRef.of (T := ⟨S100000, .f32⟩) main_call4_v1) (TRef.of (T := ⟨S100000, .f32⟩) main_v99) select,
    nullary main_cst_24 (constant S_ .f32 0x00000000#32),
    unary main_cst_24 main_v100 (broadcastInDim S100000 ![] bcast_S_S100000 : (⟨S_, .f32⟩ : BufTy).Contents (Elt F) → (⟨S100000, .f32⟩ : BufTy).Contents (Elt F)),
    binary main_v96 main_v100 main_v101 (cmpf .ogt : (⟨S100000, .f32⟩ : BufTy).Contents (Elt F) → (⟨S100000, .f32⟩ : BufTy).Contents (Elt F) → (⟨S100000, .i1⟩ : BufTy).Contents (Elt F)),
    nullary main_cst_25 (constant S_ .f32 0x3F000000#32),
    unary main_cst_25 main_v102 (broadcastInDim S100000 ![] bcast_S_S100000 : (⟨S_, .f32⟩ : BufTy).Contents (Elt F) → (⟨S100000, .f32⟩ : BufTy).Contents (Elt F)),
    binary main_v96 main_v102 main_v103 (subf : (⟨S100000, .f32⟩ : BufTy).Contents (Elt F) → (⟨S100000, .f32⟩ : BufTy).Contents (Elt F) → (⟨S100000, .f32⟩ : BufTy).Contents (Elt F)),
    nullary main_cst_26 (constant S_ .f32 0x00000000#32),
    unary main_cst_26 main_v104 (broadcastInDim S100000 ![] bcast_S_S100000 : (⟨S_, .f32⟩ : BufTy).Contents (Elt F) → (⟨S100000, .f32⟩ : BufTy).Contents (Elt F)),
    binary main_v103 main_v104 main_v105 (maximumf : (⟨S100000, .f32⟩ : BufTy).Contents (Elt F) → (⟨S100000, .f32⟩ : BufTy).Contents (Elt F) → (⟨S100000, .f32⟩ : BufTy).Contents (Elt F)),
    binary main_v105 main_v99 main_v106 (Host.divf : (⟨S100000, .f32⟩ : BufTy).Contents (Elt F) → (⟨S100000, .f32⟩ : BufTy).Contents (Elt F) → (⟨S100000, .f32⟩ : BufTy).Contents (Elt F)),
    nullary main_cst_27 (constant S_ .f32 0x00000000#32),
    TRef.unary (TRef.of (T := ⟨S_, .f32⟩) main_cst_27) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v101) (TRef.of (T := ⟨S100000, .f32⟩) main_v106) (TRef.of (T := ⟨S100000, .f32⟩) main_call5_v1) (TRef.of (T := ⟨S100000, .f32⟩) main_v107) select,
    unary main_v107 main_v108 (broadcastInDim S100000x1 ![0] bcast_S100000_S100000x1_0 : (⟨S100000, .f32⟩ : BufTy).Contents (Elt F) → (⟨S100000x1, .f32⟩ : BufTy).Contents (Elt F)),
    unary main_v108 main_v109 (broadcastInDim S100000x32 ![0, 1] bcast_S100000x1_S100000x32_0_1 : (⟨S100000x1, .f32⟩ : BufTy).Contents (Elt F) → (⟨S100000x32, .f32⟩ : BufTy).Contents (Elt F)),
    binary main_v109 main_v93 main_v110 (mulf : (⟨S100000x32, .f32⟩ : BufTy).Contents (Elt F) → (⟨S100000x32, .f32⟩ : BufTy).Contents (Elt F) → (⟨S100000x32, .f32⟩ : BufTy).Contents (Elt F)),
    binary main_v8 main_v110 main_v111 (addf : (⟨S100000x32, .f32⟩ : BufTy).Contents (Elt F) → (⟨S100000x32, .f32⟩ : BufTy).Contents (Elt F) → (⟨S100000x32, .f32⟩ : BufTy).Contents (Elt F)) ]
/-- The third step. -/
abbrev opsHop3 : List (HloOp τ sig (Elt F)) :=
  [ unary main_v39 main_v112 (broadcastInDim S1700000x1 ![0] bcast_S1700000_S1700000x1_0 : (⟨S1700000, .f32⟩ : BufTy).Contents (Elt F) → (⟨S1700000x1, .f32⟩ : BufTy).Contents (Elt F)),
    nullary main_c_28 (constantI S_ 32 0#32),
    unary main_c_28 main_v113 (broadcastInDim S1700000 ![] bcast_S_S1700000 : (⟨S_, .i32⟩ : BufTy).Contents (Elt F) → (⟨S1700000, .i32⟩ : BufTy).Contents (Elt F)),
    binary main_v12 main_v113 main_v114 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v115 (broadcastInDim S1700000 ![] bcast_S_S1700000 : (⟨S_, .i32⟩ : BufTy).Contents (Elt F) → (⟨S1700000, .i32⟩ : BufTy).Contents (Elt F)),
    binary main_v12 main_v115 main_v116 (addi : (⟨S1700000, .i32⟩ : BufTy).Contents (Elt F) → (⟨S1700000, .i32⟩ : BufTy).Contents (Elt F) → (⟨S1700000, .i32⟩ : BufTy).Contents (Elt F)),
    ternary main_v114 main_v116 main_v12 main_v117 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v117 main_v118 (broadcastInDim S1700000x1 ![0] bcast_S1700000_S1700000x1_0 : (⟨S1700000, .i32⟩ : BufTy).Contents (Elt F) → (⟨S1700000x1, .i32⟩ : BufTy).Contents (Elt F)),
    binary main_v111 main_v118 main_v119 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v112 main_v120 (broadcastInDim S1700000x32 ![0, 1] bcast_S1700000x1_S1700000x32_0_1 : (⟨S1700000x1, .f32⟩ : BufTy).Contents (Elt F) → (⟨S1700000x32, .f32⟩ : BufTy).Contents (Elt F)),
    binary main_v120 main_v119 main_v121 (mulf : (⟨S1700000x32, .f32⟩ : BufTy).Contents (Elt F) → (⟨S1700000x32, .f32⟩ : BufTy).Contents (Elt F) → (⟨S1700000x32, .f32⟩ : BufTy).Contents (Elt F)),
    nullary main_cst_30 (constant S_ .f32 0x00000000#32),
    unary main_cst_30 main_v122 (broadcastInDim S100000x32 ![] bcast_S_S100000x32 : (⟨S_, .f32⟩ : BufTy).Contents (Elt F) → (⟨S100000x32, .f32⟩ : BufTy).Contents (Elt F)),
    unary main_v15 main_v123 (broadcastInDim S1700000x1 ![0] bcast_S1700000_S1700000x1_0 : (⟨S1700000, .i32⟩ : BufTy).Contents (Elt F) → (⟨S1700000x1, .i32⟩ : BufTy).Contents (Elt F)),
    ternary main_v122 main_v123 main_v121 main_v124 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v111 main_v124 main_v125 (subf : (⟨S100000x32, .f32⟩ : BufTy).Contents (Elt F) → (⟨S100000x32, .f32⟩ : BufTy).Contents (Elt F) → (⟨S100000x32, .f32⟩ : BufTy).Contents (Elt F)),
    nullary main_cst_31 (constant S_ .f32 0x3F800000#32),
    unary main_cst_31 main_v126 (broadcastInDim S100000x32 ![] bcast_S_S100000x32 : (⟨S_, .f32⟩ : BufTy).Contents (Elt F) → (⟨S100000x32, .f32⟩ : BufTy).Contents (Elt F)),
    binary main_v126 main_v125 main_v127 (mulf : (⟨S100000x32, .f32⟩ : BufTy).Contents (Elt F) → (⟨S100000x32, .f32⟩ : BufTy).Contents (Elt F) → (⟨S100000x32, .f32⟩ : BufTy).Contents (Elt F)),
    binary main_v111 main_v127 main_v128 (subf : (⟨S100000x32, .f32⟩ : BufTy).Contents (Elt F) → (⟨S100000x32, .f32⟩ : BufTy).Contents (Elt F) → (⟨S100000x32, .f32⟩ : BufTy).Contents (Elt F)),
    binary main_v128 main_v8 main_v129 (subf : (⟨S100000x32, .f32⟩ : BufTy).Contents (Elt F) → (⟨S100000x32, .f32⟩ : BufTy).Contents (Elt F) → (⟨S100000x32, .f32⟩ : BufTy).Contents (Elt F)),
    binary main_v129 main_v129 main_v130 (mulf : (⟨S100000x32, .f32⟩ : BufTy).Contents (Elt F) → (⟨S100000x32, .f32⟩ : BufTy).Contents (Elt F) → (⟨S100000x32, .f32⟩ : BufTy).Contents (Elt F)),
    nullary main_cst_32 (constant S_ .f32 0x00000000#32),
    binary main_v130 main_cst_32 main_v131 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v131 main_v132 (Host.sqrt : (⟨S100000, .f32⟩ : BufTy).Contents (Elt F) → (⟨S100000, .f32⟩ : BufTy).Contents (Elt F)),
    nullary main_cst_33 (constant S_ .f32 0x00000000#32),
    unary main_cst_33 main_v133 (broadcastInDim S100000 ![] bcast_S_S100000 : (⟨S_, .f32⟩ : BufTy).Contents (Elt F) → (⟨S100000, .f32⟩ : BufTy).Contents (Elt F)),
    binary main_v132 main_v133 main_v134 (cmpf .ogt : (⟨S100000, .f32⟩ : BufTy).Contents (Elt F) → (⟨S100000, .f32⟩ : BufTy).Contents (Elt F) → (⟨S100000, .i1⟩ : BufTy).Contents (Elt F)),
    nullary main_cst_34 (constant S_ .f32 0x3F800000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S100000, .f32⟩) main_call6_v1) (broadcastInDim S100000 ![] bcast_S_S100000),
    TRef.ternary (TRef.of (T := ⟨S100000, .i1⟩) main_v134) (TRef.of (T := ⟨S100000, .f32⟩) main_v132) (TRef.of (T := ⟨S100000, .f32⟩) main_call6_v1) (TRef.of (T := ⟨S100000, .f32⟩) main_v135) select,
    nullary main_cst_35 (constant S_ .f32 0x00000000#32),
    unary main_cst_35 main_v136 (broadcastInDim S100000 ![] bcast_S_S100000 : (⟨S_, .f32⟩ : BufTy).Contents (Elt F) → (⟨S100000, .f32⟩ : BufTy).Contents (Elt F)),
    binary main_v132 main_v136 main_v137 (cmpf .ogt : (⟨S100000, .f32⟩ : BufTy).Contents (Elt F) → (⟨S100000, .f32⟩ : BufTy).Contents (Elt F) → (⟨S100000, .i1⟩ : BufTy).Contents (Elt F)),
    nullary main_cst_36 (constant S_ .f32 0x3F000000#32),
    unary main_cst_36 main_v138 (broadcastInDim S100000 ![] bcast_S_S100000 : (⟨S_, .f32⟩ : BufTy).Contents (Elt F) → (⟨S100000, .f32⟩ : BufTy).Contents (Elt F)),
    binary main_v132 main_v138 main_v139 (subf : (⟨S100000, .f32⟩ : BufTy).Contents (Elt F) → (⟨S100000, .f32⟩ : BufTy).Contents (Elt F) → (⟨S100000, .f32⟩ : BufTy).Contents (Elt F)),
    nullary main_cst_37 (constant S_ .f32 0x00000000#32),
    unary main_cst_37 main_v140 (broadcastInDim S100000 ![] bcast_S_S100000 : (⟨S_, .f32⟩ : BufTy).Contents (Elt F) → (⟨S100000, .f32⟩ : BufTy).Contents (Elt F)),
    binary main_v139 main_v140 main_v141 (maximumf : (⟨S100000, .f32⟩ : BufTy).Contents (Elt F) → (⟨S100000, .f32⟩ : BufTy).Contents (Elt F) → (⟨S100000, .f32⟩ : BufTy).Contents (Elt F)),
    binary main_v141 main_v135 main_v142 (Host.divf : (⟨S100000, .f32⟩ : BufTy).Contents (Elt F) → (⟨S100000, .f32⟩ : BufTy).Contents (Elt F) → (⟨S100000, .f32⟩ : BufTy).Contents (Elt F)),
    nullary main_cst_38 (constant S_ .f32 0x00000000#32),
    TRef.unary (TRef.of (T := ⟨S_, .f32⟩) main_cst_38) (TRef.of (T := ⟨S_, .f32⟩) main_call7_v0) id,
    TRef.unary (TRef.of (T := ⟨S_, .f32⟩) main_call7_v0) (TRef.of (T := ⟨S100000, .f32⟩) main_call7_v1) (broadcastInDim S100000 ![] bcast_S_S100000),
    TRef.ternary (TRef.of (T := ⟨S100000, .i1⟩) main_v137) (TRef.of (T := ⟨S100000, .f32⟩) main_v142) (TRef.of (T := ⟨S100000, .f32⟩) main_call7_v1) (TRef.of (T := ⟨S100000, .f32⟩) main_v143) select,
    unary main_v143 main_v144 (broadcastInDim S100000x1 ![0] bcast_S100000_S100000x1_0 : (⟨S100000, .f32⟩ : BufTy).Contents (Elt F) → (⟨S100000x1, .f32⟩ : BufTy).Contents (Elt F)),
    unary main_v144 main_v145 (broadcastInDim S100000x32 ![0, 1] bcast_S100000x1_S100000x32_0_1 : (⟨S100000x1, .f32⟩ : BufTy).Contents (Elt F) → (⟨S100000x32, .f32⟩ : BufTy).Contents (Elt F)),
    binary main_v145 main_v129 main_v146 (mulf : (⟨S100000x32, .f32⟩ : BufTy).Contents (Elt F) → (⟨S100000x32, .f32⟩ : BufTy).Contents (Elt F) → (⟨S100000x32, .f32⟩ : BufTy).Contents (Elt F)),
    binary main_v8 main_v146 main_v147 (addf : (⟨S100000x32, .f32⟩ : BufTy).Contents (Elt F) → (⟨S100000x32, .f32⟩ : BufTy).Contents (Elt F) → (⟨S100000x32, .f32⟩ : BufTy).Contents (Elt F)) ]

set_option maxRecDepth 16384 in
/-- The line is the five stretches one after the other. -/
theorem ops_eq : (Cert.ReferenceIdeal.ValueP.ops : List (HloOp τ sig (Elt F))) = opsMlp ++ (opsNorm ++ (opsHop1 ++ (opsHop2 ++ opsHop3))) := rfl

/-- Two lines run one after the other: the second from the contents the first leaves. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

section Stretches

variable (V : Valuation τ sig (Elt F))

/-! ## The perceptron -/

theorem mlp_v8 : StableHlo.after opsMlp V (Proc.devRef .tc main_v8)
    = MLPr (V (Proc.devRef .tc main_arg0)) (V (Proc.devRef .tc main_arg1)) (V (Proc.devRef .tc main_arg2))
        (V (Proc.devRef .tc main_arg3)) (V (Proc.devRef .tc main_arg4)) := by
  after_results_simp
  rfl

theorem mlp_arg5 : StableHlo.after opsMlp V (Proc.devRef .tc main_arg5) = V (Proc.devRef .tc main_arg5) := by
  after_results_simp

/-! ## The index vectors and the weights -/

theorem norm_v12 : StableHlo.after opsNorm V (Proc.devRef .tc main_v12) = ROWr (V (Proc.devRef .tc main_arg5)) := by
  after_results_simp
  rfl
theorem norm_v15 : StableHlo.after opsNorm V (Proc.devRef .tc main_v15) = COLr (V (Proc.devRef .tc main_arg5)) := by
  after_results_simp
  rfl
theorem norm_v39 : StableHlo.after opsNorm V (Proc.devRef .tc main_v39) = NORMr (V (Proc.devRef .tc main_arg5)) := by
  after_results_simp
  rfl
theorem norm_v8 : StableHlo.after opsNorm V (Proc.devRef .tc main_v8) = V (Proc.devRef .tc main_v8) := by
  after_results_simp

/-! ## The three steps -/

theorem hop1_v75 : StableHlo.after opsHop1 V (Proc.devRef .tc main_v75)
    = HOPr (V (Proc.devRef .tc main_v39)) (V (Proc.devRef .tc main_v12)) (V (Proc.devRef .tc main_v15))
        (V (Proc.devRef .tc main_v8)) (V (Proc.devRef .tc main_v8)) := by
  after_results_simp
  rfl
theorem hop1_v8 : StableHlo.after opsHop1 V (Proc.devRef .tc main_v8) = V (Proc.devRef .tc main_v8) := by
  after_results_simp
theorem hop1_v39 : StableHlo.after opsHop1 V (Proc.devRef .tc main_v39) = V (Proc.devRef .tc main_v39) := by
  after_results_simp
theorem hop1_v12 : StableHlo.after opsHop1 V (Proc.devRef .tc main_v12) = V (Proc.devRef .tc main_v12) := by
  after_results_simp
theorem hop1_v15 : StableHlo.after opsHop1 V (Proc.devRef .tc main_v15) = V (Proc.devRef .tc main_v15) := by
  after_results_simp

theorem hop2_v111 : StableHlo.after opsHop2 V (Proc.devRef .tc main_v111)
    = HOPr (V (Proc.devRef .tc main_v39)) (V (Proc.devRef .tc main_v12)) (V (Proc.devRef .tc main_v15))
        (V (Proc.devRef .tc main_v8)) (V (Proc.devRef .tc main_v75)) := by
  after_results_simp
  rfl
theorem hop2_v8 : StableHlo.after opsHop2 V (Proc.devRef .tc main_v8) = V (Proc.devRef .tc main_v8) := by
  after_results_simp
theorem hop2_v39 : StableHlo.after opsHop2 V (Proc.devRef .tc main_v39) = V (Proc.devRef .tc main_v39) := by
  after_results_simp
theorem hop2_v12 : StableHlo.after opsHop2 V (Proc.devRef .tc main_v12) = V (Proc.devRef .tc main_v12) := by
  after_results_simp
theorem hop2_v15 : StableHlo.after opsHop2 V (Proc.devRef .tc main_v15) = V (Proc.devRef .tc main_v15) := by
  after_results_simp

theorem hop3_v147 : StableHlo.after opsHop3 V (Proc.devRef .tc main_v147)
    = HOPr (V (Proc.devRef .tc main_v39)) (V (Proc.devRef .tc main_v12)) (V (Proc.devRef .tc main_v15))
        (V (Proc.devRef .tc main_v8)) (V (Proc.devRef .tc main_v111)) := by
  after_results_simp
  rfl
theorem hop3_v8 : StableHlo.after opsHop3 V (Proc.devRef .tc main_v8) = V (Proc.devRef .tc main_v8) := by
  after_results_simp
theorem hop3_v39 : StableHlo.after opsHop3 V (Proc.devRef .tc main_v39) = V (Proc.devRef .tc main_v39) := by
  after_results_simp
theorem hop3_v12 : StableHlo.after opsHop3 V (Proc.devRef .tc main_v12) = V (Proc.devRef .tc main_v12) := by
  after_results_simp
theorem hop3_v15 : StableHlo.after opsHop3 V (Proc.devRef .tc main_v15) = V (Proc.devRef .tc main_v15) := by
  after_results_simp

end Stretches

/-! ## The whole line -/

/-- The reference leaves in its result the composition applied to its arguments, from any contents. -/
theorem ref_value (V : Valuation τ sig (Elt F)) :
    StableHlo.after Cert.ReferenceIdeal.ValueP.ops V (Proc.devRef .tc main_v147)
      = TOTALr (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq, after_append, after_append, after_append, after_append]
  rw [hop3_v147, hop2_v111, hop2_v39, hop2_v12, hop2_v15, hop2_v8]
  rw [hop1_v75, hop1_v39, hop1_v12, hop1_v15, hop1_v8]
  rw [norm_v39, norm_v12, norm_v15, norm_v8, mlp_v8, mlp_arg5]
  rfl

set_option maxRecDepth 16384 in
/-- No operation of the line writes an argument. -/
theorem ref_keep_arg0 (V : Valuation τ sig (Elt F)) :
    StableHlo.after Cert.ReferenceIdeal.ValueP.ops V (Proc.devRef .tc main_arg0) = V (Proc.devRef .tc main_arg0) := by
  after_results_simp
set_option maxRecDepth 16384 in
theorem ref_keep_arg1 (V : Valuation τ sig (Elt F)) :
    StableHlo.after Cert.ReferenceIdeal.ValueP.ops V (Proc.devRef .tc main_arg1) = V (Proc.devRef .tc main_arg1) := by
  after_results_simp
set_option maxRecDepth 16384 in
theorem ref_keep_arg2 (V : Valuation τ sig (Elt F)) :
    StableHlo.after Cert.ReferenceIdeal.ValueP.ops V (Proc.devRef .tc main_arg2) = V (Proc.devRef .tc main_arg2) := by
  after_results_simp
set_option maxRecDepth 16384 in
theorem ref_keep_arg3 (V : Valuation τ sig (Elt F)) :
    StableHlo.after Cert.ReferenceIdeal.ValueP.ops V (Proc.devRef .tc main_arg3) = V (Proc.devRef .tc main_arg3) := by
  after_results_simp
set_option maxRecDepth 16384 in
theorem ref_keep_arg4 (V : Valuation τ sig (Elt F)) :
    StableHlo.after Cert.ReferenceIdeal.ValueP.ops V (Proc.devRef .tc main_arg4) = V (Proc.devRef .tc main_arg4) := by
  after_results_simp
set_option maxRecDepth 16384 in
theorem ref_keep_arg5 (V : Valuation τ sig (Elt F)) :
    StableHlo.after Cert.ReferenceIdeal.ValueP.ops V (Proc.devRef .tc main_arg5) = V (Proc.devRef .tc main_arg5) := by
  after_results_simp

end Cert.Hand.RefValue

end
-- ==== Proof.RefTotal.lean ====
import proofs.«111898_j25933012533347_2_alg».proof.Proof.RefValue
import Idealize.ShloMosaic.PureOps.Ideal

noncomputable section

namespace Cert.Hand

open Cert.ReferenceIdeal
open Idealize.ShloMosaic Idealize.ShloMosaic.TcCoe Idealize.SL.Sem

/-- The idealized reference runs, ends with its result array at the projection followed by the three hops, of the
    arguments, and leaves its arguments as launched: its list of host operations read stretch by stretch. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v147)
        = Whole.TOTALr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c main_v147).trans (RefValue.ref_value _),
     (h c main_arg0).trans (RefValue.ref_keep_arg0 _),
     (h c main_arg1).trans (RefValue.ref_keep_arg1 _),
     (h c main_arg2).trans (RefValue.ref_keep_arg2 _),
     (h c main_arg3).trans (RefValue.ref_keep_arg3 _),
     (h c main_arg4).trans (RefValue.ref_keep_arg4 _),
     (h c main_arg5).trans (RefValue.ref_keep_arg5 _)⟩)
    (Cert.ReferenceIdeal.ValueP.run (F := Ideal) m ρ)

end Cert.Hand

end
-- ==== Proof.KernelHost.lean ====
import proofs.«111898_j25933012533347_2_alg».proof.Proof.Gen.KernelIdeal.Launch
import proofs.«111898_j25933012533347_2_alg».proof.Proof.Gen.KernelIdeal.Regions
import Idealize.ShloMosaic.Lib.StableHlo.Run

noncomputable section

namespace Cert.Hand.WholeK

open Cert.KernelIdeal Cert.KernelIdeal.Gen Idealize.ShloMosaic Idealize.ShloMosaic.TcCoe Idealize.SL.Sem Idealize.ShloMosaic.StableHlo

variable {F : FTy → Type} [FloatOps F]

/-! ## The host stretches of the kernel program as whole-array functions

Between its four kernel regions the program's host operations compute, from the edge list, the source and
target index vectors with the self loops appended, the symmetric normalisation weights, and, per propagation
step, the weighted neighbour sum of the current features. Each is named here as a function of whole arrays,
in the operations' own spelling, and each stretch of host operations is read back as these functions. -/

/-- Contents of an array of 32-bit integers / 32-bit floats of a given shape. -/
abbrev CI (s : Shape) : Type := (⟨s, .i32⟩ : BufTy).Contents (Elt F)
abbrev CF (s : Shape) : Type := (⟨s, .f32⟩ : BufTy).Contents (Elt F)

/-- A bias vector as a one-row matrix. -/
def B1k (b : CF (F := F) S256) : CF (F := F) S1x256 := shapeCast S1x256 b shapeCasts_S256_S1x256
def B2k (b : CF (F := F) S32) : CF (F := F) S1x32 := shapeCast S1x32 b shapeCasts_S32_S1x32

/-- The node numbers 0 … 99999: the self loops' endpoints. -/
def LOOPk : CI (F := F) S100000 := iotaInDim S100000 32 0

/-- The edges' sources (row 0 of the edge list) followed by the self loops. -/
def ROWk (ei : CI (F := F) S2x1600000) : CI (F := F) S1700000 :=
  concatenate S1700000 0 [⟨S1600000, (shapeCast S1600000 (extractStridedSlice S1x1600000 ![0, 0] ei slices_S2x1600000_S1x1600000_0_0) shapeCasts_S1x1600000_S1600000 : CI (F := F) S1600000)⟩, ⟨S100000, (LOOPk : CI (F := F) S100000)⟩] concatenates_S1600000_S100000_S1700000_d0

/-- The edges' targets (row 1 of the edge list) followed by the self loops. -/
def COLk (ei : CI (F := F) S2x1600000) : CI (F := F) S1700000 :=
  concatenate S1700000 0 [⟨S1600000, (shapeCast S1600000 (extractStridedSlice S1x1600000 ![1, 0] ei slices_S2x1600000_S1x1600000_1_0) shapeCasts_S1x1600000_S1600000 : CI (F := F) S1600000)⟩, ⟨S100000, (LOOPk : CI (F := F) S100000)⟩] concatenates_S1600000_S100000_S1700000_d0

/-- An index vector made a column of gather indices, a negative index first moved up by the node count. -/
def WRAPk (ix : CI (F := F) S1700000) : CI (F := F) S1700000x1 :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- The all-ones edge weights. -/
def ONESk : CF (F := F) S1700000 := broadcastInDim S1700000 ![] bcast_S_S1700000 (constant S_ .f32 0x3F800000#32)

/-- The weighted in-degree of every node: the edge weights summed by target. -/
def DEGk (ei : CI (F := F) S2x1600000) : CF (F := F) S100000 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (COLk ei))
    ONESk

/-- The inverse square root of the degree where it is positive, zero elsewhere. -/
def DISk (ei : CI (F := F) S2x1600000) : CF (F := F) S100000 :=
  select (cmpf .ogt (DEGk ei) (broadcastInDim S100000 ![] bcast_S_S100000 (constant S_ .f32 0x00000000#32)))
    (Host.rsqrt (DEGk ei))
    (broadcastInDim S100000 ![] bcast_S_S100000 (id (constant S_ .f32 0x00000000#32)))

/-- The normalisation weight of every edge: dis[source] · 1 · dis[target]. -/
def NORMk (ei : CI (F := F) S2x1600000) : CF (F := F) S1700000 :=
  mulf (mulf (Host.gather gather_S100000_S1700000x1_S1700000_n_0_n_n_0_1_1 (DISk ei) (WRAPk (ROWk ei))) ONESk)
    (Host.gather gather_S100000_S1700000x1_S1700000_n_0_n_n_0_1_1 (DISk ei) (WRAPk (COLk ei)))

/-- One propagation: every edge carries its weight times its source's feature row to its target, where the
    contributions are summed. -/
def AXk (norm : CF (F := F) S1700000) (row col : CI (F := F) S1700000) (xk : CF (F := F) S100000x32) : CF (F := F) S100000x32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 col)
    (mulf (broadcastInDim S1700000x32 ![0, 1] bcast_S1700000x1_S1700000x32_0_1 (broadcastInDim S1700000x1 ![0] bcast_S1700000_S1700000x1_0 norm))
      (Host.gather gather_S100000x32_S1700000x1_S1700000x32_1_0_n_n_0_1_132 xk (WRAPk row)))

/-! ## The stretches read back -/

section Stretches

variable (V : Valuation τ sig (Elt F))

/-- The three consecutive stretches between the first and the second region, run one after the other. -/
abbrev after1 : Valuation τ sig (Elt F) :=
  StableHlo.after hostOps1_2 (StableHlo.after hostOps1_1 (StableHlo.after hostOps1 V))

/-! ### Before the first region: the two biases as one-row matrices -/

theorem hostOps0_v0 :
    StableHlo.after hostOps0 V (Proc.devRef .tc main_v0) = B1k (V (Proc.devRef .tc main_arg2)) := by
  after_results
  rfl

theorem hostOps0_v1 :
    StableHlo.after hostOps0 V (Proc.devRef .tc main_v1) = B2k (V (Proc.devRef .tc main_arg4)) := by
  after_results
  rfl

/-- A reference the stretch does not write keeps its contents. -/
theorem hostOps0_keep (r : Ref sig .tc) (h : r ∉ hostOps0_W) :
    StableHlo.after hostOps0 V (Proc.devRef .tc r) = V (Proc.devRef .tc r) :=
  StableHlo.after_of_writes_sub hostOps0 V hostOps0_writes h

/-! ### Between the first and the second region: indices, weights, the first neighbour sum -/

theorem after1_v6 : after1 V (Proc.devRef .tc main_v6) = ROWk (V (Proc.devRef .tc main_arg5)) := by
  show StableHlo.after hostOps1_2 (StableHlo.after hostOps1_1 (StableHlo.after hostOps1 V)) (Proc.devRef .tc main_v6) = _
  after_results_simp
  rfl

theorem after1_v9 : after1 V (Proc.devRef .tc main_v9) = COLk (V (Proc.devRef .tc main_arg5)) := by
  show StableHlo.after hostOps1_2 (StableHlo.after hostOps1_1 (StableHlo.after hostOps1 V)) (Proc.devRef .tc main_v9) = _
  after_results_simp
  rfl

theorem after1_v33 : after1 V (Proc.devRef .tc main_v33) = NORMk (V (Proc.devRef .tc main_arg5)) := by
  show StableHlo.after hostOps1_2 (StableHlo.after hostOps1_1 (StableHlo.after hostOps1 V)) (Proc.devRef .tc main_v33) = _
  after_results_simp
  rfl

theorem after1_v46 :
    after1 V (Proc.devRef .tc main_v46)
      = AXk (NORMk (V (Proc.devRef .tc main_arg5))) (ROWk (V (Proc.devRef .tc main_arg5))) (COLk (V (Proc.devRef .tc main_arg5)))
          (V (Proc.devRef .tc main_v2)) := by
  show StableHlo.after hostOps1_2 (StableHlo.after hostOps1_1 (StableHlo.after hostOps1 V)) (Proc.devRef .tc main_v46) = _
  after_results_simp
  rfl

/-- A reference none of the three stretches writes keeps its contents. -/
theorem after1_keep (r : Ref sig .tc) (h0 : r ∉ hostOps1_W) (h1 : r ∉ hostOps1_1_W) (h2 : r ∉ hostOps1_2_W) :
    after1 V (Proc.devRef .tc r) = V (Proc.devRef .tc r) :=
  (StableHlo.after_of_writes_sub hostOps1_2 _ hostOps1_2_writes h2).trans
    ((StableHlo.after_of_writes_sub hostOps1_1 _ hostOps1_1_writes h1).trans
      (StableHlo.after_of_writes_sub hostOps1 V hostOps1_writes h0))

theorem after1_v2 : after1 V (Proc.devRef .tc main_v2) = V (Proc.devRef .tc main_v2) :=
  after1_keep V main_v2 (by decide) (by decide) (by decide)

/-! ### Between the second and the third region: the second neighbour sum -/

theorem hostOps2_v60 :
    StableHlo.after hostOps2 V (Proc.devRef .tc main_v60)
      = AXk (V (Proc.devRef .tc main_v33)) (V (Proc.devRef .tc main_v6)) (V (Proc.devRef .tc main_v9)) (V (Proc.devRef .tc main_v47)) := by
  after_results_simp
  rfl

theorem hostOps2_keep (r : Ref sig .tc) (h : r ∉ hostOps2_W) :
    StableHlo.after hostOps2 V (Proc.devRef .tc r) = V (Proc.devRef .tc r) :=
  StableHlo.after_of_writes_sub hostOps2 V hostOps2_writes h

theorem hostOps2_v47 : StableHlo.after hostOps2 V (Proc.devRef .tc main_v47) = V (Proc.devRef .tc main_v47) :=
  hostOps2_keep V main_v47 (by decide)
theorem hostOps2_v2 : StableHlo.after hostOps2 V (Proc.devRef .tc main_v2) = V (Proc.devRef .tc main_v2) :=
  hostOps2_keep V main_v2 (by decide)
theorem hostOps2_v33 : StableHlo.after hostOps2 V (Proc.devRef .tc main_v33) = V (Proc.devRef .tc main_v33) :=
  hostOps2_keep V main_v33 (by decide)
theorem hostOps2_v6 : StableHlo.after hostOps2 V (Proc.devRef .tc main_v6) = V (Proc.devRef .tc main_v6) :=
  hostOps2_keep V main_v6 (by decide)
theorem hostOps2_v9 : StableHlo.after hostOps2 V (Proc.devRef .tc main_v9) = V (Proc.devRef .tc main_v9) :=
  hostOps2_keep V main_v9 (by decide)

/-! ### Between the third and the fourth region: the third neighbour sum -/

theorem hostOps3_v74 :
    StableHlo.after hostOps3 V (Proc.devRef .tc main_v74)
      = AXk (V (Proc.devRef .tc main_v33)) (V (Proc.devRef .tc main_v6)) (V (Proc.devRef .tc main_v9)) (V (Proc.devRef .tc main_v61)) := by
  after_results_simp
  rfl

theorem hostOps3_keep (r : Ref sig .tc) (h : r ∉ hostOps3_W) :
    StableHlo.after hostOps3 V (Proc.devRef .tc r) = V (Proc.devRef .tc r) :=
  StableHlo.after_of_writes_sub hostOps3 V hostOps3_writes h

theorem hostOps3_v61 : StableHlo.after hostOps3 V (Proc.devRef .tc main_v61) = V (Proc.devRef .tc main_v61) :=
  hostOps3_keep V main_v61 (by decide)
theorem hostOps3_v2 : StableHlo.after hostOps3 V (Proc.devRef .tc main_v2) = V (Proc.devRef .tc main_v2) :=
  hostOps3_keep V main_v2 (by decide)

end Stretches

end Cert.Hand.WholeK

end
-- ==== Proof.WholeEq.lean ====
import proofs.«111898_j25933012533347_2_alg».proof.Proof.KernelHost
import proofs.«111898_j25933012533347_2_alg».proof.Proof.RefWholeDefs

noncomputable section

namespace Cert.Hand

open Idealize.ShloMosaic

variable {F : FTy → Type} [FloatOps F]

/-! ## The kernel program's host functions are the reference's

The two programs declare their shapes, index-map records and side conditions separately, with the same
contents: the whole-array functions named on either side are the same functions. -/

theorem LOOPk_eq : (WholeK.LOOPk (F := F)) = Whole.LOOPr := rfl
theorem ROWk_eq : (WholeK.ROWk (F := F)) = Whole.ROWr := rfl
theorem COLk_eq : (WholeK.COLk (F := F)) = Whole.COLr := rfl
theorem WRAPk_eq : (WholeK.WRAPk (F := F)) = Whole.WRAPr := rfl
theorem ONESk_eq : (WholeK.ONESk (F := F)) = Whole.ONESr := rfl
theorem DEGk_eq : (WholeK.DEGk (F := F)) = Whole.DEGr := rfl
theorem DISk_eq : (WholeK.DISk (F := F)) = Whole.DISr := rfl
theorem NORMk_eq : (WholeK.NORMk (F := F)) = Whole.NORMr := rfl
theorem AXk_eq : (WholeK.AXk (F := F)) = Whole.AXr := rfl

end Cert.Hand

end
-- ==== Proof.KernelValue.lean ====
import proofs.«111898_j25933012533347_2_alg».proof.Proof.Fold
import proofs.«111898_j25933012533347_2_alg».proof.Proof.KernelHost
import proofs.«111898_j25933012533347_2_alg».proof.Proof.WholeEq
import proofs.«111898_j25933012533347_2_alg».proof.Proof.RefWholeDefs
import proofs.«111898_j25933012533347_2_alg».proof.Proof.RefForms
import Idealize.ShloMosaic.PureOps.Ideal

noncomputable section

namespace Cert.Hand

open Cert.KernelIdeal Cert.KernelIdeal.Gen Cert.KernelIdeal.Hand
open Idealize.ShloMosaic Idealize.ShloMosaic.TcCoe Idealize.SL.Sem

/-! # The value the kernel program leaves in its result array

The program runs a perceptron region, then three times a stretch of host operations (the weighted neighbour
sum of the current features) followed by an update region. Reading the buffers boundary by boundary: the
perceptron's output array holds the perceptron of the inputs; before each update region the three arrays it
reads hold the current features, their neighbour sum and the perceptron's output; so after the k-th update
region its output array holds the features after k steps. Nothing here looks inside a host operation or a
region: each step is one equation about what a stretch writes or keeps, or the stated value of a region. -/

variable (m : (ℓ : Loc nD τ sig) → Buf (Elt Ideal) ℓ) (c : Dev nD)

/-! ## Before the perceptron region -/

/-- The first stretch keeps an array it does not write: it still holds its launch contents. -/
theorem W1_keep (b : Ref sig .tc) (hb : b ∉ hostOps0_W) :
    W1 (F := Ideal) m c (Proc.devRef .tc b) = m ((c : Thread nD τ).loc b) :=
  WholeK.hostOps0_keep (W0 m c) b hb

theorem W1_v0 : W1 (F := Ideal) m c (Proc.devRef .tc main_v0) = WholeK.B1k (m ((c : Thread nD τ).loc main_arg2)) :=
  WholeK.hostOps0_v0 (W0 m c)

theorem W1_v1 : W1 (F := Ideal) m c (Proc.devRef .tc main_v1) = WholeK.B2k (m ((c : Thread nD τ).loc main_arg4)) :=
  WholeK.hostOps0_v1 (W0 m c)

/-- The perceptron region's output, given its stated value: the perceptron of the launch inputs. -/
theorem o2_eq
    (H : (dat0 (F := Ideal) (Hand.V1 m) c).arrAt 5 cfg0.N
      = Rows.MLPr (Hand.V1 m c main_arg0) (Hand.V1 m c main_arg1) (m ((c : Thread nD τ).loc main_arg2)) (Hand.V1 m c main_arg3) (m ((c : Thread nD τ).loc main_arg4))) :
    o2 (F := Ideal) m c
      = Rows.MLPr (m ((c : Thread nD τ).loc main_arg0)) (m ((c : Thread nD τ).loc main_arg1)) (m ((c : Thread nD τ).loc main_arg2)) (m ((c : Thread nD τ).loc main_arg3)) (m ((c : Thread nD τ).loc main_arg4)) := by
  have e0 : Hand.V1 (F := Ideal) m c main_arg0 = m ((c : Thread nD τ).loc main_arg0) := W1_keep m c main_arg0 (by decide)
  have e1 : Hand.V1 (F := Ideal) m c main_arg1 = m ((c : Thread nD τ).loc main_arg1) := W1_keep m c main_arg1 (by decide)
  have e3 : Hand.V1 (F := Ideal) m c main_arg3 = m ((c : Thread nD τ).loc main_arg3) := W1_keep m c main_arg3 (by decide)
  rw [e0, e1, e3] at H
  exact H

/-! ## Before the first update region -/

/-- The edge list is still the launch one after the perceptron region. -/
theorem W2_edges : W2 (F := Ideal) m c (Proc.devRef .tc main_arg5) = m ((c : Thread nD τ).loc main_arg5) :=
  (W2_of_ne m c main_arg5 (by decide)).trans (W1_keep m c main_arg5 (by decide))

theorem W5_v2 : W5 (F := Ideal) m c (Proc.devRef .tc main_v2) = o2 m c :=
  (WholeK.after1_v2 (W2 m c)).trans (W2_out m c)

theorem W5_v33 : W5 (F := Ideal) m c (Proc.devRef .tc main_v33) = WholeK.NORMk (m ((c : Thread nD τ).loc main_arg5)) :=
  (WholeK.after1_v33 (W2 m c)).trans (congrArg WholeK.NORMk (W2_edges m c))

theorem W5_v6 : W5 (F := Ideal) m c (Proc.devRef .tc main_v6) = WholeK.ROWk (m ((c : Thread nD τ).loc main_arg5)) :=
  (WholeK.after1_v6 (W2 m c)).trans (congrArg WholeK.ROWk (W2_edges m c))

theorem W5_v9 : W5 (F := Ideal) m c (Proc.devRef .tc main_v9) = WholeK.COLk (m ((c : Thread nD τ).loc main_arg5)) :=
  (WholeK.after1_v9 (W2 m c)).trans (congrArg WholeK.COLk (W2_edges m c))

/-- The first neighbour sum: of the perceptron's output. -/
theorem W5_v46 : W5 (F := Ideal) m c (Proc.devRef .tc main_v46) = WholeK.AXk (WholeK.NORMk (m ((c : Thread nD τ).loc main_arg5))) (WholeK.ROWk (m ((c : Thread nD τ).loc main_arg5))) (WholeK.COLk (m ((c : Thread nD τ).loc main_arg5))) (o2 m c) := by
  refine (WholeK.after1_v46 (W2 m c)).trans ?_
  rw [W2_edges m c, W2_out m c]

/-- The first update region's output, given its stated value: the features after one step. -/
theorem o6_eq
    (H : (dat1 (F := Ideal) (Hand.V5 m) qs1 c).arrAt 3 cfg1.N
      = Rows.UPDr (Hand.V5 m c main_v2) (Hand.V5 m c main_v46) (Hand.V5 m c main_v2)) :
    o6 (F := Ideal) m c = Rows.UPDr (o2 m c) (WholeK.AXk (WholeK.NORMk (m ((c : Thread nD τ).loc main_arg5))) (WholeK.ROWk (m ((c : Thread nD τ).loc main_arg5))) (WholeK.COLk (m ((c : Thread nD τ).loc main_arg5))) (o2 m c)) (o2 m c) := by
  have e2 : Hand.V5 (F := Ideal) m c main_v2 = o2 m c := W5_v2 m c
  have e46 : Hand.V5 (F := Ideal) m c main_v46 = WholeK.AXk (WholeK.NORMk (m ((c : Thread nD τ).loc main_arg5))) (WholeK.ROWk (m ((c : Thread nD τ).loc main_arg5))) (WholeK.COLk (m ((c : Thread nD τ).loc main_arg5))) (o2 m c) := W5_v46 m c
  rw [e2, e46] at H
  exact H

/-! ## Before the second update region -/

theorem W7_v47 : W7 (F := Ideal) m c (Proc.devRef .tc main_v47) = o6 m c :=
  (WholeK.hostOps2_v47 (W6 m c)).trans (W6_out m c)

theorem W7_v2 : W7 (F := Ideal) m c (Proc.devRef .tc main_v2) = o2 m c :=
  (WholeK.hostOps2_v2 (W6 m c)).trans ((W6_of_ne m c main_v2 (by decide)).trans (W5_v2 m c))

theorem W7_v33 : W7 (F := Ideal) m c (Proc.devRef .tc main_v33) = WholeK.NORMk (m ((c : Thread nD τ).loc main_arg5)) :=
  (WholeK.hostOps2_v33 (W6 m c)).trans ((W6_of_ne m c main_v33 (by decide)).trans (W5_v33 m c))

theorem W7_v6 : W7 (F := Ideal) m c (Proc.devRef .tc main_v6) = WholeK.ROWk (m ((c : Thread nD τ).loc main_arg5)) :=
  (WholeK.hostOps2_v6 (W6 m c)).trans ((W6_of_ne m c main_v6 (by decide)).trans (W5_v6 m c))

theorem W7_v9 : W7 (F := Ideal) m c (Proc.devRef .tc main_v9) = WholeK.COLk (m ((c : Thread nD τ).loc main_arg5)) :=
  (WholeK.hostOps2_v9 (W6 m c)).trans ((W6_of_ne m c main_v9 (by decide)).trans (W5_v9 m c))

/-- The second neighbour sum: of the features after one step. -/
theorem W7_v60 : W7 (F := Ideal) m c (Proc.devRef .tc main_v60) = WholeK.AXk (WholeK.NORMk (m ((c : Thread nD τ).loc main_arg5))) (WholeK.ROWk (m ((c : Thread nD τ).loc main_arg5))) (WholeK.COLk (m ((c : Thread nD τ).loc main_arg5))) (o6 m c) := by
  refine (WholeK.hostOps2_v60 (W6 m c)).trans ?_
  rw [W6_of_ne m c main_v33 (by decide), W6_of_ne m c main_v6 (by decide), W6_of_ne m c main_v9 (by decide),
    W6_out m c, W5_v33 m c, W5_v6 m c, W5_v9 m c]

/-- The second update region's output, given its stated value: the features after two steps. -/
theorem o8_eq
    (H : (dat2 (F := Ideal) (Hand.V7 m) (fun _ => Idealize.SL.RA.fullShare) c).arrAt 3 cfg2.N
      = Rows.UPDr (Hand.V7 m c main_v47) (Hand.V7 m c main_v60) (Hand.V7 m c main_v2)) :
    o8 (F := Ideal) m c = Rows.UPDr (o6 m c) (WholeK.AXk (WholeK.NORMk (m ((c : Thread nD τ).loc main_arg5))) (WholeK.ROWk (m ((c : Thread nD τ).loc main_arg5))) (WholeK.COLk (m ((c : Thread nD τ).loc main_arg5))) (o6 m c)) (o2 m c) := by
  have e47 : Hand.V7 (F := Ideal) m c main_v47 = o6 m c := W7_v47 m c
  have e60 : Hand.V7 (F := Ideal) m c main_v60 = WholeK.AXk (WholeK.NORMk (m ((c : Thread nD τ).loc main_arg5))) (WholeK.ROWk (m ((c : Thread nD τ).loc main_arg5))) (WholeK.COLk (m ((c : Thread nD τ).loc main_arg5))) (o6 m c) := W7_v60 m c
  have e2 : Hand.V7 (F := Ideal) m c main_v2 = o2 m c := W7_v2 m c
  rw [e47, e60, e2] at H
  exact H

/-! ## Before the third update region -/

theorem W9_v61 : W9 (F := Ideal) m c (Proc.devRef .tc main_v61) = o8 m c :=
  (WholeK.hostOps3_v61 (W8 m c)).trans (W8_out m c)

theorem W9_v2 : W9 (F := Ideal) m c (Proc.devRef .tc main_v2) = o2 m c :=
  (WholeK.hostOps3_v2 (W8 m c)).trans ((W8_of_ne m c main_v2 (by decide)).trans (W7_v2 m c))

/-- The third neighbour sum: of the features after two steps. -/
theorem W9_v74 : W9 (F := Ideal) m c (Proc.devRef .tc main_v74) = WholeK.AXk (WholeK.NORMk (m ((c : Thread nD τ).loc main_arg5))) (WholeK.ROWk (m ((c : Thread nD τ).loc main_arg5))) (WholeK.COLk (m ((c : Thread nD τ).loc main_arg5))) (o8 m c) := by
  refine (WholeK.hostOps3_v74 (W8 m c)).trans ?_
  rw [W8_of_ne m c main_v33 (by decide), W8_of_ne m c main_v6 (by decide), W8_of_ne m c main_v9 (by decide),
    W8_out m c, W7_v33 m c, W7_v6 m c, W7_v9 m c]

/-- The third update region's output, given its stated value: the features after three steps. -/
theorem o10_eq
    (H : (dat3 (F := Ideal) (Hand.V9 m) (fun _ => Idealize.SL.RA.fullShare) c).arrAt 3 cfg3.N
      = Rows.UPDr (Hand.V9 m c main_v61) (Hand.V9 m c main_v74) (Hand.V9 m c main_v2)) :
    o10 (F := Ideal) m c = Rows.UPDr (o8 m c) (WholeK.AXk (WholeK.NORMk (m ((c : Thread nD τ).loc main_arg5))) (WholeK.ROWk (m ((c : Thread nD τ).loc main_arg5))) (WholeK.COLk (m ((c : Thread nD τ).loc main_arg5))) (o8 m c)) (o2 m c) := by
  have e61 : Hand.V9 (F := Ideal) m c main_v61 = o8 m c := W9_v61 m c
  have e74 : Hand.V9 (F := Ideal) m c main_v74 = WholeK.AXk (WholeK.NORMk (m ((c : Thread nD τ).loc main_arg5))) (WholeK.ROWk (m ((c : Thread nD τ).loc main_arg5))) (WholeK.COLk (m ((c : Thread nD τ).loc main_arg5))) (o8 m c) := W9_v74 m c
  have e2 : Hand.V9 (F := Ideal) m c main_v2 = o2 m c := W9_v2 m c
  rw [e61, e74, e2] at H
  exact H

/-! ## The result -/

/-- Given the four regions' stated values, the result array holds the reference's composition of the
    perceptron and three steps. -/
theorem kernel_value (m : (ℓ : Loc nD τ sig) → Buf (Elt Ideal) ℓ) (c : Dev nD)
    (hmlp : ∀ (V : (c : Dev nD) → (b : Ref sig .tc) → Buf (Elt Ideal) ((c : Thread nD τ).loc b)) (c : Dev nD)
        (b1 : WholeK.CF (F := Ideal) S256) (b2 : WholeK.CF (F := Ideal) S32),
        V c main_v0 = WholeK.B1k b1 → V c main_v1 = WholeK.B2k b2 →
        (dat0 (F := Ideal) V c).arrAt 5 cfg0.N = Rows.MLPr (V c main_arg0) (V c main_arg1) b1 (V c main_arg3) b2)
    (h1 : ∀ V qs c, (dat1 (F := Ideal) V qs c).arrAt 3 cfg1.N = Rows.UPDr (V c main_v2) (V c main_v46) (V c main_v2))
    (h2 : ∀ V qs c, (dat2 (F := Ideal) V qs c).arrAt 3 cfg2.N = Rows.UPDr (V c main_v47) (V c main_v60) (V c main_v2))
    (h3 : ∀ V qs c, (dat3 (F := Ideal) V qs c).arrAt 3 cfg3.N = Rows.UPDr (V c main_v61) (V c main_v74) (V c main_v2)) :
    W10 (F := Ideal) m c (Proc.devRef .tc main_v75)
      = Whole.TOTALr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have E2 := o2_eq m c (hmlp (Hand.V1 m) c (m ((c : Thread nD τ).loc main_arg2)) (m ((c : Thread nD τ).loc main_arg4)) (W1_v0 m c) (W1_v1 m c))
  have E6 := o6_eq m c (h1 (Hand.V5 m) qs1 c)
  have E8 := o8_eq m c (h2 (Hand.V7 m) (fun _ => Idealize.SL.RA.fullShare) c)
  have E10 := o10_eq m c (h3 (Hand.V9 m) (fun _ => Idealize.SL.RA.fullShare) c)
  rw [W10_out, E10, E8, E6, E2, AXk_eq, NORMk_eq, ROWk_eq, COLk_eq]
  rfl

end Cert.Hand

end
-- ==== Proof.UpdRow.lean ====
/- One row of the adaptive-residual update, and the stored value of each update body at an index.

   For a row with current features xk, propagated features ax and anchor hh (each a function of
   the 32 feature coordinates) put diff = (xk - 1 * (xk - ax)) - hh and rn = sqrt (sum of diff^2).
   The updated row is hh + score * diff, with score = max (rn - 1/2, 0) / safe when rn > 0 and 0
   otherwise, where safe = rn when rn > 0 and 1 otherwise. Every body computes exactly this on
   each of its 5000 rows: the entrywise operations read at an index by definition, the sum over
   the feature axis is a sum over its 32 coordinates, and the two column layouts (a vector of row
   values as a one-column matrix, a one-column matrix repeated along each row) read the row's
   value. The float literals are kept as the words the program carries. -/
import proofs.«111898_j25933012533347_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Hand.Rows

open Idealize.ShloMosaic Idealize.SL.Sem Idealize.ShloMosaic.ValueIdx

/-! ## Column layouts read at an index -/

/-- A vector of a values cast to a one-column matrix reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix repeated along each row reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of an a-by-b matrix, from a zero accumulator, read at row r:
    the sum over the b coordinates of that row. -/
theorem multiReduction_row {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  refine Finset.sum_congr rfl fun k _ => congrArg src (funext fun d => Fin.ext ?_)
  match d with
  | ⟨0, _⟩ => rfl
  | ⟨1, _⟩ => rfl

/-! ## One row of the update -/

/-- diff at feature j: (xk j - 1 * (xk j - ax j)) - hh j. -/
def updDiffRow (xk ax hh : Fin 32 → EReal) (j : Fin 32) : EReal :=
  (xk j - Ideal.ofBits .f32 0x3F800000#32 * (xk j - ax j)) - hh j

/-- The row norm: the square root of the sum of the squared differences. -/
def updNormRow (xk ax hh : Fin 32 → EReal) : EReal :=
  Ideal.sqrt (∑ k : Fin 32, updDiffRow xk ax hh k * updDiffRow xk ax hh k)

/-- The score of a row norm rn: max (rn - 1/2, 0) / (rn if rn > 0 else 1) if rn > 0, else 0. -/
def updScoreOf (rn : EReal) : EReal :=
  Scalar.select (Ideal.cmp .ogt rn (Ideal.ofBits .f32 0x00000000#32))
    (Ideal.div (max (rn - Ideal.ofBits .f32 0x3F000000#32) (Ideal.ofBits .f32 0x00000000#32))
      (Scalar.select (Ideal.cmp .ogt rn (Ideal.ofBits .f32 0x00000000#32)) rn (Ideal.ofBits .f32 0x3F800000#32)))
    (Ideal.ofBits .f32 0x00000000#32)

/-- The updated row: hh + score · diff. -/
def updRow (xk ax hh : Fin 32 → EReal) : Fin 32 → EReal := fun q =>
  hh q + updScoreOf (updNormRow xk ax hh) * updDiffRow xk ax hh q

/-! ## The stored value at an index -/

/-- The norm column of a difference array D, at row p: the square root of the sum over the row of D². -/
theorem normCol_apply (D : FVec Ideal Cert.KernelIdeal.S5000x32 .f32)
    (h : Cert.KernelIdeal.S5000x32.Reduces [1] Cert.KernelIdeal.S5000) (hφ : FKind.Formats .f32)
    (hacc : (0x00000000#32 : BitVec (FTy.bits .f32)) = FKind.add.neutral .f32 hφ)
    (hc : Cert.KernelIdeal.S5000.ShapeCasts Cert.KernelIdeal.S5000x1) (p : Fin 5000) (u : Fin 1) :
    sqrt (shapeCast Cert.KernelIdeal.S5000x1
        (multiReduction .add [1] Cert.KernelIdeal.S5000 (mulf D D) 0x00000000#32 h hφ hacc) hc) (ix2 p u)
      = Ideal.sqrt (∑ k : Fin 32, D (ix2 p k) * D (ix2 p k)) := by
  show Ideal.sqrt (shapeCast Cert.KernelIdeal.S5000x1
        (multiReduction .add [1] Cert.KernelIdeal.S5000 (mulf D D) 0x00000000#32 h hφ hacc) hc (ix2 p u)) = _
  rw [shapeCast_a_a1_apply, multiReduction_row]
  rfl

/-- The anchor plus the score column, repeated along each row, times the difference array, at (p, q):
    the anchor there plus the score of row p's norm times the difference there. -/
theorem combine_apply (x2 D : FVec Ideal Cert.KernelIdeal.S5000x32 .f32) (RN : FVec Ideal Cert.KernelIdeal.S5000x1 .f32)
    (hb : Cert.KernelIdeal.S5000x1.Broadcasts Cert.KernelIdeal.S5000x32) (p : Fin 5000) (q : Fin 32) :
    addf x2
      (mulf
        (broadcastTo Cert.KernelIdeal.S5000x32
          (select
            (cmpf .ogt RN (broadcast Cert.KernelIdeal.S5000x1 (FloatOps.ofBits .f32 0x00000000#32)))
            (divf
              (maximumf
                (subf RN (broadcast Cert.KernelIdeal.S5000x1 (FloatOps.ofBits .f32 0x3F000000#32)))
                (broadcast Cert.KernelIdeal.S5000x1 (FloatOps.ofBits .f32 0x00000000#32)))
              (select
                (cmpf .ogt RN (broadcast Cert.KernelIdeal.S5000x1 (FloatOps.ofBits .f32 0x00000000#32)))
                RN
                (broadcast Cert.KernelIdeal.S5000x1 (FloatOps.ofBits .f32 0x3F800000#32))))
            (broadcast Cert.KernelIdeal.S5000x1 (FloatOps.ofBits .f32 0x00000000#32)))
          hb)
        D) (ix2 p q)
      = x2 (ix2 p q) + updScoreOf (RN (ix2 p (0 : Fin 1))) * D (ix2 p q) := by
  show x2 (ix2 p q) + broadcastTo Cert.KernelIdeal.S5000x32 _ hb (ix2 p q) * D (ix2 p q) = _
  rw [broadcastTo_a1_ab_apply]
  rfl

/-- The value body 1 stores, at row p and feature q, is the updated row of the three rows it read. -/
theorem k1_pay1_apply (x0 x1 x2 : Vec Ideal Cert.KernelIdeal.S5000x32 .f32) (p : Fin 5000) (q : Fin 32) :
    Cert.KernelIdeal.Gen.k1_pay1 (F := Ideal) x0 x1 x2 (ix2 p q)
      = updRow (fun j => x0 (ix2 p j)) (fun j => x1 (ix2 p j)) (fun j => x2 (ix2 p j)) q := by
  unfold Cert.KernelIdeal.Gen.k1_pay1
  simp only [shapeCast_self]
  refine (combine_apply _ _ _ _ p q).trans ?_
  exact congrArg
    (fun t => x2 (ix2 p q) + updScoreOf t
      * updDiffRow (fun j => x0 (ix2 p j)) (fun j => x1 (ix2 p j)) (fun j => x2 (ix2 p j)) q)
    (normCol_apply _ _ _ _ _ p 0)

/-- The value body 2 stores, at row p and feature q, is the updated row of the three rows it read. -/
theorem k2_pay1_apply (x0 x1 x2 : Vec Ideal Cert.KernelIdeal.S5000x32 .f32) (p : Fin 5000) (q : Fin 32) :
    Cert.KernelIdeal.Gen.k2_pay1 (F := Ideal) x0 x1 x2 (ix2 p q)
      = updRow (fun j => x0 (ix2 p j)) (fun j => x1 (ix2 p j)) (fun j => x2 (ix2 p j)) q := by
  unfold Cert.KernelIdeal.Gen.k2_pay1
  simp only [shapeCast_self]
  refine (combine_apply _ _ _ _ p q).trans ?_
  exact congrArg
    (fun t => x2 (ix2 p q) + updScoreOf t
      * updDiffRow (fun j => x0 (ix2 p j)) (fun j => x1 (ix2 p j)) (fun j => x2 (ix2 p j)) q)
    (normCol_apply _ _ _ _ _ p 0)

/-- The value body 3 stores, at row p and feature q, is the updated row of the three rows it read. -/
theorem k3_pay1_apply (x0 x1 x2 : Vec Ideal Cert.KernelIdeal.S5000x32 .f32) (p : Fin 5000) (q : Fin 32) :
    Cert.KernelIdeal.Gen.k3_pay1 (F := Ideal) x0 x1 x2 (ix2 p q)
      = updRow (fun j => x0 (ix2 p j)) (fun j => x1 (ix2 p j)) (fun j => x2 (ix2 p j)) q := by
  unfold Cert.KernelIdeal.Gen.k3_pay1
  simp only [shapeCast_self]
  refine (combine_apply _ _ _ _ p q).trans ?_
  exact congrArg
    (fun t => x2 (ix2 p q) + updScoreOf t
      * updDiffRow (fun j => x0 (ix2 p j)) (fun j => x1 (ix2 p j)) (fun j => x2 (ix2 p j)) q)
    (normCol_apply _ _ _ _ _ p 0)

end Cert.Hand.Rows

end
-- ==== Proof.RefUpd.lean ====
/- The reference's row update read at an index: each stage of the whole-array formula, read at a row
   and a feature, is the corresponding quantity of that row alone, so the updated array at (r, q)
   is the updated row r at feature q. The entrywise stages read by definition; a scalar repeated
   over an array reads the scalar; the sum over the feature axis is the initial value 0 plus the
   sum over the 32 coordinates of the row; the score, first made a column and then repeated
   along each row, reads the row's score. -/
import proofs.«111898_j25933012533347_2_alg».proof.Proof.RefForms
import proofs.«111898_j25933012533347_2_alg».proof.Proof.UpdRow
import Idealize.ShloMosaic.Lib.ValueIdx
import Idealize.ShloMosaic.Lib.Pipeline.Value
import Idealize.ShloMosaic.PureOps.Ideal.Laws

noncomputable section

namespace Cert.Hand.Rows

open Cert.ReferenceIdeal Cert.ReferenceIdeal.Gen Idealize.ShloMosaic Idealize.ShloMosaic.TcCoe Idealize.SL.Sem Idealize.ShloMosaic.StableHlo Idealize.ShloMosaic.ValueIdx

/-! ## Scalars repeated over an array -/

theorem updOneMat_apply (i : S100000x32.Idx) : updOneMat (F := Ideal) i = Ideal.ofBits .f32 0x3F800000#32 := by
  unfold updOneMat
  exact broadcastInDim_apply _ bcast_S_S100000x32 _ i (fun a => a.elim0) (fun a => a.elim0)

theorem updZeroVec_apply (i : S100000.Idx) : updZeroVec (F := Ideal) i = Ideal.ofBits .f32 0x00000000#32 := by
  unfold updZeroVec
  exact broadcastInDim_apply _ bcast_S_S100000 _ i (fun a => a.elim0) (fun a => a.elim0)

theorem updOneVec_apply (i : S100000.Idx) : updOneVec (F := Ideal) i = Ideal.ofBits .f32 0x3F800000#32 := by
  unfold updOneVec
  exact broadcastInDim_apply _ bcast_S_S100000 _ i (fun a => a.elim0) (fun a => a.elim0)

theorem updHalfVec_apply (i : S100000.Idx) : updHalfVec (F := Ideal) i = Ideal.ofBits .f32 0x3F000000#32 := by
  unfold updHalfVec
  exact broadcastInDim_apply _ bcast_S_S100000 _ i (fun a => a.elim0) (fun a => a.elim0)

theorem updZeroAlt_apply (i : S100000.Idx) : updZeroAlt (F := Ideal) i = Ideal.ofBits .f32 0x00000000#32 := by
  unfold updZeroAlt
  exact broadcastInDim_apply _ bcast_S_S100000 _ i (fun a => a.elim0) (fun a => a.elim0)

/-! ## The stages at a row -/

/-- The difference array at (r, j) is the row's difference at j. -/
theorem updDiff_apply (xk ax hh : (⟨S100000x32, .f32⟩ : BufTy).Contents (Elt Ideal)) (r : Fin 100000) (j : Fin 32) :
    updDiff xk ax hh (ix2 r j) = updDiffRow (fun j => xk (ix2 r j)) (fun j => ax (ix2 r j)) (fun j => hh (ix2 r j)) j := by
  show (xk (ix2 r j) - updOneMat (F := Ideal) (ix2 r j) * (xk (ix2 r j) - ax (ix2 r j))) - hh (ix2 r j) = _
  rw [updOneMat_apply]
  rfl

/-- The sum of squares at row r: 0 plus the sum over the row's 32 coordinates. -/
theorem updSum_apply (xk ax hh : (⟨S100000x32, .f32⟩ : BufTy).Contents (Elt Ideal)) (r : Fin 100000) :
    updSum xk ax hh (ix1 r) = ∑ k : Fin 32, updSq xk ax hh (ix2 r k) := by
  unfold updSum
  generalize updSq (F := Ideal) xk ax hh = y0
  simp only [Host.reduceAdd, Ideal.hostReduceAdd_def]
  rw [Ideal.hostReduceAdd_single reducesTo_S100000x32_S100000_d1 (by decide)]
  show Ideal.ofBits .f32 0x00000000#32 + ∑ k : Fin 32, y0 _ = _
  rw [Ideal.ofBits_zero_f32, zero_add]
  refine Finset.sum_congr rfl fun k _ => ?_
  exact congrArg y0 (funext fun a => Fin.ext (by match a with | ⟨0, _⟩ => rfl | ⟨1, _⟩ => rfl))

/-- The host's square root of an array, at an index: the square root of the entry. -/
theorem hostSqrt_stage (Y : FVec Ideal S100000 .f32) (i : S100000.Idx) : Host.sqrt (F := Ideal) Y i = Ideal.sqrt (Y i) := rfl

/-- An entrywise product at an index. -/
theorem mulf_stage (A B : FVec Ideal S100000x32 .f32) (i : S100000x32.Idx) : mulf A B i = A i * B i := rfl

/-- The norm at row r is the row's norm. -/
theorem updRn_apply (xk ax hh : (⟨S100000x32, .f32⟩ : BufTy).Contents (Elt Ideal)) (r : Fin 100000) :
    updRn xk ax hh (ix1 r) = updNormRow (fun j => xk (ix2 r j)) (fun j => ax (ix2 r j)) (fun j => hh (ix2 r j)) := by
  unfold updRn
  rw [hostSqrt_stage, updSum_apply]
  unfold updNormRow
  refine congrArg Ideal.sqrt (Finset.sum_congr rfl fun k _ => ?_)
  unfold updSq
  rw [mulf_stage, updDiff_apply]

/-- The score stage over any norm vector and any four constant vectors, at an index: the
    selection, comparison, maximum and quotient of the entries there. -/
theorem score_stage (RN Z H O ZA : FVec Ideal S100000 .f32) (i : S100000.Idx) :
    select (cmpf .ogt RN Z) (Host.divf (F := Ideal) (maximumf (subf RN H) Z) (select (cmpf .ogt RN Z) RN O)) ZA i
      = Scalar.select (Ideal.cmp .ogt (RN i) (Z i))
          (Ideal.div (max (RN i - H i) (Z i)) (Scalar.select (Ideal.cmp .ogt (RN i) (Z i)) (RN i) (O i)))
          (ZA i) := rfl

/-- The score at row r is the score of the row's norm. -/
theorem updScore_apply (xk ax hh : (⟨S100000x32, .f32⟩ : BufTy).Contents (Elt Ideal)) (r : Fin 100000) :
    updScore xk ax hh (ix1 r) = updScoreOf (updNormRow (fun j => xk (ix2 r j)) (fun j => ax (ix2 r j)) (fun j => hh (ix2 r j))) := by
  unfold updScore updRatio updClamp updShift updSafe updPos
  rw [score_stage, updZeroVec_apply, updHalfVec_apply, updOneVec_apply, updZeroAlt_apply, updRn_apply]
  unfold updScoreOf
  rfl

/-- The score column at (r, u) is the score at row r. -/
theorem updScoreCol_apply (xk ax hh : (⟨S100000x32, .f32⟩ : BufTy).Contents (Elt Ideal)) (r : Fin 100000) (u : Fin 1) :
    updScoreCol xk ax hh (ix2 r u) = updScore xk ax hh (ix1 r) := by
  unfold updScoreCol
  generalize updScore (F := Ideal) xk ax hh = y
  exact broadcastInDim_apply _ bcast_S100000_S100000x1_0 y (ix2 r u) (ix1 r) (fun a => match a with
    | ⟨0, _⟩ => by show r.val = if (100000 : Nat) = 1 then 0 else r.val; rw [if_neg (by decide)])

/-- The score matrix at (r, q) is the score column at (r, 0). -/
theorem updScoreMat_apply (xk ax hh : (⟨S100000x32, .f32⟩ : BufTy).Contents (Elt Ideal)) (r : Fin 100000) (q : Fin 32) :
    updScoreMat xk ax hh (ix2 r q) = updScoreCol xk ax hh (ix2 r (0 : Fin 1)) := by
  unfold updScoreMat
  generalize updScoreCol (F := Ideal) xk ax hh = y
  exact broadcastInDim_apply _ bcast_S100000x1_S100000x32_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-! ## The updated array at an index -/

/-- The reference's updated array at (r, q) is the updated row r at feature q. -/
theorem UPDr_apply (xk ax hh : (⟨S100000x32, .f32⟩ : BufTy).Contents (Elt Ideal)) (r : Fin 100000) (q : Fin 32) :
    UPDr xk ax hh (ix2 r q) = updRow (fun j => xk (ix2 r j)) (fun j => ax (ix2 r j)) (fun j => hh (ix2 r j)) q := by
  show hh (ix2 r q) + updScoreMat xk ax hh (ix2 r q) * updDiff xk ax hh (ix2 r q) = _
  rw [updScoreMat_apply, updScoreCol_apply, updScore_apply, updDiff_apply]
  rfl

end Cert.Hand.Rows

end
-- ==== Proof.Blocks.lean ====
import proofs.«111898_j25933012533347_2_alg».proof.Proof.Body1
import proofs.«111898_j25933012533347_2_alg».proof.Proof.Body2
import proofs.«111898_j25933012533347_2_alg».proof.Proof.Body3
import proofs.«111898_j25933012533347_2_alg».proof.Proof.UpdRow
import proofs.«111898_j25933012533347_2_alg».proof.Proof.RefUpd
import Idealize.ShloMosaic.Lib.Pipeline.Value
import Idealize.ShloMosaic.Lib.ValueIdx

noncomputable section

namespace Cert.Hand.Blocks

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.SL Idealize.SL.RA
open Cert.Hand.Rows

variable (V : (c : Dev nD) → (b : Ref sig .tc) → Buf (Elt Ideal) ((c : Thread nD τ).loc b))
variable (qs : Fin 4 → PosShare TreeShare)

/-! # From the blocks the points write to the whole result arrays

Every grid point of a region writes one block of rows of the result array, computed from the same rows of the
operand arrays; the blocks tile the array, so the array ends holding the row-wise function of the operand arrays. -/

theorem hz : (![0, 0] : Fin 2 → Nat) = fun _ => 0 := funext fun a => by fin_cases a <;> rfl

/-! ## The third update region -/

/-- The index maps over the grid: every window's block at point t is block (t, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-! A block's row is an array's row: row p of the block at point t is row 5000 t + p of the array. -/

theorem iblk3_0_apply (c : Dev nD) (t : Fin cfg3.N) (p : Fin 5000) (q : Fin 32) (ht : 5000 * t.val + p.val < 100000) :
    (iblk3 V c 0 t : Vec Ideal S5000x32 .f32) (ix2 p q)
      = (V c main_v61 : S100000x32.Idx → Elt Ideal .f32) (ix2 ⟨5000 * t.val + p.val, ht⟩ q) := by
  obtain ⟨e00, e01, e10, e11, e20, e21, e30, e31⟩ := idx_facts3 t
  unfold iblk3
  rw [View.read_apply]
  show V c main_v61 _ = V c main_v61 _
  congr 1
  funext a
  apply Fin.ext
  match a with
  | ⟨0, _⟩ => show win3_0.index t 0 * 5000 + 1 * p.val = 5000 * t.val + p.val; rw [e00]; omega
  | ⟨1, _⟩ => show win3_0.index t 1 * 32 + 1 * q.val = q.val; rw [e01]; omega

theorem iblk3_1_apply (c : Dev nD) (t : Fin cfg3.N) (p : Fin 5000) (q : Fin 32) (ht : 5000 * t.val + p.val < 100000) :
    (iblk3 V c 1 t : Vec Ideal S5000x32 .f32) (ix2 p q)
      = (V c main_v74 : S100000x32.Idx → Elt Ideal .f32) (ix2 ⟨5000 * t.val + p.val, ht⟩ q) := by
  obtain ⟨e00, e01, e10, e11, e20, e21, e30, e31⟩ := idx_facts3 t
  unfold iblk3
  rw [View.read_apply]
  show V c main_v74 _ = V c main_v74 _
  congr 1
  funext a
  apply Fin.ext
  match a with
  | ⟨0, _⟩ => show win3_1.index t 0 * 5000 + 1 * p.val = 5000 * t.val + p.val; rw [e10]; omega
  | ⟨1, _⟩ => show win3_1.index t 1 * 32 + 1 * q.val = q.val; rw [e11]; omega

theorem iblk3_2_apply (c : Dev nD) (t : Fin cfg3.N) (p : Fin 5000) (q : Fin 32) (ht : 5000 * t.val + p.val < 100000) :
    (iblk3 V c 2 t : Vec Ideal S5000x32 .f32) (ix2 p q)
      = (V c main_v2 : S100000x32.Idx → Elt Ideal .f32) (ix2 ⟨5000 * t.val + p.val, ht⟩ q) := by
  obtain ⟨e00, e01, e10, e11, e20, e21, e30, e31⟩ := idx_facts3 t
  unfold iblk3
  rw [View.read_apply]
  show V c main_v2 _ = V c main_v2 _
  congr 1
  funext a
  apply Fin.ext
  match a with
  | ⟨0, _⟩ => show win3_2.index t 0 * 5000 + 1 * p.val = 5000 * t.val + p.val; rw [e20]; omega
  | ⟨1, _⟩ => show win3_2.index t 1 * 32 + 1 * q.val = q.val; rw [e21]; omega

/-- What a point stores, computed from blocks that are rows of three arrays, is the update of those rows. -/
theorem point_upd3 (x0 x1 x2 : Vec Ideal S5000x32 .f32)
    (A0 A1 A2 : (⟨Cert.ReferenceIdeal.S100000x32, .f32⟩ : BufTy).Contents (Elt Ideal)) (T : Nat) (p : Fin 5000) (q : Fin 32)
    (ht : 5000 * T + p.val < 100000)
    (h0 : ∀ j : Fin 32, x0 (ix2 p j) = A0 (ix2 ⟨5000 * T + p.val, ht⟩ j))
    (h1 : ∀ j : Fin 32, x1 (ix2 p j) = A1 (ix2 ⟨5000 * T + p.val, ht⟩ j))
    (h2 : ∀ j : Fin 32, x2 (ix2 p j) = A2 (ix2 ⟨5000 * T + p.val, ht⟩ j)) :
    k3_pay1 (F := Ideal) x0 x1 x2 (ix2 p q) = UPDr A0 A1 A2 (ix2 ⟨5000 * T + p.val, ht⟩ q) := by
  rw [k3_pay1_apply, UPDr_apply]
  simp only [h0, h1, h2]

/-- What point t writes back is block t of the update of the three operand arrays. -/
theorem flushed3_eq (c : Dev nD) (t : Fin cfg3.N) :
    (dat3 (F := Ideal) V qs c).flushed 3 t
      = ((cfg3.win 3).blk t).view.read (Elt Ideal) (UPDr (V c main_v61) (V c main_v74) (V c main_v2)) := by
  show (cfg3.win 3).cut (grid3.coords t) ((dat3 V qs c).after 3 t) = _
  rw [after3_3]
  unfold out3_3
  rw [View.canon_unit_zero hz]
  simp only [View.ld_unit_zero (S := S5000x32) hz]
  obtain ⟨e00, e01, e10, e11, e20, e21, e30, e31⟩ := idx_facts3 t
  have hN : cfg3.N = 20 := N_3
  have hT : t.val < 20 := hN ▸ t.isLt
  funext j
  have hp : (j 0).val < 5000 := (j 0).isLt
  have hq : (j 1).val < 32 := (j 1).isLt
  have hr : 5000 * t.val + (j 0).val < 100000 := by omega
  have hj : (win3 3).xinj (grid3.coords t) j = ix2 ⟨(j 0).val, hp⟩ ⟨(j 1).val, hq⟩ := by
    funext a
    apply Fin.ext
    match a with
    | ⟨0, _⟩ => rfl
    | ⟨1, _⟩ => rfl
  have hi : ((cfg3.win 3).blk t).view.emb j = ix2 ⟨5000 * t.val + (j 0).val, hr⟩ ⟨(j 1).val, hq⟩ := by
    funext a
    apply Fin.ext
    match a with
    | ⟨0, _⟩ => show win3_3.index t 0 * 5000 + 1 * (j 0).val = 5000 * t.val + (j 0).val; rw [e30]; omega
    | ⟨1, _⟩ => show win3_3.index t 1 * 32 + 1 * (j 1).val = (j 1).val; rw [e31]; omega
  show k3_pay1 (F := Ideal) (iblk3 V c 0 t) (iblk3 V c 1 t) (iblk3 V c 2 t) ((win3 3).xinj (grid3.coords t) j)
    = UPDr (V c main_v61) (V c main_v74) (V c main_v2) (((cfg3.win 3).blk t).view.emb j)
  rw [hj, hi]
  exact point_upd3 _ _ _ _ _ _ t.val ⟨(j 0).val, hp⟩ ⟨(j 1).val, hq⟩ hr
    (fun k => iblk3_0_apply V c t _ k hr) (fun k => iblk3_1_apply V c t _ k hr) (fun k => iblk3_2_apply V c t _ k hr)

/-- An index of the array is in point t's block iff each coordinate is in the block's range. -/
theorem mem_blk3 (t : Fin cfg3.N) (i : S100000x32.Idx) :
    i ∈ ((cfg3.win 3).blk t).view.set ↔ ∀ a : Fin 2, win3_3.index t a * S5000x32.size a ≤ (i a).val ∧ (i a).val < win3_3.index t a * S5000x32.size a + S5000x32.size a := by
  show i ∈ ((View.whole main_v75).slice (win3_3.rect t)).set ↔ _
  rw [View.set_slice_whole, Rect.mem_set_unit]
  exact Iff.rfl

/-- Every row of the array is in some point's block: row r in block r / 5000. -/
theorem cover3 (i : S100000x32.Idx) :
    ∃ t : Fin cfg3.N, (cfg3.win 3).flush t = true ∧ i ∈ ((cfg3.win 3).blk t).view.set := by
  have hN : cfg3.N = 20 := N_3
  have hi0 : (i 0).val < 100000 := (i 0).isLt
  have hi1 : (i 1).val < 32 := (i 1).isLt
  let t : Fin cfg3.N := ⟨(i 0).val / 5000, by rw [hN]; omega⟩
  obtain ⟨e00, e01, e10, e11, e20, e21, e30, e31⟩ := idx_facts3 t
  have htv : t.val = (i 0).val / 5000 := rfl
  refine ⟨t, flush3_3 t, ?_⟩
  rw [mem_blk3]
  intro a
  match a with
  | ⟨0, _⟩ => show win3_3.index t 0 * 5000 ≤ (i 0).val ∧ (i 0).val < win3_3.index t 0 * 5000 + 5000; rw [e30, htv]; omega
  | ⟨1, _⟩ => show win3_3.index t 1 * 32 ≤ (i 1).val ∧ (i 1).val < win3_3.index t 1 * 32 + 32; rw [e31]; omega

/-- The third update region leaves, in its result array, the update of its three operand arrays. -/
theorem region_upd3 (c : Dev nD) :
    (dat3 (F := Ideal) V qs c).arrAt 3 cfg3.N = UPDr (V c main_v61) (V c main_v74) (V c main_v2) :=
  (dat3 (F := Ideal) V qs c).arrAt_eq_of_cover 3 (UPDr (V c main_v61) (V c main_v74) (V c main_v2))
    (fun t _ => flushed3_eq V qs c t) cover3

/-! ## The first update region -/

/-- The index maps over the grid: every window's block at point t is block (t, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-! A block's row is an array's row: row p of the block at point t is row 5000 t + p of the array. -/

theorem iblk1_0_apply (c : Dev nD) (t : Fin cfg1.N) (p : Fin 5000) (q : Fin 32) (ht : 5000 * t.val + p.val < 100000) :
    (iblk1 V c 0 t : Vec Ideal S5000x32 .f32) (ix2 p q)
      = (V c main_v2 : S100000x32.Idx → Elt Ideal .f32) (ix2 ⟨5000 * t.val + p.val, ht⟩ q) := by
  obtain ⟨e00, e01, e10, e11, e20, e21, e30, e31⟩ := idx_facts1 t
  unfold iblk1
  rw [View.read_apply]
  show V c main_v2 _ = V c main_v2 _
  congr 1
  funext a
  apply Fin.ext
  match a with
  | ⟨0, _⟩ => show win1_0.index t 0 * 5000 + 1 * p.val = 5000 * t.val + p.val; rw [e00]; omega
  | ⟨1, _⟩ => show win1_0.index t 1 * 32 + 1 * q.val = q.val; rw [e01]; omega

theorem iblk1_1_apply (c : Dev nD) (t : Fin cfg1.N) (p : Fin 5000) (q : Fin 32) (ht : 5000 * t.val + p.val < 100000) :
    (iblk1 V c 1 t : Vec Ideal S5000x32 .f32) (ix2 p q)
      = (V c main_v46 : S100000x32.Idx → Elt Ideal .f32) (ix2 ⟨5000 * t.val + p.val, ht⟩ q) := by
  obtain ⟨e00, e01, e10, e11, e20, e21, e30, e31⟩ := idx_facts1 t
  unfold iblk1
  rw [View.read_apply]
  show V c main_v46 _ = V c main_v46 _
  congr 1
  funext a
  apply Fin.ext
  match a with
  | ⟨0, _⟩ => show win1_1.index t 0 * 5000 + 1 * p.val = 5000 * t.val + p.val; rw [e10]; omega
  | ⟨1, _⟩ => show win1_1.index t 1 * 32 + 1 * q.val = q.val; rw [e11]; omega

theorem iblk1_2_apply (c : Dev nD) (t : Fin cfg1.N) (p : Fin 5000) (q : Fin 32) (ht : 5000 * t.val + p.val < 100000) :
    (iblk1 V c 2 t : Vec Ideal S5000x32 .f32) (ix2 p q)
      = (V c main_v2 : S100000x32.Idx → Elt Ideal .f32) (ix2 ⟨5000 * t.val + p.val, ht⟩ q) := by
  obtain ⟨e00, e01, e10, e11, e20, e21, e30, e31⟩ := idx_facts1 t
  unfold iblk1
  rw [View.read_apply]
  show V c main_v2 _ = V c main_v2 _
  congr 1
  funext a
  apply Fin.ext
  match a with
  | ⟨0, _⟩ => show win1_2.index t 0 * 5000 + 1 * p.val = 5000 * t.val + p.val; rw [e20]; omega
  | ⟨1, _⟩ => show win1_2.index t 1 * 32 + 1 * q.val = q.val; rw [e21]; omega

/-- What a point stores, computed from blocks that are rows of three arrays, is the update of those rows. -/
theorem point_upd1 (x0 x1 x2 : Vec Ideal S5000x32 .f32)
    (A0 A1 A2 : (⟨Cert.ReferenceIdeal.S100000x32, .f32⟩ : BufTy).Contents (Elt Ideal)) (T : Nat) (p : Fin 5000) (q : Fin 32)
    (ht : 5000 * T + p.val < 100000)
    (h0 : ∀ j : Fin 32, x0 (ix2 p j) = A0 (ix2 ⟨5000 * T + p.val, ht⟩ j))
    (h1 : ∀ j : Fin 32, x1 (ix2 p j) = A1 (ix2 ⟨5000 * T + p.val, ht⟩ j))
    (h2 : ∀ j : Fin 32, x2 (ix2 p j) = A2 (ix2 ⟨5000 * T + p.val, ht⟩ j)) :
    k1_pay1 (F := Ideal) x0 x1 x2 (ix2 p q) = UPDr A0 A1 A2 (ix2 ⟨5000 * T + p.val, ht⟩ q) := by
  rw [k1_pay1_apply, UPDr_apply]
  simp only [h0, h1, h2]

/-- What point t writes back is block t of the update of the three operand arrays. -/
theorem flushed1_eq (c : Dev nD) (t : Fin cfg1.N) :
    (dat1 (F := Ideal) V qs c).flushed 3 t
      = ((cfg1.win 3).blk t).view.read (Elt Ideal) (UPDr (V c main_v2) (V c main_v46) (V c main_v2)) := by
  show (cfg1.win 3).cut (grid1.coords t) ((dat1 V qs c).after 3 t) = _
  rw [after1_3]
  unfold out1_3
  rw [View.canon_unit_zero hz]
  simp only [View.ld_unit_zero (S := S5000x32) hz]
  obtain ⟨e00, e01, e10, e11, e20, e21, e30, e31⟩ := idx_facts1 t
  have hN : cfg1.N = 20 := N_1
  have hT : t.val < 20 := hN ▸ t.isLt
  funext j
  have hp : (j 0).val < 5000 := (j 0).isLt
  have hq : (j 1).val < 32 := (j 1).isLt
  have hr : 5000 * t.val + (j 0).val < 100000 := by omega
  have hj : (win1 3).xinj (grid1.coords t) j = ix2 ⟨(j 0).val, hp⟩ ⟨(j 1).val, hq⟩ := by
    funext a
    apply Fin.ext
    match a with
    | ⟨0, _⟩ => rfl
    | ⟨1, _⟩ => rfl
  have hi : ((cfg1.win 3).blk t).view.emb j = ix2 ⟨5000 * t.val + (j 0).val, hr⟩ ⟨(j 1).val, hq⟩ := by
    funext a
    apply Fin.ext
    match a with
    | ⟨0, _⟩ => show win1_3.index t 0 * 5000 + 1 * (j 0).val = 5000 * t.val + (j 0).val; rw [e30]; omega
    | ⟨1, _⟩ => show win1_3.index t 1 * 32 + 1 * (j 1).val = (j 1).val; rw [e31]; omega
  show k1_pay1 (F := Ideal) (iblk1 V c 0 t) (iblk1 V c 1 t) (iblk1 V c 2 t) ((win1 3).xinj (grid1.coords t) j)
    = UPDr (V c main_v2) (V c main_v46) (V c main_v2) (((cfg1.win 3).blk t).view.emb j)
  rw [hj, hi]
  exact point_upd1 _ _ _ _ _ _ t.val ⟨(j 0).val, hp⟩ ⟨(j 1).val, hq⟩ hr
    (fun k => iblk1_0_apply V c t _ k hr) (fun k => iblk1_1_apply V c t _ k hr) (fun k => iblk1_2_apply V c t _ k hr)

/-- An index of the array is in point t's block iff each coordinate is in the block's range. -/
theorem mem_blk1 (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v47).slice (win1_3.rect t)).set ↔ _
  rw [View.set_slice_whole, Rect.mem_set_unit]
  exact Iff.rfl

/-- Every row of the array is in some point's block: row r in block r / 5000. -/
theorem cover1 (i : S100000x32.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 32 := (i 1).isLt
  let t : Fin cfg1.N := ⟨(i 0).val / 5000, by rw [hN]; omega⟩
  obtain ⟨e00, e01, e10, e11, e20, e21, e30, e31⟩ := idx_facts1 t
  have htv : t.val = (i 0).val / 5000 := rfl
  refine ⟨t, flush1_3 t, ?_⟩
  rw [mem_blk1]
  intro a
  match a with
  | ⟨0, _⟩ => show win1_3.index t 0 * 5000 ≤ (i 0).val ∧ (i 0).val < win1_3.index t 0 * 5000 + 5000; rw [e30, htv]; omega
  | ⟨1, _⟩ => show win1_3.index t 1 * 32 ≤ (i 1).val ∧ (i 1).val < win1_3.index t 1 * 32 + 32; rw [e31]; omega

/-- The first update region leaves, in its result array, the update of its three operand arrays. -/
theorem region_upd1 (c : Dev nD) :
    (dat1 (F := Ideal) V qs c).arrAt 3 cfg1.N = UPDr (V c main_v2) (V c main_v46) (V c main_v2) :=
  (dat1 (F := Ideal) V qs c).arrAt_eq_of_cover 3 (UPDr (V c main_v2) (V c main_v46) (V c main_v2))
    (fun t _ => flushed1_eq V qs c t) cover1

/-! ## The second update region -/

/-- The index maps over the grid: every window's block at point t is block (t, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-! A block's row is an array's row: row p of the block at point t is row 5000 t + p of the array. -/

theorem iblk2_0_apply (c : Dev nD) (t : Fin cfg2.N) (p : Fin 5000) (q : Fin 32) (ht : 5000 * t.val + p.val < 100000) :
    (iblk2 V c 0 t : Vec Ideal S5000x32 .f32) (ix2 p q)
      = (V c main_v47 : S100000x32.Idx → Elt Ideal .f32) (ix2 ⟨5000 * t.val + p.val, ht⟩ q) := by
  obtain ⟨e00, e01, e10, e11, e20, e21, e30, e31⟩ := idx_facts2 t
  unfold iblk2
  rw [View.read_apply]
  show V c main_v47 _ = V c main_v47 _
  congr 1
  funext a
  apply Fin.ext
  match a with
  | ⟨0, _⟩ => show win2_0.index t 0 * 5000 + 1 * p.val = 5000 * t.val + p.val; rw [e00]; omega
  | ⟨1, _⟩ => show win2_0.index t 1 * 32 + 1 * q.val = q.val; rw [e01]; omega

theorem iblk2_1_apply (c : Dev nD) (t : Fin cfg2.N) (p : Fin 5000) (q : Fin 32) (ht : 5000 * t.val + p.val < 100000) :
    (iblk2 V c 1 t : Vec Ideal S5000x32 .f32) (ix2 p q)
      = (V c main_v60 : S100000x32.Idx → Elt Ideal .f32) (ix2 ⟨5000 * t.val + p.val, ht⟩ q) := by
  obtain ⟨e00, e01, e10, e11, e20, e21, e30, e31⟩ := idx_facts2 t
  unfold iblk2
  rw [View.read_apply]
  show V c main_v60 _ = V c main_v60 _
  congr 1
  funext a
  apply Fin.ext
  match a with
  | ⟨0, _⟩ => show win2_1.index t 0 * 5000 + 1 * p.val = 5000 * t.val + p.val; rw [e10]; omega
  | ⟨1, _⟩ => show win2_1.index t 1 * 32 + 1 * q.val = q.val; rw [e11]; omega

theorem iblk2_2_apply (c : Dev nD) (t : Fin cfg2.N) (p : Fin 5000) (q : Fin 32) (ht : 5000 * t.val + p.val < 100000) :
    (iblk2 V c 2 t : Vec Ideal S5000x32 .f32) (ix2 p q)
      = (V c main_v2 : S100000x32.Idx → Elt Ideal .f32) (ix2 ⟨5000 * t.val + p.val, ht⟩ q) := by
  obtain ⟨e00, e01, e10, e11, e20, e21, e30, e31⟩ := idx_facts2 t
  unfold iblk2
  rw [View.read_apply]
  show V c main_v2 _ = V c main_v2 _
  congr 1
  funext a
  apply Fin.ext
  match a with
  | ⟨0, _⟩ => show win2_2.index t 0 * 5000 + 1 * p.val = 5000 * t.val + p.val; rw [e20]; omega
  | ⟨1, _⟩ => show win2_2.index t 1 * 32 + 1 * q.val = q.val; rw [e21]; omega

/-- What a point stores, computed from blocks that are rows of three arrays, is the update of those rows. -/
theorem point_upd2 (x0 x1 x2 : Vec Ideal S5000x32 .f32)
    (A0 A1 A2 : (⟨Cert.ReferenceIdeal.S100000x32, .f32⟩ : BufTy).Contents (Elt Ideal)) (T : Nat) (p : Fin 5000) (q : Fin 32)
    (ht : 5000 * T + p.val < 100000)
    (h0 : ∀ j : Fin 32, x0 (ix2 p j) = A0 (ix2 ⟨5000 * T + p.val, ht⟩ j))
    (h1 : ∀ j : Fin 32, x1 (ix2 p j) = A1 (ix2 ⟨5000 * T + p.val, ht⟩ j))
    (h2 : ∀ j : Fin 32, x2 (ix2 p j) = A2 (ix2 ⟨5000 * T + p.val, ht⟩ j)) :
    k2_pay1 (F := Ideal) x0 x1 x2 (ix2 p q) = UPDr A0 A1 A2 (ix2 ⟨5000 * T + p.val, ht⟩ q) := by
  rw [k2_pay1_apply, UPDr_apply]
  simp only [h0, h1, h2]

/-- What point t writes back is block t of the update of the three operand arrays. -/
theorem flushed2_eq (c : Dev nD) (t : Fin cfg2.N) :
    (dat2 (F := Ideal) V qs c).flushed 3 t
      = ((cfg2.win 3).blk t).view.read (Elt Ideal) (UPDr (V c main_v47) (V c main_v60) (V c main_v2)) := by
  show (cfg2.win 3).cut (grid2.coords t) ((dat2 V qs c).after 3 t) = _
  rw [after2_3]
  unfold out2_3
  rw [View.canon_unit_zero hz]
  simp only [View.ld_unit_zero (S := S5000x32) hz]
  obtain ⟨e00, e01, e10, e11, e20, e21, e30, e31⟩ := idx_facts2 t
  have hN : cfg2.N = 20 := N_2
  have hT : t.val < 20 := hN ▸ t.isLt
  funext j
  have hp : (j 0).val < 5000 := (j 0).isLt
  have hq : (j 1).val < 32 := (j 1).isLt
  have hr : 5000 * t.val + (j 0).val < 100000 := by omega
  have hj : (win2 3).xinj (grid2.coords t) j = ix2 ⟨(j 0).val, hp⟩ ⟨(j 1).val, hq⟩ := by
    funext a
    apply Fin.ext
    match a with
    | ⟨0, _⟩ => rfl
    | ⟨1, _⟩ => rfl
  have hi : ((cfg2.win 3).blk t).view.emb j = ix2 ⟨5000 * t.val + (j 0).val, hr⟩ ⟨(j 1).val, hq⟩ := by
    funext a
    apply Fin.ext
    match a with
    | ⟨0, _⟩ => show win2_3.index t 0 * 5000 + 1 * (j 0).val = 5000 * t.val + (j 0).val; rw [e30]; omega
    | ⟨1, _⟩ => show win2_3.index t 1 * 32 + 1 * (j 1).val = (j 1).val; rw [e31]; omega
  show k2_pay1 (F := Ideal) (iblk2 V c 0 t) (iblk2 V c 1 t) (iblk2 V c 2 t) ((win2 3).xinj (grid2.coords t) j)
    = UPDr (V c main_v47) (V c main_v60) (V c main_v2) (((cfg2.win 3).blk t).view.emb j)
  rw [hj, hi]
  exact point_upd2 _ _ _ _ _ _ t.val ⟨(j 0).val, hp⟩ ⟨(j 1).val, hq⟩ hr
    (fun k => iblk2_0_apply V c t _ k hr) (fun k => iblk2_1_apply V c t _ k hr) (fun k => iblk2_2_apply V c t _ k hr)

/-- An index of the array is in point t's block iff each coordinate is in the block's range. -/
theorem mem_blk2 (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v61).slice (win2_3.rect t)).set ↔ _
  rw [View.set_slice_whole, Rect.mem_set_unit]
  exact Iff.rfl

/-- Every row of the array is in some point's block: row r in block r / 5000. -/
theorem cover2 (i : S100000x32.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 32 := (i 1).isLt
  let t : Fin cfg2.N := ⟨(i 0).val / 5000, by rw [hN]; omega⟩
  obtain ⟨e00, e01, e10, e11, e20, e21, e30, e31⟩ := idx_facts2 t
  have htv : t.val = (i 0).val / 5000 := rfl
  refine ⟨t, flush2_3 t, ?_⟩
  rw [mem_blk2]
  intro a
  match a with
  | ⟨0, _⟩ => show win2_3.index t 0 * 5000 ≤ (i 0).val ∧ (i 0).val < win2_3.index t 0 * 5000 + 5000; rw [e30, htv]; omega
  | ⟨1, _⟩ => show win2_3.index t 1 * 32 ≤ (i 1).val ∧ (i 1).val < win2_3.index t 1 * 32 + 32; rw [e31]; omega

/-- The second update region leaves, in its result array, the update of its three operand arrays. -/
theorem region_upd2 (c : Dev nD) :
    (dat2 (F := Ideal) V qs c).arrAt 3 cfg2.N = UPDr (V c main_v47) (V c main_v60) (V c main_v2) :=
  (dat2 (F := Ideal) V qs c).arrAt_eq_of_cover 3 (UPDr (V c main_v47) (V c main_v60) (V c main_v2))
    (fun t _ => flushed2_eq V qs c t) cover2

end Cert.Hand.Blocks

end
-- ==== Proof.MlpRow.lean ====
/- One row of the two-layer perceptron, and the stored value of the perceptron body at an index.

   For an input row x (512 features), weights W1 (512 by 256), W2 (256 by 32) and biases b1, b2,
   the hidden row is max (sum_i x i * W1 i k + b1 k, 0) and the output row is
   sum_k hidden k * W2 k q + b2 q. The body computes exactly this on each of its 2000 rows: a
   change of float format is the identity on the values, a matrix product into a zero
   accumulator is the sum over the contracted coordinate, a one-row array repeated over the rows
   reads that row, and the entrywise operations read at an index by definition. -/
import proofs.«111898_j25933012533347_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Hand.Rows

open Idealize.ShloMosaic Idealize.SL.Sem Idealize.ShloMosaic.ValueIdx

/-! ## One row of the perceptron -/

/-- The hidden row at k: max (sum_i x i * W1 i k + b1 k, 0). -/
def mlpHidRow (x : Fin 512 → EReal) (W1 : Fin 512 → Fin 256 → EReal) (b1 : Fin 256 → EReal) (k : Fin 256) : EReal :=
  max ((∑ i : Fin 512, x i * W1 i k) + b1 k) (Ideal.ofBits .f32 0x00000000#32)

/-- The output row: sum_k hidden k * W2 k q + b2 q. -/
def mlpRow (x : Fin 512 → EReal) (W1 : Fin 512 → Fin 256 → EReal) (b1 : Fin 256 → EReal)
    (W2 : Fin 256 → Fin 32 → EReal) (b2 : Fin 32 → EReal) : Fin 32 → EReal := fun q =>
  (∑ k : Fin 256, mlpHidRow x W1 b1 k * W2 k q) + b2 q

/-! ## The body's two contractions, each as a sum over the shared coordinate -/

theorem kdot1_lhs0 (i : Cert.KernelIdeal.S2000x256.Idx) (q : Cert.KernelIdeal.dot_S2000x512_S512x256_S2000x256_1_0_0_1_n_n.contr.Idx) :
    (Cert.KernelIdeal.dot_S2000x512_S512x256_S2000x256_1_0_0_1_n_n.lhsIdx i q 0).val = (i 0).val := by
  unfold DotDims.lhsIdx
  rw [dif_neg (show ¬(0 : Fin Cert.KernelIdeal.S2000x512.rank) ∈ Cert.KernelIdeal.dot_S2000x512_S512x256_S2000x256_1_0_0_1_n_n.lhsBatch by decide), dif_pos (show (0 : Fin Cert.KernelIdeal.S2000x512.rank) ∈ Cert.KernelIdeal.dot_S2000x512_S512x256_S2000x256_1_0_0_1_n_n.lhsNonContracting by decide)]
  rfl
theorem kdot1_lhs1 (i : Cert.KernelIdeal.S2000x256.Idx) (q : Cert.KernelIdeal.dot_S2000x512_S512x256_S2000x256_1_0_0_1_n_n.contr.Idx) :
    (Cert.KernelIdeal.dot_S2000x512_S512x256_S2000x256_1_0_0_1_n_n.lhsIdx i q 1).val = (q ⟨0, by decide⟩).val :=
  Cert.KernelIdeal.dot_S2000x512_S512x256_S2000x256_1_0_0_1_n_n.lhsIdx_val_of_single rfl i q
theorem kdot1_rhs0 (i : Cert.KernelIdeal.S2000x256.Idx) (q : Cert.KernelIdeal.dot_S2000x512_S512x256_S2000x256_1_0_0_1_n_n.contr.Idx) :
    (Cert.KernelIdeal.dot_S2000x512_S512x256_S2000x256_1_0_0_1_n_n.rhsIdx i q 0).val = (q ⟨0, by decide⟩).val :=
  Cert.KernelIdeal.dot_S2000x512_S512x256_S2000x256_1_0_0_1_n_n.rhsIdx_val_of_single rfl i q
theorem kdot1_rhs1 (i : Cert.KernelIdeal.S2000x256.Idx) (q : Cert.KernelIdeal.dot_S2000x512_S512x256_S2000x256_1_0_0_1_n_n.contr.Idx) :
    (Cert.KernelIdeal.dot_S2000x512_S512x256_S2000x256_1_0_0_1_n_n.rhsIdx i q 1).val = (i 1).val := by
  unfold DotDims.rhsIdx
  rw [dif_neg (show ¬(1 : Fin Cert.KernelIdeal.S512x256.rank) ∈ Cert.KernelIdeal.dot_S2000x512_S512x256_S2000x256_1_0_0_1_n_n.rhsBatch by decide), dif_pos (show (1 : Fin Cert.KernelIdeal.S512x256.rank) ∈ Cert.KernelIdeal.dot_S2000x512_S512x256_S2000x256_1_0_0_1_n_n.rhsNonContracting by decide)]
  rfl

/-- The contraction of a 2000-by-512 array with a 512-by-256 array, at (p, j): the sum over the 512 shared coordinates. -/
theorem kdot1_contr {φ₁ φ₂ : FTy} (lhs : FVec Ideal Cert.KernelIdeal.S2000x512 φ₁) (rhs : FVec Ideal Cert.KernelIdeal.S512x256 φ₂) (p : Fin 2000) (j : Fin 256) :
    ∑ k : Cert.KernelIdeal.dot_S2000x512_S512x256_S2000x256_1_0_0_1_n_n.contr.Idx, lhs (Cert.KernelIdeal.dot_S2000x512_S512x256_S2000x256_1_0_0_1_n_n.lhsIdx (ix2 p j) k) * rhs (Cert.KernelIdeal.dot_S2000x512_S512x256_S2000x256_1_0_0_1_n_n.rhsIdx (ix2 p j) k)
      = ∑ k : Fin 512, lhs (ix2 p k) * rhs (ix2 k j) := by
  rw [← Equiv.sum_comp (contrEquiv1 Cert.KernelIdeal.dot_S2000x512_S512x256_S2000x256_1_0_0_1_n_n 512 rfl rfl).symm]
  refine Finset.sum_congr rfl fun k _ => ?_
  have hk := contrEquiv1_symm_val Cert.KernelIdeal.dot_S2000x512_S512x256_S2000x256_1_0_0_1_n_n 512 rfl rfl k
  have el : Cert.KernelIdeal.dot_S2000x512_S512x256_S2000x256_1_0_0_1_n_n.lhsIdx (ix2 p j) ((contrEquiv1 Cert.KernelIdeal.dot_S2000x512_S512x256_S2000x256_1_0_0_1_n_n 512 rfl rfl).symm k) = ix2 p k := funext fun a => Fin.ext (by
    match a with
    | ⟨0, _⟩ => exact kdot1_lhs0 _ _
    | ⟨1, _⟩ => exact (kdot1_lhs1 _ _).trans hk)
  have er : Cert.KernelIdeal.dot_S2000x512_S512x256_S2000x256_1_0_0_1_n_n.rhsIdx (ix2 p j) ((contrEquiv1 Cert.KernelIdeal.dot_S2000x512_S512x256_S2000x256_1_0_0_1_n_n 512 rfl rfl).symm k) = ix2 k j := funext fun a => Fin.ext (by
    match a with
    | ⟨0, _⟩ => exact (kdot1_rhs0 _ _).trans hk
    | ⟨1, _⟩ => exact kdot1_rhs1 _ _)
  rw [el, er]

theorem kdot2_lhs0 (i : Cert.KernelIdeal.S2000x32.Idx) (q : Cert.KernelIdeal.dot_S2000x256_S256x32_S2000x32_1_0_0_1_n_n.contr.Idx) :
    (Cert.KernelIdeal.dot_S2000x256_S256x32_S2000x32_1_0_0_1_n_n.lhsIdx i q 0).val = (i 0).val := by
  unfold DotDims.lhsIdx
  rw [dif_neg (show ¬(0 : Fin Cert.KernelIdeal.S2000x256.rank) ∈ Cert.KernelIdeal.dot_S2000x256_S256x32_S2000x32_1_0_0_1_n_n.lhsBatch by decide), dif_pos (show (0 : Fin Cert.KernelIdeal.S2000x256.rank) ∈ Cert.KernelIdeal.dot_S2000x256_S256x32_S2000x32_1_0_0_1_n_n.lhsNonContracting by decide)]
  rfl
theorem kdot2_lhs1 (i : Cert.KernelIdeal.S2000x32.Idx) (q : Cert.KernelIdeal.dot_S2000x256_S256x32_S2000x32_1_0_0_1_n_n.contr.Idx) :
    (Cert.KernelIdeal.dot_S2000x256_S256x32_S2000x32_1_0_0_1_n_n.lhsIdx i q 1).val = (q ⟨0, by decide⟩).val :=
  Cert.KernelIdeal.dot_S2000x256_S256x32_S2000x32_1_0_0_1_n_n.lhsIdx_val_of_single rfl i q
theorem kdot2_rhs0 (i : Cert.KernelIdeal.S2000x32.Idx) (q : Cert.KernelIdeal.dot_S2000x256_S256x32_S2000x32_1_0_0_1_n_n.contr.Idx) :
    (Cert.KernelIdeal.dot_S2000x256_S256x32_S2000x32_1_0_0_1_n_n.rhsIdx i q 0).val = (q ⟨0, by decide⟩).val :=
  Cert.KernelIdeal.dot_S2000x256_S256x32_S2000x32_1_0_0_1_n_n.rhsIdx_val_of_single rfl i q
theorem kdot2_rhs1 (i : Cert.KernelIdeal.S2000x32.Idx) (q : Cert.KernelIdeal.dot_S2000x256_S256x32_S2000x32_1_0_0_1_n_n.contr.Idx) :
    (Cert.KernelIdeal.dot_S2000x256_S256x32_S2000x32_1_0_0_1_n_n.rhsIdx i q 1).val = (i 1).val := by
  unfold DotDims.rhsIdx
  rw [dif_neg (show ¬(1 : Fin Cert.KernelIdeal.S256x32.rank) ∈ Cert.KernelIdeal.dot_S2000x256_S256x32_S2000x32_1_0_0_1_n_n.rhsBatch by decide), dif_pos (show (1 : Fin Cert.KernelIdeal.S256x32.rank) ∈ Cert.KernelIdeal.dot_S2000x256_S256x32_S2000x32_1_0_0_1_n_n.rhsNonContracting by decide)]
  rfl

/-- The contraction of a 2000-by-256 array with a 256-by-32 array, at (p, j): the sum over the 256 shared coordinates. -/
theorem kdot2_contr {φ₁ φ₂ : FTy} (lhs : FVec Ideal Cert.KernelIdeal.S2000x256 φ₁) (rhs : FVec Ideal Cert.KernelIdeal.S256x32 φ₂) (p : Fin 2000) (j : Fin 32) :
    ∑ k : Cert.KernelIdeal.dot_S2000x256_S256x32_S2000x32_1_0_0_1_n_n.contr.Idx, lhs (Cert.KernelIdeal.dot_S2000x256_S256x32_S2000x32_1_0_0_1_n_n.lhsIdx (ix2 p j) k) * rhs (Cert.KernelIdeal.dot_S2000x256_S256x32_S2000x32_1_0_0_1_n_n.rhsIdx (ix2 p j) k)
      = ∑ k : Fin 256, lhs (ix2 p k) * rhs (ix2 k j) := by
  rw [← Equiv.sum_comp (contrEquiv1 Cert.KernelIdeal.dot_S2000x256_S256x32_S2000x32_1_0_0_1_n_n 256 rfl rfl).symm]
  refine Finset.sum_congr rfl fun k _ => ?_
  have hk := contrEquiv1_symm_val Cert.KernelIdeal.dot_S2000x256_S256x32_S2000x32_1_0_0_1_n_n 256 rfl rfl k
  have el : Cert.KernelIdeal.dot_S2000x256_S256x32_S2000x32_1_0_0_1_n_n.lhsIdx (ix2 p j) ((contrEquiv1 Cert.KernelIdeal.dot_S2000x256_S256x32_S2000x32_1_0_0_1_n_n 256 rfl rfl).symm k) = ix2 p k := funext fun a => Fin.ext (by
    match a with
    | ⟨0, _⟩ => exact kdot2_lhs0 _ _
    | ⟨1, _⟩ => exact (kdot2_lhs1 _ _).trans hk)
  have er : Cert.KernelIdeal.dot_S2000x256_S256x32_S2000x32_1_0_0_1_n_n.rhsIdx (ix2 p j) ((contrEquiv1 Cert.KernelIdeal.dot_S2000x256_S256x32_S2000x32_1_0_0_1_n_n 256 rfl rfl).symm k) = ix2 k j := funext fun a => Fin.ext (by
    match a with
    | ⟨0, _⟩ => exact (kdot2_rhs0 _ _).trans hk
    | ⟨1, _⟩ => exact kdot2_rhs1 _ _)
  rw [el, er]

/-- The first matrix product into a zero accumulator, at (p, j). -/
theorem matmul1_apply {φ₁ φ₂ : FTy} (lhs : FVec Ideal Cert.KernelIdeal.S2000x512 φ₁) (rhs : FVec Ideal Cert.KernelIdeal.S512x256 φ₂) (p : Fin 2000) (j : Fin 256) :
    FloatOps.matmul Cert.KernelIdeal.dot_S2000x512_S512x256_S2000x256_1_0_0_1_n_n none lhs rhs (constant Cert.KernelIdeal.S2000x256 .f32 0x00000000#32) (ix2 p j)
      = ∑ k : Fin 512, lhs (ix2 p k) * rhs (ix2 k j) :=
  (Ideal.matmul_constant_zero_apply _ none lhs rhs (ix2 p j)).trans (kdot1_contr lhs rhs p j)

/-- The second matrix product into a zero accumulator, at (p, j). -/
theorem matmul2_apply {φ₁ φ₂ : FTy} (lhs : FVec Ideal Cert.KernelIdeal.S2000x256 φ₁) (rhs : FVec Ideal Cert.KernelIdeal.S256x32 φ₂) (p : Fin 2000) (j : Fin 32) :
    FloatOps.matmul Cert.KernelIdeal.dot_S2000x256_S256x32_S2000x32_1_0_0_1_n_n none lhs rhs (constant Cert.KernelIdeal.S2000x32 .f32 0x00000000#32) (ix2 p j)
      = ∑ k : Fin 256, lhs (ix2 p k) * rhs (ix2 k j) :=
  (Ideal.matmul_constant_zero_apply _ none lhs rhs (ix2 p j)).trans (kdot2_contr lhs rhs p j)

/-! ## The stored value at an index -/

/-- The hidden stage over any operands, at (p, k): the rectified sum plus bias. -/
theorem hid_stage (X : FVec Ideal Cert.KernelIdeal.S2000x512 .bf16) (W : FVec Ideal Cert.KernelIdeal.S512x256 .bf16) (b : FVec Ideal Cert.KernelIdeal.S1x256 .f32)
    (hb : Cert.KernelIdeal.S1x256.Broadcasts Cert.KernelIdeal.S2000x256) (ht : FTy.bits .bf16 < FTy.bits .f32) (p : Fin 2000) (k : Fin 256) :
    truncf .bf16
        (maximumf
          (addf (FloatOps.matmul Cert.KernelIdeal.dot_S2000x512_S512x256_S2000x256_1_0_0_1_n_n none X W (constant Cert.KernelIdeal.S2000x256 .f32 0x00000000#32))
            (broadcastTo Cert.KernelIdeal.S2000x256 b hb))
          (broadcast Cert.KernelIdeal.S2000x256 (FloatOps.ofBits .f32 0x00000000#32)))
        ht (ix2 p k)
      = max ((∑ i : Fin 512, X (ix2 p i) * W (ix2 i k)) + b (ix2 (0 : Fin 1) k)) (Ideal.ofBits .f32 0x00000000#32) := by
  show max (FloatOps.matmul Cert.KernelIdeal.dot_S2000x512_S512x256_S2000x256_1_0_0_1_n_n none X W (constant Cert.KernelIdeal.S2000x256 .f32 0x00000000#32) (ix2 p k)
      + broadcastTo Cert.KernelIdeal.S2000x256 b hb (ix2 p k)) (Ideal.ofBits .f32 0x00000000#32) = _
  rw [matmul1_apply, broadcastTo_1b_ab_apply]

/-- The output stage over any operands, at (p, q): the sum plus bias. -/
theorem out_stage (H : FVec Ideal Cert.KernelIdeal.S2000x256 .bf16) (W : FVec Ideal Cert.KernelIdeal.S256x32 .bf16) (b : FVec Ideal Cert.KernelIdeal.S1x32 .f32)
    (hb : Cert.KernelIdeal.S1x32.Broadcasts Cert.KernelIdeal.S2000x32) (p : Fin 2000) (q : Fin 32) :
    addf (FloatOps.matmul Cert.KernelIdeal.dot_S2000x256_S256x32_S2000x32_1_0_0_1_n_n none H W (constant Cert.KernelIdeal.S2000x32 .f32 0x00000000#32))
        (broadcastTo Cert.KernelIdeal.S2000x32 b hb) (ix2 p q)
      = (∑ k : Fin 256, H (ix2 p k) * W (ix2 k q)) + b (ix2 (0 : Fin 1) q) := by
  show FloatOps.matmul Cert.KernelIdeal.dot_S2000x256_S256x32_S2000x32_1_0_0_1_n_n none H W (constant Cert.KernelIdeal.S2000x32 .f32 0x00000000#32) (ix2 p q)
      + broadcastTo Cert.KernelIdeal.S2000x32 b hb (ix2 p q) = _
  rw [matmul2_apply, broadcastTo_1b_ab_apply]

/-- The value the perceptron body stores, at row p and feature q, is the perceptron row of the
    input row it read and the weights and biases. -/
theorem k0_pay1_apply (v0 : Vec Ideal Cert.KernelIdeal.S2000x512 .f32) (v2 : Vec Ideal Cert.KernelIdeal.S512x256 .f32)
    (v5 : Vec Ideal Cert.KernelIdeal.S1x256 .f32) (v12 : Vec Ideal Cert.KernelIdeal.S256x32 .f32) (v15 : Vec Ideal Cert.KernelIdeal.S1x32 .f32)
    (p : Fin 2000) (q : Fin 32) :
    Cert.KernelIdeal.Gen.k0_pay1 (F := Ideal) v0 v2 v5 v12 v15 (ix2 p q)
      = mlpRow (fun k => v0 (ix2 p k)) (fun k j => v2 (ix2 k j)) (fun j => v5 (ix2 0 j))
          (fun k j => v12 (ix2 k j)) (fun j => v15 (ix2 0 j)) q := by
  unfold Cert.KernelIdeal.Gen.k0_pay1
  simp only [shapeCast_self, matmul]
  refine (out_stage _ _ _ _ p q).trans ?_
  unfold mlpRow
  refine congrArg (· + v15 (ix2 (0 : Fin 1) q)) (Finset.sum_congr rfl fun k _ => ?_)
  rw [hid_stage]
  rfl

end Cert.Hand.Rows

end
-- ==== Proof.RefMlp.lean ====
/- The reference's perceptron read at an index: each stage of the whole-array formula, read at a
   row and a feature, is the corresponding quantity of that row alone, so the output array at
   (r, q) is the perceptron row of input row r at feature q. The host's matrix product is the
   sum over the contracted coordinate; a bias made a one-row array and then repeated over the
   rows reads the bias; a scalar repeated over an array reads the scalar; the entrywise stages
   read by definition. -/
import proofs.«111898_j25933012533347_2_alg».proof.Proof.RefForms
import proofs.«111898_j25933012533347_2_alg».proof.Proof.MlpRow
import Idealize.ShloMosaic.Lib.ValueIdx
import Idealize.ShloMosaic.Lib.Pipeline.Value
import Idealize.ShloMosaic.PureOps.Ideal.Laws

noncomputable section

namespace Cert.Hand.Rows

open Cert.ReferenceIdeal Cert.ReferenceIdeal.Gen Idealize.ShloMosaic Idealize.ShloMosaic.TcCoe Idealize.SL.Sem Idealize.ShloMosaic.StableHlo Idealize.ShloMosaic.ValueIdx

/-! ## The reference's two contractions, each as a sum over the shared coordinate -/

theorem rdot1_lhs0 (i : S100000x256.Idx) (q : dot_S100000x512_S512x256_S100000x256_1_0_0_1_n_n.contr.Idx) :
    (dot_S100000x512_S512x256_S100000x256_1_0_0_1_n_n.lhsIdx i q 0).val = (i 0).val := by
  unfold DotDims.lhsIdx
  rw [dif_neg (show ¬(0 : Fin S100000x512.rank) ∈ dot_S100000x512_S512x256_S100000x256_1_0_0_1_n_n.lhsBatch by decide), dif_pos (show (0 : Fin S100000x512.rank) ∈ dot_S100000x512_S512x256_S100000x256_1_0_0_1_n_n.lhsNonContracting by decide)]
  rfl
theorem rdot1_lhs1 (i : S100000x256.Idx) (q : dot_S100000x512_S512x256_S100000x256_1_0_0_1_n_n.contr.Idx) :
    (dot_S100000x512_S512x256_S100000x256_1_0_0_1_n_n.lhsIdx i q 1).val = (q ⟨0, by decide⟩).val :=
  dot_S100000x512_S512x256_S100000x256_1_0_0_1_n_n.lhsIdx_val_of_single rfl i q
theorem rdot1_rhs0 (i : S100000x256.Idx) (q : dot_S100000x512_S512x256_S100000x256_1_0_0_1_n_n.contr.Idx) :
    (dot_S100000x512_S512x256_S100000x256_1_0_0_1_n_n.rhsIdx i q 0).val = (q ⟨0, by decide⟩).val :=
  dot_S100000x512_S512x256_S100000x256_1_0_0_1_n_n.rhsIdx_val_of_single rfl i q
theorem rdot1_rhs1 (i : S100000x256.Idx) (q : dot_S100000x512_S512x256_S100000x256_1_0_0_1_n_n.contr.Idx) :
    (dot_S100000x512_S512x256_S100000x256_1_0_0_1_n_n.rhsIdx i q 1).val = (i 1).val := by
  unfold DotDims.rhsIdx
  rw [dif_neg (show ¬(1 : Fin S512x256.rank) ∈ dot_S100000x512_S512x256_S100000x256_1_0_0_1_n_n.rhsBatch by decide), dif_pos (show (1 : Fin S512x256.rank) ∈ dot_S100000x512_S512x256_S100000x256_1_0_0_1_n_n.rhsNonContracting by decide)]
  rfl

/-- The contraction of a 100000-by-512 array with a 512-by-256 array, at (p, j): the sum over the 512 shared coordinates. -/
theorem rdot1_contr {φ₁ φ₂ : FTy} (lhs : FVec Ideal S100000x512 φ₁) (rhs : FVec Ideal S512x256 φ₂) (p : Fin 100000) (j : Fin 256) :
    ∑ k : dot_S100000x512_S512x256_S100000x256_1_0_0_1_n_n.contr.Idx, lhs (dot_S100000x512_S512x256_S100000x256_1_0_0_1_n_n.lhsIdx (ix2 p j) k) * rhs (dot_S100000x512_S512x256_S100000x256_1_0_0_1_n_n.rhsIdx (ix2 p j) k)
      = ∑ k : Fin 512, lhs (ix2 p k) * rhs (ix2 k j) := by
  rw [← Equiv.sum_comp (contrEquiv1 dot_S100000x512_S512x256_S100000x256_1_0_0_1_n_n 512 rfl rfl).symm]
  refine Finset.sum_congr rfl fun k _ => ?_
  have hk := contrEquiv1_symm_val dot_S100000x512_S512x256_S100000x256_1_0_0_1_n_n 512 rfl rfl k
  have el : dot_S100000x512_S512x256_S100000x256_1_0_0_1_n_n.lhsIdx (ix2 p j) ((contrEquiv1 dot_S100000x512_S512x256_S100000x256_1_0_0_1_n_n 512 rfl rfl).symm k) = ix2 p k := funext fun a => Fin.ext (by
    match a with
    | ⟨0, _⟩ => exact rdot1_lhs0 _ _
    | ⟨1, _⟩ => exact (rdot1_lhs1 _ _).trans hk)
  have er : dot_S100000x512_S512x256_S100000x256_1_0_0_1_n_n.rhsIdx (ix2 p j) ((contrEquiv1 dot_S100000x512_S512x256_S100000x256_1_0_0_1_n_n 512 rfl rfl).symm k) = ix2 k j := funext fun a => Fin.ext (by
    match a with
    | ⟨0, _⟩ => exact (rdot1_rhs0 _ _).trans hk
    | ⟨1, _⟩ => exact rdot1_rhs1 _ _)
  rw [el, er]

theorem rdot2_lhs0 (i : S100000x32.Idx) (q : dot_S100000x256_S256x32_S100000x32_1_0_0_1_n_n.contr.Idx) :
    (dot_S100000x256_S256x32_S100000x32_1_0_0_1_n_n.lhsIdx i q 0).val = (i 0).val := by
  unfold DotDims.lhsIdx
  rw [dif_neg (show ¬(0 : Fin S100000x256.rank) ∈ dot_S100000x256_S256x32_S100000x32_1_0_0_1_n_n.lhsBatch by decide), dif_pos (show (0 : Fin S100000x256.rank) ∈ dot_S100000x256_S256x32_S100000x32_1_0_0_1_n_n.lhsNonContracting by decide)]
  rfl
theorem rdot2_lhs1 (i : S100000x32.Idx) (q : dot_S100000x256_S256x32_S100000x32_1_0_0_1_n_n.contr.Idx) :
    (dot_S100000x256_S256x32_S100000x32_1_0_0_1_n_n.lhsIdx i q 1).val = (q ⟨0, by decide⟩).val :=
  dot_S100000x256_S256x32_S100000x32_1_0_0_1_n_n.lhsIdx_val_of_single rfl i q
theorem rdot2_rhs0 (i : S100000x32.Idx) (q : dot_S100000x256_S256x32_S100000x32_1_0_0_1_n_n.contr.Idx) :
    (dot_S100000x256_S256x32_S100000x32_1_0_0_1_n_n.rhsIdx i q 0).val = (q ⟨0, by decide⟩).val :=
  dot_S100000x256_S256x32_S100000x32_1_0_0_1_n_n.rhsIdx_val_of_single rfl i q
theorem rdot2_rhs1 (i : S100000x32.Idx) (q : dot_S100000x256_S256x32_S100000x32_1_0_0_1_n_n.contr.Idx) :
    (dot_S100000x256_S256x32_S100000x32_1_0_0_1_n_n.rhsIdx i q 1).val = (i 1).val := by
  unfold DotDims.rhsIdx
  rw [dif_neg (show ¬(1 : Fin S256x32.rank) ∈ dot_S100000x256_S256x32_S100000x32_1_0_0_1_n_n.rhsBatch by decide), dif_pos (show (1 : Fin S256x32.rank) ∈ dot_S100000x256_S256x32_S100000x32_1_0_0_1_n_n.rhsNonContracting by decide)]
  rfl

/-- The contraction of a 100000-by-256 array with a 256-by-32 array, at (p, j): the sum over the 256 shared coordinates. -/
theorem rdot2_contr {φ₁ φ₂ : FTy} (lhs : FVec Ideal S100000x256 φ₁) (rhs : FVec Ideal S256x32 φ₂) (p : Fin 100000) (j : Fin 32) :
    ∑ k : dot_S100000x256_S256x32_S100000x32_1_0_0_1_n_n.contr.Idx, lhs (dot_S100000x256_S256x32_S100000x32_1_0_0_1_n_n.lhsIdx (ix2 p j) k) * rhs (dot_S100000x256_S256x32_S100000x32_1_0_0_1_n_n.rhsIdx (ix2 p j) k)
      = ∑ k : Fin 256, lhs (ix2 p k) * rhs (ix2 k j) := by
  rw [← Equiv.sum_comp (contrEquiv1 dot_S100000x256_S256x32_S100000x32_1_0_0_1_n_n 256 rfl rfl).symm]
  refine Finset.sum_congr rfl fun k _ => ?_
  have hk := contrEquiv1_symm_val dot_S100000x256_S256x32_S100000x32_1_0_0_1_n_n 256 rfl rfl k
  have el : dot_S100000x256_S256x32_S100000x32_1_0_0_1_n_n.lhsIdx (ix2 p j) ((contrEquiv1 dot_S100000x256_S256x32_S100000x32_1_0_0_1_n_n 256 rfl rfl).symm k) = ix2 p k := funext fun a => Fin.ext (by
    match a with
    | ⟨0, _⟩ => exact rdot2_lhs0 _ _
    | ⟨1, _⟩ => exact (rdot2_lhs1 _ _).trans hk)
  have er : dot_S100000x256_S256x32_S100000x32_1_0_0_1_n_n.rhsIdx (ix2 p j) ((contrEquiv1 dot_S100000x256_S256x32_S100000x32_1_0_0_1_n_n 256 rfl rfl).symm k) = ix2 k j := funext fun a => Fin.ext (by
    match a with
    | ⟨0, _⟩ => exact (rdot2_rhs0 _ _).trans hk
    | ⟨1, _⟩ => exact rdot2_rhs1 _ _)
  rw [el, er]

/-- The host's first matrix product, at (r, j). -/
theorem hostDot1_stage (X : FVec Ideal S100000x512 .f32) (W : FVec Ideal S512x256 .f32) (r : Fin 100000) (j : Fin 256) :
    Host.dotGeneral (F := Ideal) dot_S100000x512_S512x256_S100000x256_1_0_0_1_n_n none X W (ix2 r j)
      = ∑ k : Fin 512, X (ix2 r k) * W (ix2 k j) := by
  simp only [Host.dotGeneral]
  rw [Ideal.dotGeneral_apply]
  exact rdot1_contr X W r j

/-- The host's second matrix product, at (r, j). -/
theorem hostDot2_stage (H : FVec Ideal S100000x256 .f32) (W : FVec Ideal S256x32 .f32) (r : Fin 100000) (j : Fin 32) :
    Host.dotGeneral (F := Ideal) dot_S100000x256_S256x32_S100000x32_1_0_0_1_n_n none H W (ix2 r j)
      = ∑ k : Fin 256, H (ix2 r k) * W (ix2 k j) := by
  simp only [Host.dotGeneral]
  rw [Ideal.dotGeneral_apply]
  exact rdot2_contr H W r j

/-! ## Biases and the zero array at an index -/

theorem mlpB1Row_apply (b1 : (⟨S256, .f32⟩ : BufTy).Contents (Elt Ideal)) (u : Fin 1) (k : Fin 256) : mlpB1Row b1 (ix2 u k) = b1 (ix1 k) := by
  unfold mlpB1Row
  exact broadcastInDim_apply _ bcast_S256_S1x256_1 b1 (ix2 u k) (ix1 k) (fun a => match a with
    | ⟨0, _⟩ => by show k.val = if (256 : Nat) = 1 then 0 else k.val; rw [if_neg (by decide)])

theorem mlpB1Mat_apply (b1 : (⟨S256, .f32⟩ : BufTy).Contents (Elt Ideal)) (r : Fin 100000) (k : Fin 256) : mlpB1Mat b1 (ix2 r k) = b1 (ix1 k) := by
  unfold mlpB1Mat
  refine (broadcastInDim_apply _ bcast_S1x256_S100000x256_0_1 (mlpB1Row b1) (ix2 r k) (ix2 (0 : Fin 1) k) (fun a => match a with
    | ⟨0, _⟩ => by show 0 = if (1 : Nat) = 1 then 0 else r.val; rw [if_pos rfl]
    | ⟨1, _⟩ => by show k.val = if (256 : Nat) = 1 then 0 else k.val; rw [if_neg (by decide)])).trans ?_
  exact mlpB1Row_apply b1 0 k

theorem mlpB2Row_apply (b2 : (⟨S32, .f32⟩ : BufTy).Contents (Elt Ideal)) (u : Fin 1) (q : Fin 32) : mlpB2Row b2 (ix2 u q) = b2 (ix1 q) := by
  unfold mlpB2Row
  exact broadcastInDim_apply _ bcast_S32_S1x32_1 b2 (ix2 u q) (ix1 q) (fun a => match a with
    | ⟨0, _⟩ => by show q.val = if (32 : Nat) = 1 then 0 else q.val; rw [if_neg (by decide)])

theorem mlpB2Mat_apply (b2 : (⟨S32, .f32⟩ : BufTy).Contents (Elt Ideal)) (r : Fin 100000) (q : Fin 32) : mlpB2Mat b2 (ix2 r q) = b2 (ix1 q) := by
  unfold mlpB2Mat
  refine (broadcastInDim_apply _ bcast_S1x32_S100000x32_0_1 (mlpB2Row b2) (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])).trans ?_
  exact mlpB2Row_apply b2 0 q

theorem mlpZero_apply (i : S100000x256.Idx) : mlpZero (F := Ideal) i = Ideal.ofBits .f32 0x00000000#32 := by
  unfold mlpZero
  exact broadcastInDim_apply _ bcast_S_S100000x256 _ i (fun a => a.elim0) (fun a => a.elim0)

/-! ## The stages at a row -/

/-- The rectified sum of two arrays against a third, at an index. -/
theorem relu_stage (D B Z : FVec Ideal S100000x256 .f32) (i : S100000x256.Idx) :
    maximumf (addf D B) Z i = max (D i + B i) (Z i) := rfl

/-- A sum of two arrays, at an index. -/
theorem addf_stage (A B : FVec Ideal S100000x32 .f32) (i : S100000x32.Idx) : addf A B i = A i + B i := rfl

/-- The hidden array at (r, k) is the hidden row of input row r at k. -/
theorem mlpHid_apply (x : (⟨S100000x512, .f32⟩ : BufTy).Contents (Elt Ideal)) (W1 : (⟨S512x256, .f32⟩ : BufTy).Contents (Elt Ideal)) (b1 : (⟨S256, .f32⟩ : BufTy).Contents (Elt Ideal)) (r : Fin 100000) (k : Fin 256) :
    mlpHid x W1 b1 (ix2 r k) = mlpHidRow (fun k => x (ix2 r k)) (fun k j => W1 (ix2 k j)) (fun j => b1 (ix1 j)) k := by
  unfold mlpHid mlpPre mlpDot1
  rw [relu_stage, hostDot1_stage, mlpB1Mat_apply, mlpZero_apply]
  rfl

/-! ## The output array at an index -/

/-- The reference's perceptron output at (r, q) is the perceptron row of input row r at feature q. -/
theorem MLPr_apply (x : (⟨S100000x512, .f32⟩ : BufTy).Contents (Elt Ideal)) (W1 : (⟨S512x256, .f32⟩ : BufTy).Contents (Elt Ideal)) (b1 : (⟨S256, .f32⟩ : BufTy).Contents (Elt Ideal)) (W2 : (⟨S256x32, .f32⟩ : BufTy).Contents (Elt Ideal)) (b2 : (⟨S32, .f32⟩ : BufTy).Contents (Elt Ideal)) (r : Fin 100000) (q : Fin 32) :
    MLPr x W1 b1 W2 b2 (ix2 r q)
      = mlpRow (fun k => x (ix2 r k)) (fun k j => W1 (ix2 k j)) (fun j => b1 (ix1 j)) (fun k j => W2 (ix2 k j)) (fun j => b2 (ix1 j)) q := by
  unfold MLPr mlpDot2
  rw [addf_stage, hostDot2_stage, mlpB2Mat_apply]
  unfold mlpRow
  refine congrArg (· + b2 (ix1 q)) (Finset.sum_congr rfl fun k _ => ?_)
  rw [mlpHid_apply]

end Cert.Hand.Rows

end
-- ==== Proof.BlocksMlp.lean ====
import proofs.«111898_j25933012533347_2_alg».proof.Proof.Body0
import proofs.«111898_j25933012533347_2_alg».proof.Proof.MlpRow
import proofs.«111898_j25933012533347_2_alg».proof.Proof.RefMlp
import proofs.«111898_j25933012533347_2_alg».proof.Proof.KernelHost
import Idealize.ShloMosaic.Lib.Pipeline.Value
import Idealize.ShloMosaic.Lib.ValueIdx
import Idealize.ShloMosaic.Lib.ValueLayout

noncomputable section

namespace Cert.Hand.Blocks

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.SL Idealize.SL.RA
open Cert.Hand.Rows

variable (V : (c : Dev nD) → (b : Ref sig .tc) → Buf (Elt Ideal) ((c : Thread nD τ).loc b))

/-! # The perceptron region: from the blocks its points write to the whole result array

Every grid point writes 2000 rows of the result, computed from the same 2000 rows of the features and from the
whole weight matrices and bias rows, which every point reads alike; the blocks tile the array, so the array
ends holding the perceptron of the whole feature array. -/

theorem hz0 : (![0, 0] : Fin 2 → Nat) = fun _ => 0 := funext fun a => by fin_cases a <;> rfl

/-- The index maps over the grid: the features' and the result's block at point t is block (t, 0); the weights
    and the biases are read whole at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! A block's row is an array's row: row p of the features' block at point t is row 2000 t + p of the features;
    the other operands' blocks are the arrays themselves. -/

theorem iblk0_0_apply (c : Dev nD) (t : Fin cfg0.N) (p : Fin 2000) (k : Fin 512) (ht : 2000 * t.val + p.val < 100000) :
    (iblk0 V c 0 t : Vec Ideal S2000x512 .f32) (ix2 p k)
      = (V c main_arg0 : S100000x512.Idx → Elt Ideal .f32) (ix2 ⟨2000 * t.val + p.val, ht⟩ k) := by
  obtain ⟨e00, e01, e10, e11, e20, e21, e30, e31, e40, e41, e50, e51⟩ := idx_facts0 t
  unfold iblk0
  rw [View.read_apply]
  show V c main_arg0 _ = V c main_arg0 _
  congr 1
  funext a
  apply Fin.ext
  match a with
  | ⟨0, _⟩ => show win0_0.index t 0 * 2000 + 1 * p.val = 2000 * t.val + p.val; rw [e00]; omega
  | ⟨1, _⟩ => show win0_0.index t 1 * 512 + 1 * k.val = k.val; rw [e01]; omega

theorem iblk0_1_apply (c : Dev nD) (t : Fin cfg0.N) (k : Fin 512) (j : Fin 256) :
    (iblk0 V c 1 t : Vec Ideal S512x256 .f32) (ix2 k j) = (V c main_arg1 : S512x256.Idx → Elt Ideal .f32) (ix2 k j) := by
  obtain ⟨e00, e01, e10, e11, e20, e21, e30, e31, e40, e41, e50, e51⟩ := idx_facts0 t
  unfold iblk0
  rw [View.read_apply]
  show V c main_arg1 _ = V c main_arg1 _
  congr 1
  funext a
  apply Fin.ext
  match a with
  | ⟨0, _⟩ => show win0_1.index t 0 * 512 + 1 * k.val = k.val; rw [e10]; omega
  | ⟨1, _⟩ => show win0_1.index t 1 * 256 + 1 * j.val = j.val; rw [e11]; omega

theorem iblk0_2_apply (c : Dev nD) (t : Fin cfg0.N) (k : Fin 1) (j : Fin 256) :
    (iblk0 V c 2 t : Vec Ideal S1x256 .f32) (ix2 k j) = (V c main_v0 : S1x256.Idx → Elt Ideal .f32) (ix2 k j) := by
  obtain ⟨e00, e01, e10, e11, e20, e21, e30, e31, e40, e41, e50, e51⟩ := idx_facts0 t
  unfold iblk0
  rw [View.read_apply]
  show V c main_v0 _ = V c main_v0 _
  congr 1
  funext a
  apply Fin.ext
  match a with
  | ⟨0, _⟩ => show win0_2.index t 0 * 1 + 1 * k.val = k.val; rw [e20]; omega
  | ⟨1, _⟩ => show win0_2.index t 1 * 256 + 1 * j.val = j.val; rw [e21]; omega

theorem iblk0_3_apply (c : Dev nD) (t : Fin cfg0.N) (k : Fin 256) (j : Fin 32) :
    (iblk0 V c 3 t : Vec Ideal S256x32 .f32) (ix2 k j) = (V c main_arg3 : S256x32.Idx → Elt Ideal .f32) (ix2 k j) := by
  obtain ⟨e00, e01, e10, e11, e20, e21, e30, e31, e40, e41, e50, e51⟩ := idx_facts0 t
  unfold iblk0
  rw [View.read_apply]
  show V c main_arg3 _ = V c main_arg3 _
  congr 1
  funext a
  apply Fin.ext
  match a with
  | ⟨0, _⟩ => show win0_3.index t 0 * 256 + 1 * k.val = k.val; rw [e30]; omega
  | ⟨1, _⟩ => show win0_3.index t 1 * 32 + 1 * j.val = j.val; rw [e31]; omega

theorem iblk0_4_apply (c : Dev nD) (t : Fin cfg0.N) (k : Fin 1) (j : Fin 32) :
    (iblk0 V c 4 t : Vec Ideal S1x32 .f32) (ix2 k j) = (V c main_v1 : S1x32.Idx → Elt Ideal .f32) (ix2 k j) := by
  obtain ⟨e00, e01, e10, e11, e20, e21, e30, e31, e40, e41, e50, e51⟩ := idx_facts0 t
  unfold iblk0
  rw [View.read_apply]
  show V c main_v1 _ = V c main_v1 _
  congr 1
  funext a
  apply Fin.ext
  match a with
  | ⟨0, _⟩ => show win0_4.index t 0 * 1 + 1 * k.val = k.val; rw [e40]; omega
  | ⟨1, _⟩ => show win0_4.index t 1 * 32 + 1 * j.val = j.val; rw [e41]; omega

/-- A bias vector made a one-row matrix reads, in its row, the vector. -/
theorem B1k_apply (b : (⟨S256, .f32⟩ : BufTy).Contents (Elt Ideal)) (j : Fin 256) :
    Cert.Hand.WholeK.B1k b (ix2 (0 : Fin 1) j) = b (ix1 j) := by
  unfold Cert.Hand.WholeK.B1k
  exact shapeCast_a_1a_apply _ _ 0 j
theorem B2k_apply (b : (⟨S32, .f32⟩ : BufTy).Contents (Elt Ideal)) (j : Fin 32) :
    Cert.Hand.WholeK.B2k b (ix2 (0 : Fin 1) j) = b (ix1 j) := by
  unfold Cert.Hand.WholeK.B2k
  exact shapeCast_a_1a_apply _ _ 0 j

/-- What a point stores, computed from a block of feature rows and the whole weights and biases, is the
    perceptron of those rows. -/
theorem point_mlp (v0 : Vec Ideal S2000x512 .f32) (v1 : Vec Ideal S512x256 .f32) (v2 : Vec Ideal S1x256 .f32)
    (v3 : Vec Ideal S256x32 .f32) (v4 : Vec Ideal S1x32 .f32)
    (X : (⟨Cert.ReferenceIdeal.S100000x512, .f32⟩ : BufTy).Contents (Elt Ideal))
    (W1 : (⟨Cert.ReferenceIdeal.S512x256, .f32⟩ : BufTy).Contents (Elt Ideal))
    (b1 : (⟨Cert.ReferenceIdeal.S256, .f32⟩ : BufTy).Contents (Elt Ideal))
    (W2 : (⟨Cert.ReferenceIdeal.S256x32, .f32⟩ : BufTy).Contents (Elt Ideal))
    (b2 : (⟨Cert.ReferenceIdeal.S32, .f32⟩ : BufTy).Contents (Elt Ideal))
    (T : Nat) (p : Fin 2000) (q : Fin 32) (ht : 2000 * T + p.val < 100000)
    (h0 : ∀ k : Fin 512, v0 (ix2 p k) = X (ix2 ⟨2000 * T + p.val, ht⟩ k))
    (h1 : ∀ (k : Fin 512) (j : Fin 256), v1 (ix2 k j) = W1 (ix2 k j))
    (h2 : ∀ j : Fin 256, v2 (ix2 (0 : Fin 1) j) = b1 (ix1 j))
    (h3 : ∀ (k : Fin 256) (j : Fin 32), v3 (ix2 k j) = W2 (ix2 k j))
    (h4 : ∀ j : Fin 32, v4 (ix2 (0 : Fin 1) j) = b2 (ix1 j)) :
    k0_pay1 (F := Ideal) v0 v1 v2 v3 v4 (ix2 p q) = MLPr X W1 b1 W2 b2 (ix2 ⟨2000 * T + p.val, ht⟩ q) := by
  rw [k0_pay1_apply, MLPr_apply]
  simp only [h0, h1, h2, h3, h4]

section Region

variable (c : Dev nD) (b1 : (⟨S256, .f32⟩ : BufTy).Contents (Elt Ideal)) (b2 : (⟨S32, .f32⟩ : BufTy).Contents (Elt Ideal))
  (hb1 : V c main_v0 = Cert.Hand.WholeK.B1k b1) (hb2 : V c main_v1 = Cert.Hand.WholeK.B2k b2)

include hb1 hb2 in
/-- What point t writes back is block t of the perceptron of the operand arrays. -/
theorem flushed0_eq (t : Fin cfg0.N) :
    (dat0 (F := Ideal) V c).flushed 5 t
      = ((cfg0.win 5).blk t).view.read (Elt Ideal) (MLPr (V c main_arg0) (V c main_arg1) b1 (V c main_arg3) b2) := by
  show (cfg0.win 5).cut (grid0.coords t) ((dat0 V c).after 5 t) = _
  rw [after0_5]
  unfold out0_5
  rw [View.canon_unit_zero hz0]
  simp only [View.ld_unit_zero (S := S2000x512) hz0, View.ld_unit_zero (S := S512x256) hz0, View.ld_unit_zero (S := S1x256) hz0,
    View.ld_unit_zero (S := S256x32) hz0, View.ld_unit_zero (S := S1x32) hz0]
  obtain ⟨e00, e01, e10, e11, e20, e21, e30, e31, e40, e41, e50, e51⟩ := idx_facts0 t
  have hN : cfg0.N = 50 := N_0
  have hT : t.val < 50 := hN ▸ t.isLt
  funext j
  have hp : (j 0).val < 2000 := (j 0).isLt
  have hq : (j 1).val < 32 := (j 1).isLt
  have hr : 2000 * t.val + (j 0).val < 100000 := by omega
  have hj : (win0 5).xinj (grid0.coords t) j = ix2 ⟨(j 0).val, hp⟩ ⟨(j 1).val, hq⟩ := by
    funext a
    apply Fin.ext
    match a with
    | ⟨0, _⟩ => rfl
    | ⟨1, _⟩ => rfl
  have hi : ((cfg0.win 5).blk t).view.emb j = ix2 ⟨2000 * t.val + (j 0).val, hr⟩ ⟨(j 1).val, hq⟩ := by
    funext a
    apply Fin.ext
    match a with
    | ⟨0, _⟩ => show win0_5.index t 0 * 2000 + 1 * (j 0).val = 2000 * t.val + (j 0).val; rw [e50]; omega
    | ⟨1, _⟩ => show win0_5.index t 1 * 32 + 1 * (j 1).val = (j 1).val; rw [e51]; omega
  show k0_pay1 (F := Ideal) (iblk0 V c 0 t) (iblk0 V c 1 t) (iblk0 V c 2 t) (iblk0 V c 3 t) (iblk0 V c 4 t) ((win0 5).xinj (grid0.coords t) j)
    = MLPr (V c main_arg0) (V c main_arg1) b1 (V c main_arg3) b2 (((cfg0.win 5).blk t).view.emb j)
  rw [hj, hi]
  exact point_mlp _ _ _ _ _ _ _ _ _ _ t.val ⟨(j 0).val, hp⟩ ⟨(j 1).val, hq⟩ hr
    (fun k => iblk0_0_apply V c t _ k hr) (fun k j' => iblk0_1_apply V c t k j')
    (fun j' => (iblk0_2_apply V c t 0 j').trans ((congrFun hb1 _).trans (B1k_apply b1 j')))
    (fun k j' => iblk0_3_apply V c t k j')
    (fun j' => (iblk0_4_apply V c t 0 j').trans ((congrFun hb2 _).trans (B2k_apply b2 j')))

/-- An index of the array is in point t's block iff each coordinate is in the block's range. -/
theorem mem_blk0 (t : Fin cfg0.N) (i : S100000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v2).slice (win0_5.rect t)).set ↔ _
  rw [View.set_slice_whole, Rect.mem_set_unit]
  exact Iff.rfl

/-- Every row of the array is in some point's block: row r in block r / 2000. -/
theorem cover0 (i : S100000x32.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 32 := (i 1).isLt
  let t : Fin cfg0.N := ⟨(i 0).val / 2000, by rw [hN]; omega⟩
  obtain ⟨e00, e01, e10, e11, e20, e21, e30, e31, e40, e41, e50, e51⟩ := idx_facts0 t
  have htv : t.val = (i 0).val / 2000 := rfl
  refine ⟨t, flush0_5 t, ?_⟩
  rw [mem_blk0]
  intro a
  match a with
  | ⟨0, _⟩ => show win0_5.index t 0 * 2000 ≤ (i 0).val ∧ (i 0).val < win0_5.index t 0 * 2000 + 2000; rw [e50, htv]; omega
  | ⟨1, _⟩ => show win0_5.index t 1 * 32 ≤ (i 1).val ∧ (i 1).val < win0_5.index t 1 * 32 + 32; rw [e51]; omega

include hb1 hb2 in
/-- The perceptron region leaves, in its result array, the perceptron of the feature array. -/
theorem region_mlp :
    (dat0 (F := Ideal) V c).arrAt 5 cfg0.N = MLPr (V c main_arg0) (V c main_arg1) b1 (V c main_arg3) b2 :=
  (dat0 (F := Ideal) V c).arrAt_eq_of_cover 5 (MLPr (V c main_arg0) (V c main_arg1) b1 (V c main_arg3) b2)
    (fun t _ => flushed0_eq V c b1 b2 hb1 hb2 t) cover0

end Region

end Cert.Hand.Blocks

end
-- ==== Proof.KernelTotal.lean ====
import proofs.«111898_j25933012533347_2_alg».proof.Proof.KernelValue
import proofs.«111898_j25933012533347_2_alg».proof.Proof.Blocks
import proofs.«111898_j25933012533347_2_alg».proof.Proof.BlocksMlp
import proofs.«111898_j25933012533347_2_alg».proof.Proof.Run

noncomputable section

namespace Cert.Hand

open Cert.KernelIdeal Cert.KernelIdeal.Gen Cert.KernelIdeal.Hand
open Idealize.ShloMosaic Idealize.ShloMosaic.TcCoe Idealize.SL.Sem

/-- The idealized kernel program's result array ends at the projection followed by the three hops, of the arguments: the
    composition of the boundaries' equations with the four pipelines' values (each block of rows the rows of the whole-array
    formula). -/
theorem kernel_total (m : (ℓ : Loc nD τ sig) → Buf (Elt Ideal) ℓ) (c : Dev nD) :
    W10 (F := Ideal) m c (Proc.devRef .tc main_v75)
      = Whole.TOTALr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  kernel_value m c (fun V c b1 b2 hb1 hb2 => Blocks.region_mlp V c b1 b2 hb1 hb2) (fun V qs c => Blocks.region_upd1 V qs c)
    (fun V qs c => Blocks.region_upd2 V qs c) (fun V qs c => Blocks.region_upd3 V qs c)

/-- The idealized kernel program runs, ends with its result array at that function of the arguments, and leaves its
    arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75)
        = Whole.TOTALr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v75 (by decide))).trans (kernel_total m c),
     (h c _ (mem_uc main_arg0 (by decide))).trans (W10_kept m c main_arg0 (by decide) (by decide) (by decide) (by decide) (by decide) (by decide) (by decide) (by decide) (by decide) (by decide)),
     (h c _ (mem_uc main_arg1 (by decide))).trans (W10_kept m c main_arg1 (by decide) (by decide) (by decide) (by decide) (by decide) (by decide) (by decide) (by decide) (by decide) (by decide)),
     (h c _ (mem_uc main_arg2 (by decide))).trans (W10_kept m c main_arg2 (by decide) (by decide) (by decide) (by decide) (by decide) (by decide) (by decide) (by decide) (by decide) (by decide)),
     (h c _ (mem_uc main_arg3 (by decide))).trans (W10_kept m c main_arg3 (by decide) (by decide) (by decide) (by decide) (by decide) (by decide) (by decide) (by decide) (by decide) (by decide)),
     (h c _ (mem_uc main_arg4 (by decide))).trans (W10_kept m c main_arg4 (by decide) (by decide) (by decide) (by decide) (by decide) (by decide) (by decide) (by decide) (by decide) (by decide)),
     (h c _ (mem_uc main_arg5 (by decide))).trans (W10_kept m c main_arg5 (by decide) (by decide) (by decide) (by decide) (by decide) (by decide) (by decide) (by decide) (by decide) (by decide))⟩)
    (run_all (F := Ideal) m ρ)

end Cert.Hand

end
-- ==== Proof.lean ====
/-
  A three-hop adaptive-residual graph propagation after a two-layer projection: the kernel program against its plain
  reference, over the extended reals.

  Both programs compute  h = max(x·W1 + b1, 0)·W2 + b2  (rows of 512 → 256 → 32), the symmetric normalisation
  norm = dis[row]·dis[col] of the edge list with self loops (dis = deg^(-1/2) where deg > 0), and three times
      xk ← h + score(‖d‖)·d,   d = (xk − 1·(xk − A xk)) − h,   score(r) = max(r − ½, 0)/r where r > 0, else 0,
  with A xk the scatter-add over col of norm·xk[row].  In the kernel program the projection and each hop's row update run as
  pipelines over blocks of rows (2000 and 5000), everything else as whole-array operations; the reference is whole-array
  operations only.  At the ideal instance a change of float format is the identity, a matrix product into a zero
  accumulator is the plain sum over the contracted axis, and a lane sum is the plain sum over the row, so block by block the
  pipelines write exactly the rows of the reference's arrays; the gathers and scatter-adds are the same operations on both
  sides and are carried as opaque functions of equal operands.  No law of the extended reals beyond that is used, so the
  precondition (finite inputs) is never opened.

  The frames: each program runs to the end without a fault and leaves its six argument arrays as launched — for the two
  kernel programs from the run of @main as ten segments (four pipelines among six stretches of host operations), the first
  hop's pipeline holding in halves the one array two of its windows read; for the reference from the run of its list of
  host operations.  The kernel's idealization rewrote nothing, so its soundness statement is trivial.
-/
import proofs.«111898_j25933012533347_2_alg».proof.Defs
import proofs.«111898_j25933012533347_2_alg».proof.Proof.Gen.Kernel
import proofs.«111898_j25933012533347_2_alg».proof.Proof.Gen.KernelIdeal
import proofs.«111898_j25933012533347_2_alg».proof.Proof.Gen.ReferenceIdeal
import proofs.«111898_j25933012533347_2_alg».proof.Proof.Gen.Pre_finite_inputs
import proofs.«111898_j25933012533347_2_alg».proof.Proof.Run
import proofs.«111898_j25933012533347_2_alg».proof.Proof.WRun
import proofs.«111898_j25933012533347_2_alg».proof.Proof.RefTotal
import proofs.«111898_j25933012533347_2_alg».proof.Proof.KernelTotal
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- The idealized kernel program runs and leaves its arguments as launched. -/
theorem frame_ki : Cert.frame_KernelIdeal := fun m ρ _ => Cert.KernelIdeal.Hand.frame m ρ

/-- The reference runs and leaves its arguments as launched: no operation of its list writes an argument. -/
theorem frame_ri : Cert.frame_ReferenceIdeal := fun m ρ _ =>
  (θ_run Cert.ReferenceIdeal.defs _ _).mono (fun _ h c => (h c).2) (Cert.Hand.ref_run m ρ)

/-- The idealization rewrote no operation. -/
theorem preserves : Cert.preserves_Kernel_KernelIdeal := trivial

/-- From memories agreeing on the arguments both idealized programs end with the result array at one function of the
    arguments: the projection followed by the three hops. -/
theorem algebraic : Cert.algebraic_KernelIdeal_ReferenceIdeal := by
  intro m ρ m' ρ' _ hagree
  refine ⟨fun c => Cert.Hand.Whole.TOTALr (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.Hand.kernel_run m ρ, ?_⟩
  refine (θ_run Cert.ReferenceIdeal.defs _ _).mono (fun r h c => ⟨(h c).1.trans ?_, (h c).2⟩) (Cert.Hand.ref_run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
